-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S256 .f32) (main_arg15 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_v63 main_v67

def fn_part2 {F : FTy → Type} [FloatOps F] (main_arg8 : FVec F S256x128 .f32) (main_arg9 : FVec F S128 .f32) (main_arg10 : FVec F S256 .f32) (main_arg11 : FVec F S256 .f32) (main_arg12 : FVec F S256 .f32) (main_arg13 : FVec F S256 .f32) (main_arg14 : FVec F S256 .f32) (main_arg15 : FVec F S256 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S256 .f32) (main_arg6 : FVec F S256x256 .f32) (main_arg7 : FVec F S256 .f32) (main_arg8 : FVec F S256x128 .f32) (main_arg9 : FVec F S128 .f32) (main_arg10 : FVec F S256 .f32) (main_arg11 : FVec F S256 .f32) (main_arg12 : FVec F S256 .f32) (main_arg13 : FVec F S256 .f32) (main_arg14 : FVec F S256 .f32) (main_arg15 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) (main_arg10 : FVec F S256 .f32) (main_arg11 : FVec F S256 .f32) (main_arg12 : FVec F S256 .f32) (main_arg13 : FVec F S256 .f32) (main_arg14 : FVec F S256 .f32) (main_arg15 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S2000 : Shape := ⟨1, ![2000]⟩
abbrev S2000x1 : Shape := ⟨2, ![2000, 1]⟩
abbrev S850000x128 : Shape := ⟨2, ![850000, 128]⟩
abbrev S1x128 : Shape := ⟨2, ![1, 128]⟩

abbrev nBuf : Space → Nat
  | .hbm => 139
  | .vmem => 45
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S1x256, .f32⟩
  | 75 => ⟨S1x256, .f32⟩
  | 76 => ⟨S50000x256, .f32⟩
  | 77 => ⟨S50000x256, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x256, .f32⟩
  | 87 => ⟨S850000x1, .f32⟩
  | 88 => ⟨S850000x256, .f32⟩
  | 89 => ⟨S850000x256, .f32⟩
  | 90 => ⟨S_, .f32⟩
  | 91 => ⟨S50000x256, .f32⟩
  | 92 => ⟨S850000x1, .i32⟩
  | 93 => ⟨S50000x256, .f32⟩
  | 94 => ⟨S1x256, .f32⟩
  | 95 => ⟨S1x256, .f32⟩
  | 96 => ⟨S1x256, .f32⟩
  | 97 => ⟨S50000x256, .f32⟩
  | 98 => ⟨S50000x256, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x256, .f32⟩
  | 108 => ⟨S850000x1, .f32⟩
  | 109 => ⟨S850000x256, .f32⟩
  | 110 => ⟨S850000x256, .f32⟩
  | 111 => ⟨S_, .f32⟩
  | 112 => ⟨S50000x256, .f32⟩
  | 113 => ⟨S850000x1, .i32⟩
  | 114 => ⟨S50000x256, .f32⟩
  | 115 => ⟨S1x256, .f32⟩
  | 116 => ⟨S1x256, .f32⟩
  | 117 => ⟨S1x256, .f32⟩
  | 118 => ⟨S50000x256, .f32⟩
  | 119 => ⟨S50000x128, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x128, .f32⟩
  | 1 => ⟨S850000x1, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S256x128, .f32⟩
  | .local _ .vmem, ⟨43, _⟩ => ⟨S2000x128, .f32⟩
  | .local _ .vmem, ⟨44, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem4_1 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S50000x256.size a
  hwx5_4 : ∀ i : grid5.Coords, EltTy.bits .f32 = 32 ∨ (Rect.block (s := S50000x256) S2000x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S2000x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v65) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v65) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S2000x256.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v83) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S850000x128 : Shape := ⟨2, ![850000, 128]⟩
abbrev S1x128 : Shape := ⟨2, ![1, 128]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000, .f32⟩
  | 78 => ⟨S50000x1, .f32⟩
  | 79 => ⟨S_, .f32⟩
  | 80 => ⟨S50000x1, .f32⟩
  | 81 => ⟨S50000x1, .f32⟩
  | 82 => ⟨S50000x256, .f32⟩
  | 83 => ⟨S50000x256, .f32⟩
  | 84 => ⟨S50000x256, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x256, .f32⟩
  | 92 => ⟨S50000x256, .f32⟩
  | 93 => ⟨S_, .f32⟩
  | 94 => ⟨S50000x1, .f32⟩
  | 95 => ⟨S50000x1, .f32⟩
  | 96 => ⟨S50000x1, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S_, .f32⟩
  | 106 => ⟨S50000x256, .f32⟩
  | 107 => ⟨S50000x256, .i1⟩
  | 108 => ⟨S_, .f32⟩
  | 109 => ⟨S50000x256, .f32⟩
  | 110 => ⟨S50000x256, .i1⟩
  | 111 => ⟨S_, .f32⟩
  | 112 => ⟨S_, .f32⟩
  | 113 => ⟨S50000x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S50000x256, .f32⟩
  | 120 => ⟨S50000x256, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x256, .f32⟩
  | 2 => ⟨S850000x1, .f32⟩
  | 3 => ⟨S850000x256, .f32⟩
  | 4 => ⟨S850000x256, .f32⟩
  | 5 => ⟨S_, .f32⟩
  | 6 => ⟨S50000x256, .f32⟩
  | 7 => ⟨S850000x1, .i32⟩
  | 8 => ⟨S50000x256, .f32⟩
  | 9 => ⟨S1x256, .f32⟩
  | 10 => ⟨S50000x256, .f32⟩
  | 11 => ⟨S50000x256, .f32⟩
  | 12 => ⟨S_, .f32⟩
  | 13 => ⟨S50000, .f32⟩
  | 14 => ⟨S50000x1, .f32⟩
  | 15 => ⟨S_, .f32⟩
  | 16 => ⟨S50000x1, .f32⟩
  | 17 => ⟨S50000x1, .f32⟩
  | 18 => ⟨S50000x256, .f32⟩
  | 19 => ⟨S50000x256, .f32⟩
  | 20 => ⟨S50000x256, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S50000x256, .f32⟩
  | 28 => ⟨S50000x256, .f32⟩
  | 29 => ⟨S_, .f32⟩
  | 30 => ⟨S50000x1, .f32⟩
  | 31 => ⟨S50000x1, .f32⟩
  | 32 => ⟨S50000x1, .f32⟩
  | 33 => ⟨S50000x256, .f32⟩
  | 34 => ⟨S50000x256, .f32⟩
  | 35 => ⟨S1x256, .f32⟩
  | 36 => ⟨S50000x256, .f32⟩
  | 37 => ⟨S50000x256, .f32⟩
  | 38 => ⟨S1x256, .f32⟩
  | 39 => ⟨S50000x256, .f32⟩
  | 40 => ⟨S50000x256, .f32⟩
  | 41 => ⟨S_, .f32⟩
  | 42 => ⟨S50000x256, .f32⟩
  | 43 => ⟨S50000x256, .i1⟩
  | 44 => ⟨S_, .f32⟩
  | 45 => ⟨S50000x256, .f32⟩
  | 46 => ⟨S50000x256, .i1⟩
  | 47 => ⟨S_, .f32⟩
  | 48 => ⟨S_, .f32⟩
  | 49 => ⟨S50000x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S50000x256, .f32⟩
  | 56 => ⟨S50000x256, .f32⟩
  | 57 => ⟨S50000x256, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x256, .f32⟩
  | 67 => ⟨S850000x1, .f32⟩
  | 68 => ⟨S850000x256, .f32⟩
  | 69 => ⟨S850000x256, .f32⟩
  | 70 => ⟨S_, .f32⟩
  | 71 => ⟨S50000x256, .f32⟩
  | 72 => ⟨S850000x1, .i32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x256, .f32⟩
  | 84 => ⟨S50000x256, .f32⟩
  | 85 => ⟨S50000x256, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S50000x256, .f32⟩
  | 93 => ⟨S50000x256, .f32⟩
  | 94 => ⟨S_, .f32⟩
  | 95 => ⟨S50000x1, .f32⟩
  | 96 => ⟨S50000x1, .f32⟩
  | 97 => ⟨S50000x1, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S1x256, .f32⟩
  | 104 => ⟨S50000x256, .f32⟩
  | 105 => ⟨S50000x256, .f32⟩
  | 106 => ⟨S_, .f32⟩
  | 107 => ⟨S50000x256, .f32⟩
  | 108 => ⟨S50000x256, .i1⟩
  | 109 => ⟨S_, .f32⟩
  | 110 => ⟨S50000x256, .f32⟩
  | 111 => ⟨S50000x256, .i1⟩
  | 112 => ⟨S_, .f32⟩
  | 113 => ⟨S_, .f32⟩
  | 114 => ⟨S50000x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S50000x256, .f32⟩
  | 121 => ⟨S50000x256, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_2 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S50000x128, .f32⟩
  | 13 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_cst_1 : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_v4 : Ref sig .tc := ⟨.hbm, 114, rfl⟩
abbrev main_call1_v5 : Ref sig .tc := ⟨.hbm, 115, rfl⟩
abbrev main_call1_cst_2 : Ref sig .tc := ⟨.hbm, 116, rfl⟩
abbrev main_call1_v6 : Ref sig .tc := ⟨.hbm, 117, rfl⟩
abbrev main_call1_v7 : Ref sig .tc := ⟨.hbm, 118, rfl⟩
abbrev main_v71 : Ref sig .tc := ⟨.hbm, 119, rfl⟩
abbrev main_v72 : Ref sig .tc := ⟨.hbm, 120, rfl⟩
abbrev main_c_14 : Ref sig .tc := ⟨.hbm, 121, rfl⟩
abbrev main_v73 : Ref sig .tc := ⟨.hbm, 122, rfl⟩
abbrev main_v74 : Ref sig .tc := ⟨.hbm, 123, rfl⟩
abbrev main_c_15 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_16 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_17 : Ref sig .tc := ⟨.hbm, 140, rfl⟩
abbrev main_v89 : Ref sig .tc := ⟨.hbm, 141, rfl⟩
abbrev main_v90 : Ref sig .tc := ⟨.hbm, 142, rfl⟩
abbrev main_cst_18 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_19 : Ref sig .tc := ⟨.hbm, 149, rfl⟩
abbrev main_v96 : Ref sig .tc := ⟨.hbm, 150, rfl⟩
abbrev main_v97 : Ref sig .tc := ⟨.hbm, 151, rfl⟩
abbrev main_cst_20 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_21 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call2_cst : Ref sig .tc := ⟨.hbm, 169, rfl⟩
abbrev main_call2_v0 : Ref sig .tc := ⟨.hbm, 170, rfl⟩
abbrev main_call2_v1 : Ref sig .tc := ⟨.hbm, 171, rfl⟩
abbrev main_call2_cst_0 : Ref sig .tc := ⟨.hbm, 172, rfl⟩
abbrev main_call2_v2 : Ref sig .tc := ⟨.hbm, 173, rfl⟩
abbrev main_call2_v3 : Ref sig .tc := ⟨.hbm, 174, rfl⟩
abbrev main_call2_cst_1 : Ref sig .tc := ⟨.hbm, 175, rfl⟩
abbrev main_call2_call0_v0 : Ref sig .tc := ⟨.hbm, 176, rfl⟩
abbrev main_call2_call0_v1 : Ref sig .tc := ⟨.hbm, 177, rfl⟩
abbrev main_call2_v4 : Ref sig .tc := ⟨.hbm, 178, rfl⟩
abbrev main_call2_v5 : Ref sig .tc := ⟨.hbm, 179, rfl⟩
abbrev main_call2_cst_2 : Ref sig .tc := ⟨.hbm, 180, rfl⟩
abbrev main_call2_v6 : Ref sig .tc := ⟨.hbm, 181, rfl⟩
abbrev main_call2_v7 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_c_22 : Ref sig .tc := ⟨.hbm, 186, rfl⟩
abbrev main_v116 : Ref sig .tc := ⟨.hbm, 187, rfl⟩
abbrev main_v117 : Ref sig .tc := ⟨.hbm, 188, rfl⟩
abbrev main_c_23 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_24 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_25 : Ref sig .tc := ⟨.hbm, 205, rfl⟩
abbrev main_v132 : Ref sig .tc := ⟨.hbm, 206, rfl⟩
abbrev main_v133 : Ref sig .tc := ⟨.hbm, 207, rfl⟩
abbrev main_cst_26 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_cst_27 : Ref sig .tc := ⟨.hbm, 214, rfl⟩
abbrev main_v139 : Ref sig .tc := ⟨.hbm, 215, rfl⟩
abbrev main_v140 : Ref sig .tc := ⟨.hbm, 216, rfl⟩
abbrev main_cst_28 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_29 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_call3_cst : Ref sig .tc := ⟨.hbm, 234, rfl⟩
abbrev main_call3_v0 : Ref sig .tc := ⟨.hbm, 235, rfl⟩
abbrev main_call3_v1 : Ref sig .tc := ⟨.hbm, 236, rfl⟩
abbrev main_call3_cst_0 : Ref sig .tc := ⟨.hbm, 237, rfl⟩
abbrev main_call3_v2 : Ref sig .tc := ⟨.hbm, 238, rfl⟩
abbrev main_call3_v3 : Ref sig .tc := ⟨.hbm, 239, rfl⟩
abbrev main_call3_cst_1 : Ref sig .tc := ⟨.hbm, 240, rfl⟩
abbrev main_call3_call0_v0 : Ref sig .tc := ⟨.hbm, 241, rfl⟩
abbrev main_call3_call0_v1 : Ref sig .tc := ⟨.hbm, 242, rfl⟩
abbrev main_call3_v4 : Ref sig .tc := ⟨.hbm, 243, rfl⟩
abbrev main_call3_v5 : Ref sig .tc := ⟨.hbm, 244, rfl⟩
abbrev main_call3_cst_2 : Ref sig .tc := ⟨.hbm, 245, rfl⟩
abbrev main_call3_v6 : Ref sig .tc := ⟨.hbm, 246, rfl⟩
abbrev main_call3_v7 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_c_30 : Ref sig .tc := ⟨.hbm, 251, rfl⟩
abbrev main_v159 : Ref sig .tc := ⟨.hbm, 252, rfl⟩
abbrev main_v160 : Ref sig .tc := ⟨.hbm, 253, rfl⟩
abbrev main_c_31 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_cst_32 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named: every weakly fair execution of the program terminates
  without a fault, the argument arrays end as launched, and the result array ends at the contents the
  program's segments leave in it — the host stretches' folds and the seven regions' write-backs composed from the
  launch memory (the boundary contents `W14` of the frame module).  The run is the frame module's launch over the
  same segments; only the final reading differs: besides the arguments it reads the result buffer.
-/
import proofs.«171627_j76175539962264_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_out : θ_run defs (onTc (τ := τ) (main (F := F))) ⟨m, fun _ => 0, ρ⟩ (fun r => ∀ c : Dev nD,
      r.2.mem ((c.tc : Thread nD τ).loc main_v100) = W14 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v100 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.KernelIdeal.Out

end
-- ==== Proof.Spec.lean ====
/-
  The common value of the two programs, as one function of the argument arrays.

  A four-layer graph convolution over N = 50000 nodes and E = 800000 edges plus one self loop per node
  (850000 edge slots).  With `src`, `dst` the edge endpoints followed by `0 … N-1`, `deg` the number of slots
  arriving at each node, `dinv = deg^(-1/2)` (0 where `deg` is not positive) and `nrm e = dinv(src e) · dinv(dst e)`,
  one aggregation of a node matrix `h` is `agg h = Σ_{e : dst e = r} h(src e, ·) · nrm e` (a row gather, a scale,
  a scatter-add into zeros).  A hidden layer is `elu (layerNorm (agg (h · W) + b) · g + t)`, from the second on
  with the previous layer's output added; the last layer is `agg (h · W3) + b3`.
  Everything is written with the host operations of the reference program, so that the reference's own
  composed term is this function by unfolding; the kernel's regions (matrix products, normalisation rows) are
  proved equal to the corresponding pieces elsewhere.
-/
import proofs.«171627_j76175539962264_1_alg».proof.ReferenceIdeal
import proofs.«171627_j76175539962264_1_alg».proof.Proof.Gen.ReferenceIdeal
import Idealize.ShloMosaic.PureOps.Ideal

noncomputable section

namespace Cert.Spec

open Idealize.ShloMosaic Cert.ReferenceIdeal Cert.ReferenceIdeal.Gen

/-! ## Edge lists, degrees and the edge weights -/

/-- Row `k` of the edge table followed by the self loops `0 … N-1`. -/
def endpoints (slice : IVec S2x800000 32 → IVec S1x800000 32) (ei : IVec S2x800000 32) : IVec S850000 32 :=
  concatenate S850000 0 [⟨S800000, fun i => shapeCast S800000 (slice ei) shapeCasts_S1x800000_S800000 i⟩, ⟨S50000, iotaInDim S50000 32 0⟩]
    concatenates_S800000_S50000_S850000_d0

/-- Edge sources, then self loops. -/
def src (ei : IVec S2x800000 32) : IVec S850000 32 :=
  endpoints (extractStridedSlice S1x800000 ![0, 0] · slices_S2x800000_S1x800000_0_0) ei

/-- Edge destinations, then self loops. -/
def dst (ei : IVec S2x800000 32) : IVec S850000 32 :=
  endpoints (extractStridedSlice S1x800000 ![1, 0] · slices_S2x800000_S1x800000_1_0) ei

/-- A list of node numbers as an [E,1] column of positions, as stored. -/
def col (v : IVec S850000 32) : IVec S850000x1 32 :=
  broadcastInDim S850000x1 ![0] bcast_S850000_S850000x1_0 v

/-- A list of node numbers as an [E,1] column of positions, a negative number counted from the end. -/
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The number of edge slots arriving at each node. -/
def deg (d : IVec S850000 32) : FVec Ideal S50000 .f32 :=
  Host.scatterAdd scatter_S50000_S850000x1_S850000_n_0_0_1
    (broadcastInDim S50000 ![] bcast_S_S50000 (constant S_ .f32 0x00000000#32)) (col d)
    (broadcastInDim S850000 ![] bcast_S_S850000 (constant S_ .f32 0x3F800000#32))

/-- `deg^(-1/2)`, and 0 where the degree is not positive. -/
def dinv (d : IVec S850000 32) : FVec Ideal S50000 .f32 :=
  select (cmpf .ogt (deg d) (broadcastInDim S50000 ![] bcast_S_S50000 (constant S_ .f32 0x00000000#32)))
    (Host.rsqrt (deg d))
    (broadcastInDim S50000 ![] bcast_S_S50000 (id (constant S_ .f32 0x00000000#32)))

/-- The weight of each edge slot: `dinv` at its source times `dinv` at its destination. -/
def nrm (s d : IVec S850000 32) : FVec Ideal S850000 .f32 :=
  mulf (Host.gather gather_S50000_S850000x1_S850000_n_0_n_n_0_1_1 (dinv d) (wrapCol s))
    (Host.gather gather_S50000_S850000x1_S850000_n_0_n_n_0_1_1 (dinv d) (wrapCol d))

/-! ## One aggregation -/

/-- Rows of `h` gathered at the sources, scaled by the edge weights, summed into their destinations (256 columns). -/
def agg256 (h : FVec Ideal S50000x256 .f32) (s d : IVec S850000 32) (w : FVec Ideal S850000 .f32) : FVec Ideal S50000x256 .f32 :=
  Host.scatterAdd scatter_S50000x256_S850000x1_S850000x256_1_0_0_1
    (broadcastInDim S50000x256 ![] bcast_S_S50000x256 (constant S_ .f32 0x00000000#32)) (col d)
    (mulf (Host.gather gather_S50000x256_S850000x1_S850000x256_1_0_n_n_0_1_1256 h (wrapCol s))
      (broadcastInDim S850000x256 ![0, 1] bcast_S850000x1_S850000x256_0_1
        (broadcastInDim S850000x1 ![0] bcast_S850000_S850000x1_0 w)))

/-- The same with 128 columns. -/
def agg128 (h : FVec Ideal S50000x128 .f32) (s d : IVec S850000 32) (w : FVec Ideal S850000 .f32) : FVec Ideal S50000x128 .f32 :=
  Host.scatterAdd scatter_S50000x128_S850000x1_S850000x128_1_0_0_1
    (broadcastInDim S50000x128 ![] bcast_S_S50000x128 (constant S_ .f32 0x00000000#32)) (col d)
    (mulf (Host.gather gather_S50000x128_S850000x1_S850000x128_1_0_n_n_0_1_1128 h (wrapCol s))
      (broadcastInDim S850000x128 ![0, 1] bcast_S850000x1_S850000x128_0_1
        (broadcastInDim S850000x1 ![0] bcast_S850000_S850000x1_0 w)))

/-! ## The dense products -/

def mm0 (x : FVec Ideal S50000x128 .f32) (w : FVec Ideal S128x256 .f32) : FVec Ideal S50000x256 .f32 :=
  Host.dotGeneral dot_S50000x128_S128x256_S50000x256_1_0_0_1_n_n none x w
def mm1 (x : FVec Ideal S50000x256 .f32) (w : FVec Ideal S256x256 .f32) : FVec Ideal S50000x256 .f32 :=
  Host.dotGeneral dot_S50000x256_S256x256_S50000x256_1_0_0_1_n_n none x w
def mm3 (x : FVec Ideal S50000x256 .f32) (w : FVec Ideal S256x128 .f32) : FVec Ideal S50000x128 .f32 :=
  Host.dotGeneral dot_S50000x256_S256x128_S50000x128_1_0_0_1_n_n none x w

/-! ## Bias, row normalisation, scale and shift; the activation -/

/-- A length-256 vector as a [1,256] row. -/
def row (v : FVec Ideal S256 .f32) : FVec Ideal S1x256 .f32 := broadcastInDim S1x256 ![1] bcast_S256_S1x256_1 v

/-- A [1,256] row repeated down 50000 rows. -/
def rows (v : FVec Ideal S1x256 .f32) : FVec Ideal S50000x256 .f32 := broadcastInDim S50000x256 ![0, 1] bcast_S1x256_S50000x256_0_1 v

/-- A row sum divided by 256, as a [50000,1] column. -/
def mean256 (y : FVec Ideal S50000x256 .f32) : FVec Ideal S50000x1 .f32 :=
  Host.divf (broadcastInDim S50000x1 ![0] bcast_S50000_S50000x1_0
      (Host.reduceAdd y (constant S_ .f32 0x00000000#32) reducesTo_S50000x256_S50000_d1 h_S_))
    (broadcastInDim S50000x1 ![] bcast_S_S50000x1 (constant S_ .f32 0x43800000#32))

/-- A [50000,1] column repeated across 256 columns. -/
def cols (v : FVec Ideal S50000x1 .f32) : FVec Ideal S50000x256 .f32 := broadcastInDim S50000x256 ![0, 1] bcast_S50000x1_S50000x256_0_1 v

/-- `(y - mean y) · rsqrt (var y + ε) · g + t` of `y = x + b`, row by row; `b g t` are [1,256] rows. -/
def ln (x : FVec Ideal S50000x256 .f32) (b g t : FVec Ideal S1x256 .f32) : FVec Ideal S50000x256 .f32 :=
  addf (mulf (mulf (subf (addf x (rows b)) (cols (mean256 (addf x (rows b)))))
        (cols (Host.rsqrt (addf (mean256 (mulf (subf (addf x (rows b)) (cols (mean256 (addf x (rows b)))))
              (subf (addf x (rows b)) (cols (mean256 (addf x (rows b)))))))
          (broadcastInDim S50000x1 ![] bcast_S_S50000x1 (constant S_ .f32 0x3727C5AC#32))))))
      (rows g)) (rows t)

/-- `z` where `z > 0`, else `1 · expm1 z` (the argument of `expm1` replaced by 0 where `z > 0`). -/
def elu (z : FVec Ideal S50000x256 .f32) : FVec Ideal S50000x256 .f32 :=
  select (cmpf .ogt z (broadcastInDim S50000x256 ![] bcast_S_S50000x256 (constant S_ .f32 0x00000000#32))) z
    (mulf (broadcastInDim S50000x256 ![] bcast_S_S50000x256 (constant S_ .f32 0x3F800000#32))
      (Host.expm1 (select (cmpf .ogt z (broadcastInDim S50000x256 ![] bcast_S_S50000x256 (constant S_ .f32 0x00000000#32)))
        (broadcastInDim S50000x256 ![] bcast_S_S50000x256 (id (constant S_ .f32 0x00000000#32))) z)))

/-- A hidden layer's normalisation and activation: `elu (ln x b g t)` over [1,256] rows `b g t`. -/
def act (x : FVec Ideal S50000x256 .f32) (b g t : FVec Ideal S1x256 .f32) : FVec Ideal S50000x256 .f32 := elu (ln x b g t)

/-- The same with the previous layer's output added. -/
def actRes (x : FVec Ideal S50000x256 .f32) (b g t : FVec Ideal S1x256 .f32) (r : FVec Ideal S50000x256 .f32) : FVec Ideal S50000x256 .f32 :=
  addf (act x b g t) r

/-- The last layer's bias over all rows. -/
def biasOut (b : FVec Ideal S128 .f32) : FVec Ideal S50000x128 .f32 :=
  broadcastInDim S50000x128 ![0, 1] bcast_S1x128_S50000x128_0_1 (broadcastInDim S1x128 ![1] bcast_S128_S1x128_1 b)

/-! ## The layers and the result -/

def h0 (x : FVec Ideal S50000x128 .f32) (ei : IVec S2x800000 32) (W0 : FVec Ideal S128x256 .f32) (b0 g0 t0 : FVec Ideal S256 .f32) : FVec Ideal S50000x256 .f32 :=
  act (agg256 (mm0 x W0) (src ei) (dst ei) (nrm (src ei) (dst ei))) (row b0) (row g0) (row t0)

def hNext (h : FVec Ideal S50000x256 .f32) (ei : IVec S2x800000 32) (W : FVec Ideal S256x256 .f32) (b g t : FVec Ideal S256 .f32) : FVec Ideal S50000x256 .f32 :=
  actRes (agg256 (mm1 h W) (src ei) (dst ei) (nrm (src ei) (dst ei))) (row b) (row g) (row t) h

def last (h : FVec Ideal S50000x256 .f32) (ei : IVec S2x800000 32) (W3 : FVec Ideal S256x128 .f32) (b3 : FVec Ideal S128 .f32) : FVec Ideal S50000x128 .f32 :=
  addf (agg128 (mm3 h W3) (src ei) (dst ei) (nrm (src ei) (dst ei))) (biasOut b3)

/-- The result array as a function of the sixteen argument arrays. -/
def out (x : FVec Ideal S50000x128 .f32) (ei : IVec S2x800000 32)
    (W0 : FVec Ideal S128x256 .f32) (b0 : FVec Ideal S256 .f32) (W1 : FVec Ideal S256x256 .f32) (b1 : FVec Ideal S256 .f32)
    (W2 : FVec Ideal S256x256 .f32) (b2 : FVec Ideal S256 .f32) (W3 : FVec Ideal S256x128 .f32) (b3 : FVec Ideal S128 .f32)
    (g0 t0 g1 t1 g2 t2 : FVec Ideal S256 .f32) : FVec Ideal S50000x128 .f32 :=
  last (hNext (hNext (h0 x ei W0 b0 g0 t0) ei W1 b1 g1 t1) ei W2 b2 g2 t2) ei W3 b3

end Cert.Spec

end
-- ==== Proof.HostValue.lean ====
/-
  What the idealized kernel's host stretches compute, for arbitrary contents `U` of the TensorCore's buffers on
  entry: the edge lists, degrees and edge weights of the prelude; each aggregation (gather the rows at the sources,
  scale by the edge weight, scatter-add into the destinations); the [256] vectors laid out as [1,256] rows; the last
  bias.  Each is the corresponding piece of `Cert.Spec` of the buffers read.
-/
import proofs.«171627_j76175539962264_1_alg».proof.Proof.Gen.KernelIdeal.Launch
import proofs.«171627_j76175539962264_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

/-- A [256] vector reshaped to [1,256] is the vector laid along the second axis: both read entry (0, q) at q. -/
theorem reshape_row (b : FVec Ideal S256 .f32) :
    (fun i => shapeCast S1x256 b shapeCasts_S256_S1x256 i) = Cert.Spec.row b := by
  funext j
  obtain ⟨p, q, rfl⟩ : ∃ (p : Fin 1) (q : Fin 256), j = ix2 p q := ⟨j 0, j 1, eq_ix2 j⟩
  unfold Cert.Spec.row
  rw [shapeCast_apply b shapeCasts_S256_S1x256 (ix2 p q) (ix1 q) (by
        rw [Shape.rowMajor_val_one, Shape.rowMajor_val_two]
        show q.val = p.val * 256 + q.val
        have := p.isLt; omega),
    broadcastInDim_apply _ _ b (ix2 p q) (ix1 q) (fun a => by
        match a with
        | ⟨0, _⟩ => rfl)]

variable (U : Valuation τ sig (Elt Ideal))

/-! ## The prelude, stretch by stretch -/

theorem h0_src : after (hostOps0 (F := Ideal)) U (Proc.devRef .tc main_v3) = Cert.Spec.src (U (Proc.devRef .tc main_arg1)) := by
  after_results
  rfl

theorem h0_dst : after (hostOps0 (F := Ideal)) U (Proc.devRef .tc main_v6) = Cert.Spec.dst (U (Proc.devRef .tc main_arg1)) := by
  after_results
  rfl

/-- Where the degree is positive. -/
theorem h0_pos :
    after (hostOps0 (F := Ideal)) U (Proc.devRef .tc main_v12)
      = cmpf .ogt (Cert.Spec.deg (Cert.Spec.dst (U (Proc.devRef .tc main_arg1)))) (broadcastInDim S50000 ![] bcast_S_S50000 (constant S_ .f32 0x00000000#32)) := by
  after_results
  rfl

/-- The degree to the power -1/2. -/
theorem h0_rsqrt :
    after (hostOps0 (F := Ideal)) U (Proc.devRef .tc main_v13) = Host.rsqrt (Cert.Spec.deg (Cert.Spec.dst (U (Proc.devRef .tc main_arg1)))) := by
  after_results
  rfl

theorem h0_zero :
    after (hostOps0 (F := Ideal)) U (Proc.devRef .tc main_cst_2) = (constant S_ .f32 0x00000000#32 : FVec Ideal S_ .f32) := by
  after_results

/-- The select of the outlined `where`. -/
theorem h01_dinv :
    after (hostOps0_1 (F := Ideal)) U (Proc.devRef .tc main_v14)
      = select (U (Proc.devRef .tc main_v12)) (U (Proc.devRef .tc main_v13)) (broadcastInDim S50000 ![] bcast_S_S50000 (id (U (Proc.devRef .tc main_cst_2)))) := by
  after_results_simp
  rfl

/-- The edge weights from the per-node factor and the two edge lists. -/
theorem h02_nrm :
    after (hostOps0_2 (F := Ideal)) U (Proc.devRef .tc main_v29)
      = (mulf (Host.gather gather_S50000_S850000x1_S850000_n_0_n_n_0_1_1 (U (Proc.devRef .tc main_v14)) (Cert.Spec.wrapCol (U (Proc.devRef .tc main_v3))))
          (Host.gather gather_S50000_S850000x1_S850000_n_0_n_n_0_1_1 (U (Proc.devRef .tc main_v14)) (Cert.Spec.wrapCol (U (Proc.devRef .tc main_v6)))) : FVec Ideal S850000 .f32) := by
  after_results_simp
  rfl

/-! ## The aggregations and the rows -/

theorem hostOps1_agg :
    after (hostOps1 (F := Ideal)) U (Proc.devRef .tc main_v43)
      = Cert.Spec.agg256 (U (Proc.devRef .tc main_v30)) (U (Proc.devRef .tc main_v3)) (U (Proc.devRef .tc main_v6)) (U (Proc.devRef .tc main_v29)) := by
  after_results_simp
  rfl

theorem hostOps1_main_v44 :
    after (hostOps1 (F := Ideal)) U (Proc.devRef .tc main_v44) = Cert.Spec.row (U (Proc.devRef .tc main_arg3)) := by
  after_results_simp
  exact reshape_row _

theorem hostOps1_main_v45 :
    after (hostOps1 (F := Ideal)) U (Proc.devRef .tc main_v45) = Cert.Spec.row (U (Proc.devRef .tc main_arg10)) := by
  after_results_simp
  exact reshape_row _

theorem hostOps1_main_v46 :
    after (hostOps1 (F := Ideal)) U (Proc.devRef .tc main_v46) = Cert.Spec.row (U (Proc.devRef .tc main_arg11)) := by
  after_results_simp
  exact reshape_row _

theorem hostOps3_agg :
    after (hostOps3 (F := Ideal)) U (Proc.devRef .tc main_v61)
      = Cert.Spec.agg256 (U (Proc.devRef .tc main_v48)) (U (Proc.devRef .tc main_v3)) (U (Proc.devRef .tc main_v6)) (U (Proc.devRef .tc main_v29)) := by
  after_results_simp
  rfl

theorem hostOps3_main_v62 :
    after (hostOps3 (F := Ideal)) U (Proc.devRef .tc main_v62) = Cert.Spec.row (U (Proc.devRef .tc main_arg5)) := by
  after_results_simp
  exact reshape_row _

theorem hostOps3_main_v63 :
    after (hostOps3 (F := Ideal)) U (Proc.devRef .tc main_v63) = Cert.Spec.row (U (Proc.devRef .tc main_arg12)) := by
  after_results_simp
  exact reshape_row _

theorem hostOps3_main_v64 :
    after (hostOps3 (F := Ideal)) U (Proc.devRef .tc main_v64) = Cert.Spec.row (U (Proc.devRef .tc main_arg13)) := by
  after_results_simp
  exact reshape_row _

theorem hostOps5_agg :
    after (hostOps5 (F := Ideal)) U (Proc.devRef .tc main_v79)
      = Cert.Spec.agg256 (U (Proc.devRef .tc main_v66)) (U (Proc.devRef .tc main_v3)) (U (Proc.devRef .tc main_v6)) (U (Proc.devRef .tc main_v29)) := by
  after_results_simp
  rfl

theorem hostOps5_main_v80 :
    after (hostOps5 (F := Ideal)) U (Proc.devRef .tc main_v80) = Cert.Spec.row (U (Proc.devRef .tc main_arg7)) := by
  after_results_simp
  exact reshape_row _

theorem hostOps5_main_v81 :
    after (hostOps5 (F := Ideal)) U (Proc.devRef .tc main_v81) = Cert.Spec.row (U (Proc.devRef .tc main_arg14)) := by
  after_results_simp
  exact reshape_row _

theorem hostOps5_main_v82 :
    after (hostOps5 (F := Ideal)) U (Proc.devRef .tc main_v82) = Cert.Spec.row (U (Proc.devRef .tc main_arg15)) := by
  after_results_simp
  exact reshape_row _

/-! ## The last stretch -/

theorem hostOps7_out :
    after (hostOps7 (F := Ideal)) U (Proc.devRef .tc main_v100)
      = (addf (Cert.Spec.agg128 (U (Proc.devRef .tc main_v84)) (U (Proc.devRef .tc main_v3)) (U (Proc.devRef .tc main_v6)) (U (Proc.devRef .tc main_v29))) (Cert.Spec.biasOut (U (Proc.devRef .tc main_arg9))) : FVec Ideal S50000x128 .f32) := by
  after_results_simp
  rfl

end Cert.KernelIdeal.HostValue

end
-- ==== Proof.KernelValue.lean ====
/-
  The contents of the idealized kernel's result buffer after the run, as the common function of the argument arrays.

  The run's boundary contents (the frame module's `W0 … W14`) are followed from the launch memory to the result:
  the prelude leaves the edge lists and the edge weights; region 0 leaves `x · W0`; the next stretch aggregates it
  and lays `b0 g0 t0` out as rows; region 1 normalises and activates; and so on through the four layers.  A buffer no
  stretch writes and no region has among its windows keeps its contents across them, so each argument is read at its
  launch contents and the edge lists and weights at what the prelude left.  What each region leaves in its output
  array is taken as a hypothesis here (`Regions`), proved in the region modules.
-/
import proofs.«171627_j76175539962264_1_alg».proof.Proof.Gen.KernelIdeal.Frame
import proofs.«171627_j76175539962264_1_alg».proof.Proof.Spec
import proofs.«171627_j76175539962264_1_alg».proof.Proof.HostValue
import Idealize.ShloMosaic.PureOps.Ideal

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.Pipeline (Dat)

/-- What each of the seven regions leaves in its output array, for arbitrary entry contents: the four dense
    products and the three normalisation-and-activation layers of `Cert.Spec`. -/
structure Regions : Prop where
  mm0 : ∀ (V : (c : Dev nD) → (b : Ref sig .tc) → Buf (Elt Ideal) ((c : Thread nD τ).loc b)) (c : Dev nD),
    (dat0 (F := Ideal) V c).arrAt 2 cfg0.N = Cert.Spec.mm0 (V c main_arg0) (V c main_arg2)
  ln1 : ∀ (V : (c : Dev nD) → (b : Ref sig .tc) → Buf (Elt Ideal) ((c : Thread nD τ).loc b)) (c : Dev nD),
    (dat1 (F := Ideal) V c).arrAt 4 cfg1.N = Cert.Spec.act (V c main_v43) (V c main_v44) (V c main_v45) (V c main_v46)
  mm2 : ∀ (V : (c : Dev nD) → (b : Ref sig .tc) → Buf (Elt Ideal) ((c : Thread nD τ).loc b)) (c : Dev nD),
    (dat2 (F := Ideal) V c).arrAt 2 cfg2.N = Cert.Spec.mm1 (V c main_v47) (V c main_arg4)
  ln3 : ∀ (V : (c : Dev nD) → (b : Ref sig .tc) → Buf (Elt Ideal) ((c : Thread nD τ).loc b)) (c : Dev nD),
    (dat3 (F := Ideal) V c).arrAt 5 cfg3.N = Cert.Spec.actRes (V c main_v61) (V c main_v62) (V c main_v63) (V c main_v64) (V c main_v47)
  mm4 : ∀ (V : (c : Dev nD) → (b : Ref sig .tc) → Buf (Elt Ideal) ((c : Thread nD τ).loc b)) (c : Dev nD),
    (dat4 (F := Ideal) V c).arrAt 2 cfg4.N = Cert.Spec.mm1 (V c main_v65) (V c main_arg6)
  ln5 : ∀ (V : (c : Dev nD) → (b : Ref sig .tc) → Buf (Elt Ideal) ((c : Thread nD τ).loc b)) (c : Dev nD),
    (dat5 (F := Ideal) V c).arrAt 5 cfg5.N = Cert.Spec.actRes (V c main_v79) (V c main_v80) (V c main_v81) (V c main_v82) (V c main_v65)
  mm6 : ∀ (V : (c : Dev nD) → (b : Ref sig .tc) → Buf (Elt Ideal) ((c : Thread nD τ).loc b)) (c : Dev nD),
    (dat6 (F := Ideal) V c).arrAt 2 cfg6.N = Cert.Spec.mm3 (V c main_v83) (V c main_arg8)

variable (m : (ℓ : Loc nD τ sig) → Buf (Elt Ideal) ℓ) (ρ : Dev nD → PrngReg) (c : Dev nD)

/-! ## The arguments, where they are read

A buffer that a stretch does not write and that is no window of a region keeps its contents: the reading is moved
back through the segments, one operation or region at a time, down to the launch memory. -/

theorem w3_main_arg0 : W3 (F := Ideal) m ρ c (Proc.devRef .tc main_arg0) = (m ((c : Thread nD τ).loc main_arg0)) := by
  simp (disch := decide) only [W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w3_main_arg2 : W3 (F := Ideal) m ρ c (Proc.devRef .tc main_arg2) = (m ((c : Thread nD τ).loc main_arg2)) := by
  simp (disch := decide) only [W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w4_main_arg3 : W4 (F := Ideal) m ρ c (Proc.devRef .tc main_arg3) = (m ((c : Thread nD τ).loc main_arg3)) := by
  simp (disch := decide) only [W4_of_ne m ρ c main_arg3 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w4_main_arg10 : W4 (F := Ideal) m ρ c (Proc.devRef .tc main_arg10) = (m ((c : Thread nD τ).loc main_arg10)) := by
  simp (disch := decide) only [W4_of_ne m ρ c main_arg10 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w4_main_arg11 : W4 (F := Ideal) m ρ c (Proc.devRef .tc main_arg11) = (m ((c : Thread nD τ).loc main_arg11)) := by
  simp (disch := decide) only [W4_of_ne m ρ c main_arg11 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w6_main_arg4 : W6 (F := Ideal) m ρ c (Proc.devRef .tc main_arg4) = (m ((c : Thread nD τ).loc main_arg4)) := by
  simp (disch := decide) only [W4_of_ne m ρ c main_arg4 (by decide), W6_of_ne m ρ c main_arg4 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w7_main_arg5 : W7 (F := Ideal) m ρ c (Proc.devRef .tc main_arg5) = (m ((c : Thread nD τ).loc main_arg5)) := by
  simp (disch := decide) only [W4_of_ne m ρ c main_arg5 (by decide), W6_of_ne m ρ c main_arg5 (by decide), W7_of_ne m ρ c main_arg5 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w7_main_arg12 : W7 (F := Ideal) m ρ c (Proc.devRef .tc main_arg12) = (m ((c : Thread nD τ).loc main_arg12)) := by
  simp (disch := decide) only [W4_of_ne m ρ c main_arg12 (by decide), W6_of_ne m ρ c main_arg12 (by decide), W7_of_ne m ρ c main_arg12 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w7_main_arg13 : W7 (F := Ideal) m ρ c (Proc.devRef .tc main_arg13) = (m ((c : Thread nD τ).loc main_arg13)) := by
  simp (disch := decide) only [W4_of_ne m ρ c main_arg13 (by decide), W6_of_ne m ρ c main_arg13 (by decide), W7_of_ne m ρ c main_arg13 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w9_main_arg6 : W9 (F := Ideal) m ρ c (Proc.devRef .tc main_arg6) = (m ((c : Thread nD τ).loc main_arg6)) := by
  simp (disch := decide) only [W4_of_ne m ρ c main_arg6 (by decide), W6_of_ne m ρ c main_arg6 (by decide), W7_of_ne m ρ c main_arg6 (by decide), W9_of_ne m ρ c main_arg6 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w10_main_arg7 : W10 (F := Ideal) m ρ c (Proc.devRef .tc main_arg7) = (m ((c : Thread nD τ).loc main_arg7)) := by
  simp (disch := decide) only [W4_of_ne m ρ c main_arg7 (by decide), W6_of_ne m ρ c main_arg7 (by decide), W7_of_ne m ρ c main_arg7 (by decide), W9_of_ne m ρ c main_arg7 (by decide), W10_of_ne m ρ c main_arg7 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w10_main_arg14 : W10 (F := Ideal) m ρ c (Proc.devRef .tc main_arg14) = (m ((c : Thread nD τ).loc main_arg14)) := by
  simp (disch := decide) only [W4_of_ne m ρ c main_arg14 (by decide), W6_of_ne m ρ c main_arg14 (by decide), W7_of_ne m ρ c main_arg14 (by decide), W9_of_ne m ρ c main_arg14 (by decide), W10_of_ne m ρ c main_arg14 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w10_main_arg15 : W10 (F := Ideal) m ρ c (Proc.devRef .tc main_arg15) = (m ((c : Thread nD τ).loc main_arg15)) := by
  simp (disch := decide) only [W4_of_ne m ρ c main_arg15 (by decide), W6_of_ne m ρ c main_arg15 (by decide), W7_of_ne m ρ c main_arg15 (by decide), W9_of_ne m ρ c main_arg15 (by decide), W10_of_ne m ρ c main_arg15 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w12_main_arg8 : W12 (F := Ideal) m ρ c (Proc.devRef .tc main_arg8) = (m ((c : Thread nD τ).loc main_arg8)) := by
  simp (disch := decide) only [W4_of_ne m ρ c main_arg8 (by decide), W6_of_ne m ρ c main_arg8 (by decide), W7_of_ne m ρ c main_arg8 (by decide), W9_of_ne m ρ c main_arg8 (by decide), W10_of_ne m ρ c main_arg8 (by decide), W12_of_ne m ρ c main_arg8 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w13_main_arg9 : W13 (F := Ideal) m ρ c (Proc.devRef .tc main_arg9) = (m ((c : Thread nD τ).loc main_arg9)) := by
  simp (disch := decide) only [W4_of_ne m ρ c main_arg9 (by decide), W6_of_ne m ρ c main_arg9 (by decide), W7_of_ne m ρ c main_arg9 (by decide), W9_of_ne m ρ c main_arg9 (by decide), W10_of_ne m ρ c main_arg9 (by decide), W12_of_ne m ρ c main_arg9 (by decide), W13_of_ne m ρ c main_arg9 (by decide),
      W14, W11, W8, W5, W3, W2, W1, hostOps7, hostOps5, hostOps3, hostOps1, hostOps0_2, hostOps0_1, hostOps0, after_cons, after_nil,
      nullary_result_ne', unary_result_ne', binary_result_ne', ternary_result_ne', quaternary_result_ne', reshape_result_ne']

theorem w0_main_arg1 : W0 (F := Ideal) m ρ c (Proc.devRef .tc main_arg1) = (m ((c : Thread nD τ).loc main_arg1)) := rfl

/-! ## Congruences of the layer functions (their arguments arrive as readings of buffers) -/

theorem agg256_congr {h h' : FVec Ideal S50000x256 .f32} {s s' d d' : IVec S850000 32} {w w' : FVec Ideal S850000 .f32}
    (hh : h = h') (hs : s = s') (hd : d = d') (hw : w = w') : Cert.Spec.agg256 h s d w = Cert.Spec.agg256 h' s' d' w' := by
  subst hh hs hd hw; rfl
theorem agg128_congr {h h' : FVec Ideal S50000x128 .f32} {s s' d d' : IVec S850000 32} {w w' : FVec Ideal S850000 .f32}
    (hh : h = h') (hs : s = s') (hd : d = d') (hw : w = w') : Cert.Spec.agg128 h s d w = Cert.Spec.agg128 h' s' d' w' := by
  subst hh hs hd hw; rfl
theorem act_congr {x x' : FVec Ideal S50000x256 .f32} {b b' g g' t t' : FVec Ideal S1x256 .f32}
    (hx : x = x') (hb : b = b') (hg : g = g') (ht : t = t') : Cert.Spec.act x b g t = Cert.Spec.act x' b' g' t' := by
  subst hx hb hg ht; rfl
theorem actRes_congr {x x' r r' : FVec Ideal S50000x256 .f32} {b b' g g' t t' : FVec Ideal S1x256 .f32}
    (hx : x = x') (hb : b = b') (hg : g = g') (ht : t = t') (hr : r = r') :
    Cert.Spec.actRes x b g t r = Cert.Spec.actRes x' b' g' t' r' := by
  subst hx hb hg ht hr; rfl

/-! ## The launch's edge lists, edge weights and layer outputs -/

abbrev srcV : IVec S850000 32 := Cert.Spec.src (m ((c : Thread nD τ).loc main_arg1))
abbrev dstV : IVec S850000 32 := Cert.Spec.dst (m ((c : Thread nD τ).loc main_arg1))
abbrev nrmV : FVec Ideal S850000 .f32 := Cert.Spec.nrm (srcV m c) (dstV m c)
abbrev h0V : FVec Ideal S50000x256 .f32 :=
  Cert.Spec.h0 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))
abbrev h1V : FVec Ideal S50000x256 .f32 :=
  Cert.Spec.hNext (h0V m c) (m ((c : Thread nD τ).loc main_arg1)) (m ((c : Thread nD τ).loc main_arg4)) (m ((c : Thread nD τ).loc main_arg5)) (m ((c : Thread nD τ).loc main_arg12)) (m ((c : Thread nD τ).loc main_arg13))
abbrev h2V : FVec Ideal S50000x256 .f32 :=
  Cert.Spec.hNext (h1V m c) (m ((c : Thread nD τ).loc main_arg1)) (m ((c : Thread nD τ).loc main_arg6)) (m ((c : Thread nD τ).loc main_arg7)) (m ((c : Thread nD τ).loc main_arg14)) (m ((c : Thread nD τ).loc main_arg15))

/-! ## The prelude -/

theorem w1_src : W1 (F := Ideal) m ρ c (Proc.devRef .tc main_v3) = srcV m c := HostValue.h0_src (W0 m ρ c)
theorem w1_dst : W1 (F := Ideal) m ρ c (Proc.devRef .tc main_v6) = dstV m c := HostValue.h0_dst (W0 m ρ c)
theorem w1_pos : W1 (F := Ideal) m ρ c (Proc.devRef .tc main_v12)
    = cmpf .ogt (Cert.Spec.deg (dstV m c)) (broadcastInDim S50000 ![] bcast_S_S50000 (constant S_ .f32 0x00000000#32)) :=
  HostValue.h0_pos (W0 m ρ c)
theorem w1_rsqrt : W1 (F := Ideal) m ρ c (Proc.devRef .tc main_v13) = Host.rsqrt (Cert.Spec.deg (dstV m c)) := HostValue.h0_rsqrt (W0 m ρ c)
theorem w1_zero : W1 (F := Ideal) m ρ c (Proc.devRef .tc main_cst_2) = (constant S_ .f32 0x00000000#32 : FVec Ideal S_ .f32) := HostValue.h0_zero (W0 m ρ c)

theorem w2_src : W2 (F := Ideal) m ρ c (Proc.devRef .tc main_v3) = srcV m c :=
  (by simp (disch := decide) only [W2, hostOps0_1, after_cons, after_nil, nullary_result_ne', unary_result_ne', binary_result_ne', ternary_result_ne', quaternary_result_ne', reshape_result_ne'] : W2 (F := Ideal) m ρ c (Proc.devRef .tc main_v3) = W1 (F := Ideal) m ρ c (Proc.devRef .tc main_v3)).trans (w1_src m ρ c)
theorem w2_dst : W2 (F := Ideal) m ρ c (Proc.devRef .tc main_v6) = dstV m c :=
  (by simp (disch := decide) only [W2, hostOps0_1, after_cons, after_nil, nullary_result_ne', unary_result_ne', binary_result_ne', ternary_result_ne', quaternary_result_ne', reshape_result_ne'] : W2 (F := Ideal) m ρ c (Proc.devRef .tc main_v6) = W1 (F := Ideal) m ρ c (Proc.devRef .tc main_v6)).trans (w1_dst m ρ c)
theorem w2_dinv : W2 (F := Ideal) m ρ c (Proc.devRef .tc main_v14) = Cert.Spec.dinv (dstV m c) := by
  refine (HostValue.h01_dinv (W1 m ρ c)).trans ?_
  rw [w1_pos, w1_rsqrt, w1_zero]
  rfl

theorem w3_src : W3 (F := Ideal) m ρ c (Proc.devRef .tc main_v3) = srcV m c :=
  (by simp (disch := decide) only [W3, hostOps0_2, after_cons, after_nil, nullary_result_ne', unary_result_ne', binary_result_ne', ternary_result_ne', quaternary_result_ne', reshape_result_ne'] : W3 (F := Ideal) m ρ c (Proc.devRef .tc main_v3) = W2 (F := Ideal) m ρ c (Proc.devRef .tc main_v3)).trans (w2_src m ρ c)
theorem w3_dst : W3 (F := Ideal) m ρ c (Proc.devRef .tc main_v6) = dstV m c :=
  (by simp (disch := decide) only [W3, hostOps0_2, after_cons, after_nil, nullary_result_ne', unary_result_ne', binary_result_ne', ternary_result_ne', quaternary_result_ne', reshape_result_ne'] : W3 (F := Ideal) m ρ c (Proc.devRef .tc main_v6) = W2 (F := Ideal) m ρ c (Proc.devRef .tc main_v6)).trans (w2_dst m ρ c)
theorem w3_nrm : W3 (F := Ideal) m ρ c (Proc.devRef .tc main_v29) = nrmV m c := by
  refine (HostValue.h02_nrm (W2 m ρ c)).trans ?_
  rw [w2_dinv, w2_src, w2_dst]
  rfl

/-! ## The edge lists and weights at the later stretches -/

theorem w4_src : W4 (F := Ideal) m ρ c (Proc.devRef .tc main_v3) = srcV m c :=
  (by simp (disch := decide) only [W4_of_ne m ρ c main_v3 (by decide), after_cons, after_nil, nullary_result_ne', unary_result_ne', binary_result_ne', ternary_result_ne', quaternary_result_ne', reshape_result_ne'] : W4 (F := Ideal) m ρ c (Proc.devRef .tc main_v3) = W3 (F := Ideal) m ρ c (Proc.devRef .tc main_v3)).trans (w3_src m ρ c)

theorem w4_dst : W4 (F := Ideal) m ρ c (Proc.devRef .tc main_v6) = dstV m c :=
  (by simp (disch := decide) only [W4_of_ne m ρ c main_v6 (by decide), after_cons, after_nil, nullary_result_ne', unary_result_ne', binary_result_ne', ternary_result_ne', quaternary_result_ne', reshape_result_ne'] : W4 (F := Ideal) m ρ c (Proc.devRef .tc main_v6) = W3 (F := Ideal) m ρ c (Proc.devRef .tc main_v6)).trans (w3_dst m ρ c)

theorem w4_nrm : W4 (F := Ideal) m ρ c (Proc.devRef .tc main_v29) = nrmV m c :=
  (by simp (disch := decide) only [W4_of_ne m ρ c main_v29 (by decide), after_cons, after_nil, nullary_result_ne', unary_result_ne', binary_result_ne', ternary_result_ne', quaternary_result_ne', reshape_result_ne'] : W4 (F := Ideal) m ρ c (Proc.devRef .tc main_v29) = W3 (F := Ideal) m ρ c (Proc.devRef .tc main_v29)).trans (w3_nrm m ρ c)

theorem w7_src : W7 (F := Ideal) m ρ c (Proc.devRef .tc main_v3) = srcV m c :=
  (by simp (disch := decide) only [W7_of_ne m ρ c main_v3 (by decide), W6_of_ne m ρ c main_v3 (by decide), W4_of_ne m ρ c main_v3 (by decide), W5, hostOps1, after_cons, after_nil, nullary_result_ne', unary_result_ne', binary_result_ne', ternary_result_ne', quaternary_result_ne', reshape_result_ne'] : W7 (F := Ideal) m ρ c (Proc.devRef .tc main_v3) = W3 (F := Ideal) m ρ c (Proc.devRef .tc main_v3)).trans (w3_src m ρ c)

theorem w7_dst : W7 (F := Ideal) m ρ c (Proc.devRef .tc main_v6) = dstV m c :=
  (by simp (disch := decide) only [W7_of_ne m ρ c main_v6 (by decide), W6_of_ne m ρ c main_v6 (by decide), W4_of_ne m ρ c main_v6 (by decide), W5, hostOps1, after_cons, after_nil, nullary_result_ne', unary_result_ne', binary_result_ne', ternary_result_ne', quaternary_result_ne', reshape_result_ne'] : W7 (F := Ideal) m ρ c (Proc.devRef .tc main_v6) = W3 (F := Ideal) m ρ c (Proc.devRef .tc main_v6)).trans (w3_dst m ρ c)

theorem w7_nrm : W7 (F := Ideal) m ρ c (Proc.devRef .tc main_v29) = nrmV m c :=
  (by simp (disch := decide) only [W7_of_ne m ρ c main_v29 (by decide), W6_of_ne m ρ c main_v29 (by decide), W4_of_ne m ρ c main_v29 (by decide), W5, hostOps1, after_cons, after_nil, nullary_result_ne', unary_result_ne', binary_result_ne', ternary_result_ne', quaternary_result_ne', reshape_result_ne'] : W7 (F := Ideal) m ρ c (Proc.devRef .tc main_v29) = W3 (F := Ideal) m ρ c (Proc.devRef .tc main_v29)).trans (w3_nrm m ρ c)

theorem w10_src : W10 (F := Ideal) m ρ c (Proc.devRef .tc main_v3) = srcV m c :=
  (by simp (disch := decide) only [W10_of_ne m ρ c main_v3 (by decide), W9_of_ne m ρ c main_v3 (by decide), W7_of_ne m ρ c main_v3 (by decide), W6_of_ne m ρ c main_v3 (by decide), W4_of_ne m ρ c main_v3 (by decide), W8, W5, hostOps3, hostOps1, after_cons, after_nil, nullary_result_ne', unary_result_ne', binary_result_ne', ternary_result_ne', quaternary_result_ne', reshape_result_ne'] : W10 (F := Ideal) m ρ c (Proc.devRef .tc main_v3) = W3 (F := Ideal) m ρ c (Proc.devRef .tc main_v3)).trans (w3_src m ρ c)

theorem w10_dst : W10 (F := Ideal) m ρ c (Proc.devRef .tc main_v6) = dstV m c :=
  (by simp (disch := decide) only [W10_of_ne m ρ c main_v6 (by decide), W9_of_ne m ρ c main_v6 (by decide), W7_of_ne m ρ c main_v6 (by decide), W6_of_ne m ρ c main_v6 (by decide), W4_of_ne m ρ c main_v6 (by decide), W8, W5, hostOps3, hostOps1, after_cons, after_nil, nullary_result_ne', unary_result_ne', binary_result_ne', ternary_result_ne', quaternary_result_ne', reshape_result_ne'] : W10 (F := Ideal) m ρ c (Proc.devRef .tc main_v6) = W3 (F := Ideal) m ρ c (Proc.devRef .tc main_v6)).trans (w3_dst m ρ c)

theorem w10_nrm : W10 (F := Ideal) m ρ c (Proc.devRef .tc main_v29) = nrmV m c :=
  (by simp (disch := decide) only [W10_of_ne m ρ c main_v29 (by decide), W9_of_ne m ρ c main_v29 (by decide), W7_of_ne m ρ c main_v29 (by decide), W6_of_ne m ρ c main_v29 (by decide), W4_of_ne m ρ c main_v29 (by decide), W8, W5, hostOps3, hostOps1, after_cons, after_nil, nullary_result_ne', unary_result_ne', binary_result_ne', ternary_result_ne', quaternary_result_ne', reshape_result_ne'] : W10 (F := Ideal) m ρ c (Proc.devRef .tc main_v29) = W3 (F := Ideal) m ρ c (Proc.devRef .tc main_v29)).trans (w3_nrm m ρ c)

theorem w13_src : W13 (F := Ideal) m ρ c (Proc.devRef .tc main_v3) = srcV m c :=
  (by simp (disch := decide) only [W13_of_ne m ρ c main_v3 (by decide), W12_of_ne m ρ c main_v3 (by decide), W10_of_ne m ρ c main_v3 (by decide), W9_of_ne m ρ c main_v3 (by decide), W7_of_ne m ρ c main_v3 (by decide), W6_of_ne m ρ c main_v3 (by decide), W4_of_ne m ρ c main_v3 (by decide), W11, W8, W5, hostOps5, hostOps3, hostOps1, after_cons, after_nil, nullary_result_ne', unary_result_ne', binary_result_ne', ternary_result_ne', quaternary_result_ne', reshape_result_ne'] : W13 (F := Ideal) m ρ c (Proc.devRef .tc main_v3) = W3 (F := Ideal) m ρ c (Proc.devRef .tc main_v3)).trans (w3_src m ρ c)

theorem w13_dst : W13 (F := Ideal) m ρ c (Proc.devRef .tc main_v6) = dstV m c :=
  (by simp (disch := decide) only [W13_of_ne m ρ c main_v6 (by decide), W12_of_ne m ρ c main_v6 (by decide), W10_of_ne m ρ c main_v6 (by decide), W9_of_ne m ρ c main_v6 (by decide), W7_of_ne m ρ c main_v6 (by decide), W6_of_ne m ρ c main_v6 (by decide), W4_of_ne m ρ c main_v6 (by decide), W11, W8, W5, hostOps5, hostOps3, hostOps1, after_cons, after_nil, nullary_result_ne', unary_result_ne', binary_result_ne', ternary_result_ne', quaternary_result_ne', reshape_result_ne'] : W13 (F := Ideal) m ρ c (Proc.devRef .tc main_v6) = W3 (F := Ideal) m ρ c (Proc.devRef .tc main_v6)).trans (w3_dst m ρ c)

theorem w13_nrm : W13 (F := Ideal) m ρ c (Proc.devRef .tc main_v29) = nrmV m c :=
  (by simp (disch := decide) only [W13_of_ne m ρ c main_v29 (by decide), W12_of_ne m ρ c main_v29 (by decide), W10_of_ne m ρ c main_v29 (by decide), W9_of_ne m ρ c main_v29 (by decide), W7_of_ne m ρ c main_v29 (by decide), W6_of_ne m ρ c main_v29 (by decide), W4_of_ne m ρ c main_v29 (by decide), W11, W8, W5, hostOps5, hostOps3, hostOps1, after_cons, after_nil, nullary_result_ne', unary_result_ne', binary_result_ne', ternary_result_ne', quaternary_result_ne', reshape_result_ne'] : W13 (F := Ideal) m ρ c (Proc.devRef .tc main_v29) = W3 (F := Ideal) m ρ c (Proc.devRef .tc main_v29)).trans (w3_nrm m ρ c)

/-! ## Through the layers -/

section Layers

/-- Region 0 leaves `x · W0`. -/
theorem s4 (hR : Regions) : W4 (F := Ideal) m ρ c (Proc.devRef .tc main_v30) = Cert.Spec.mm0 (m ((c : Thread nD τ).loc main_arg0)) (m ((c : Thread nD τ).loc main_arg2)) :=
  (W4_arr m ρ c 2).trans ((hR.mm0 (V3 m ρ) c).trans (congrArg₂ Cert.Spec.mm0 (w3_main_arg0 m ρ c) (w3_main_arg2 m ρ c)))

/-- The first aggregation. -/
theorem s5 (hR : Regions) : W5 (F := Ideal) m ρ c (Proc.devRef .tc main_v43) = Cert.Spec.agg256 (Cert.Spec.mm0 (m ((c : Thread nD τ).loc main_arg0)) (m ((c : Thread nD τ).loc main_arg2))) (srcV m c) (dstV m c) (nrmV m c) :=
  (HostValue.hostOps1_agg (W4 m ρ c)).trans (agg256_congr (s4 m ρ c hR) (w4_src m ρ c) (w4_dst m ρ c) (w4_nrm m ρ c))
theorem s5_b : W5 (F := Ideal) m ρ c (Proc.devRef .tc main_v44) = Cert.Spec.row (m ((c : Thread nD τ).loc main_arg3)) :=
  (HostValue.hostOps1_main_v44 (W4 m ρ c)).trans (congrArg Cert.Spec.row (w4_main_arg3 m ρ c))
theorem s5_g : W5 (F := Ideal) m ρ c (Proc.devRef .tc main_v45) = Cert.Spec.row (m ((c : Thread nD τ).loc main_arg10)) :=
  (HostValue.hostOps1_main_v45 (W4 m ρ c)).trans (congrArg Cert.Spec.row (w4_main_arg10 m ρ c))
theorem s5_t : W5 (F := Ideal) m ρ c (Proc.devRef .tc main_v46) = Cert.Spec.row (m ((c : Thread nD τ).loc main_arg11)) :=
  (HostValue.hostOps1_main_v46 (W4 m ρ c)).trans (congrArg Cert.Spec.row (w4_main_arg11 m ρ c))

/-- Region 1 leaves the first hidden layer. -/
theorem s6 (hR : Regions) : W6 (F := Ideal) m ρ c (Proc.devRef .tc main_v47) = h0V m c :=
  (W6_arr m ρ c 4).trans ((hR.ln1 (V5 m ρ) c).trans (act_congr (s5 m ρ c hR) (s5_b m ρ c) (s5_g m ρ c) (s5_t m ρ c)))

/-- Region 2 leaves `h0 · W1`. -/
theorem s7 (hR : Regions) : W7 (F := Ideal) m ρ c (Proc.devRef .tc main_v48) = Cert.Spec.mm1 (h0V m c) (m ((c : Thread nD τ).loc main_arg4)) :=
  (W7_arr m ρ c 2).trans ((hR.mm2 (V6 m ρ) c).trans (congrArg₂ Cert.Spec.mm1 (s6 m ρ c hR) (w6_main_arg4 m ρ c)))

/-- The first hidden layer is still there when the third region has run: it was only read. -/
theorem w7_h0 : W7 (F := Ideal) m ρ c (Proc.devRef .tc main_v47) = W6 (F := Ideal) m ρ c (Proc.devRef .tc main_v47) :=
  (W7_arr m ρ c 0).trans (((dat2 (V6 m ρ) c).arrAt_in 0 rfl _).trans (A_eq2 (V6 m ρ) c 0))
theorem w8_h0 (hR : Regions) : W8 (F := Ideal) m ρ c (Proc.devRef .tc main_v47) = h0V m c :=
  (by simp (disch := decide) only [W8, hostOps3, after_cons, after_nil, nullary_result_ne', unary_result_ne', binary_result_ne', ternary_result_ne', quaternary_result_ne', reshape_result_ne'] : W8 (F := Ideal) m ρ c (Proc.devRef .tc main_v47) = W7 (F := Ideal) m ρ c (Proc.devRef .tc main_v47)).trans
    ((w7_h0 m ρ c).trans (s6 m ρ c hR))

theorem s8 (hR : Regions) : W8 (F := Ideal) m ρ c (Proc.devRef .tc main_v61) = Cert.Spec.agg256 (Cert.Spec.mm1 (h0V m c) (m ((c : Thread nD τ).loc main_arg4))) (srcV m c) (dstV m c) (nrmV m c) :=
  (HostValue.hostOps3_agg (W7 m ρ c)).trans (agg256_congr (s7 m ρ c hR) (w7_src m ρ c) (w7_dst m ρ c) (w7_nrm m ρ c))
theorem s8_b : W8 (F := Ideal) m ρ c (Proc.devRef .tc main_v62) = Cert.Spec.row (m ((c : Thread nD τ).loc main_arg5)) :=
  (HostValue.hostOps3_main_v62 (W7 m ρ c)).trans (congrArg Cert.Spec.row (w7_main_arg5 m ρ c))
theorem s8_g : W8 (F := Ideal) m ρ c (Proc.devRef .tc main_v63) = Cert.Spec.row (m ((c : Thread nD τ).loc main_arg12)) :=
  (HostValue.hostOps3_main_v63 (W7 m ρ c)).trans (congrArg Cert.Spec.row (w7_main_arg12 m ρ c))
theorem s8_t : W8 (F := Ideal) m ρ c (Proc.devRef .tc main_v64) = Cert.Spec.row (m ((c : Thread nD τ).loc main_arg13)) :=
  (HostValue.hostOps3_main_v64 (W7 m ρ c)).trans (congrArg Cert.Spec.row (w7_main_arg13 m ρ c))

/-- Region 3 leaves the second hidden layer. -/
theorem s9 (hR : Regions) : W9 (F := Ideal) m ρ c (Proc.devRef .tc main_v65) = h1V m c :=
  (W9_arr m ρ c 5).trans ((hR.ln3 (V8 m ρ) c).trans
    (actRes_congr (s8 m ρ c hR) (s8_b m ρ c) (s8_g m ρ c) (s8_t m ρ c) (w8_h0 m ρ c hR)))

theorem s10 (hR : Regions) : W10 (F := Ideal) m ρ c (Proc.devRef .tc main_v66) = Cert.Spec.mm1 (h1V m c) (m ((c : Thread nD τ).loc main_arg6)) :=
  (W10_arr m ρ c 2).trans ((hR.mm4 (V9 m ρ) c).trans (congrArg₂ Cert.Spec.mm1 (s9 m ρ c hR) (w9_main_arg6 m ρ c)))

theorem w10_h1 : W10 (F := Ideal) m ρ c (Proc.devRef .tc main_v65) = W9 (F := Ideal) m ρ c (Proc.devRef .tc main_v65) :=
  (W10_arr m ρ c 0).trans (((dat4 (V9 m ρ) c).arrAt_in 0 rfl _).trans (A_eq4 (V9 m ρ) c 0))
theorem w11_h1 (hR : Regions) : W11 (F := Ideal) m ρ c (Proc.devRef .tc main_v65) = h1V m c :=
  (by simp (disch := decide) only [W11, hostOps5, after_cons, after_nil, nullary_result_ne', unary_result_ne', binary_result_ne', ternary_result_ne', quaternary_result_ne', reshape_result_ne'] : W11 (F := Ideal) m ρ c (Proc.devRef .tc main_v65) = W10 (F := Ideal) m ρ c (Proc.devRef .tc main_v65)).trans
    ((w10_h1 m ρ c).trans (s9 m ρ c hR))

theorem s11 (hR : Regions) : W11 (F := Ideal) m ρ c (Proc.devRef .tc main_v79) = Cert.Spec.agg256 (Cert.Spec.mm1 (h1V m c) (m ((c : Thread nD τ).loc main_arg6))) (srcV m c) (dstV m c) (nrmV m c) :=
  (HostValue.hostOps5_agg (W10 m ρ c)).trans (agg256_congr (s10 m ρ c hR) (w10_src m ρ c) (w10_dst m ρ c) (w10_nrm m ρ c))
theorem s11_b : W11 (F := Ideal) m ρ c (Proc.devRef .tc main_v80) = Cert.Spec.row (m ((c : Thread nD τ).loc main_arg7)) :=
  (HostValue.hostOps5_main_v80 (W10 m ρ c)).trans (congrArg Cert.Spec.row (w10_main_arg7 m ρ c))
theorem s11_g : W11 (F := Ideal) m ρ c (Proc.devRef .tc main_v81) = Cert.Spec.row (m ((c : Thread nD τ).loc main_arg14)) :=
  (HostValue.hostOps5_main_v81 (W10 m ρ c)).trans (congrArg Cert.Spec.row (w10_main_arg14 m ρ c))
theorem s11_t : W11 (F := Ideal) m ρ c (Proc.devRef .tc main_v82) = Cert.Spec.row (m ((c : Thread nD τ).loc main_arg15)) :=
  (HostValue.hostOps5_main_v82 (W10 m ρ c)).trans (congrArg Cert.Spec.row (w10_main_arg15 m ρ c))

/-- Region 5 leaves the third hidden layer. -/
theorem s12 (hR : Regions) : W12 (F := Ideal) m ρ c (Proc.devRef .tc main_v83) = h2V m c :=
  (W12_arr m ρ c 5).trans ((hR.ln5 (V11 m ρ) c).trans
    (actRes_congr (s11 m ρ c hR) (s11_b m ρ c) (s11_g m ρ c) (s11_t m ρ c) (w11_h1 m ρ c hR)))

theorem s13 (hR : Regions) : W13 (F := Ideal) m ρ c (Proc.devRef .tc main_v84) = Cert.Spec.mm3 (h2V m c) (m ((c : Thread nD τ).loc main_arg8)) :=
  (W13_arr m ρ c 2).trans ((hR.mm6 (V12 m ρ) c).trans (congrArg₂ Cert.Spec.mm3 (s12 m ρ c hR) (w12_main_arg8 m ρ c)))

/-- The result buffer after the run is the common function of the sixteen arguments. -/
theorem out_eq (hR : Regions) : W14 (F := Ideal) m ρ c (Proc.devRef .tc main_v100)
    = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (HostValue.hostOps7_out (W13 m ρ c)).trans ?_
  rw [s13 m ρ c hR, w13_src, w13_dst, w13_nrm, w13_main_arg9]
  rfl

end Layers

end Cert.KernelIdeal.KernelValue

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.RegionsMM.lean ====
/-
  The four dense products of the idealized kernel, each as one statement about a whole array.

  Every product region runs over a grid of 25 points.  Point `t` is handed rows `2000·t … 2000·t + 1999` of the left
  matrix `X` (50000 rows) and the whole right matrix `W`; its body narrows both to bf16 (the identity at the ideal
  values), multiplies them into a zero accumulator and stores the 2000-row block, which is written back as rows
  `2000·t …` of the result.  So entry `(2000·t + r, q)` of the result is `Σ_k X(2000·t + r, k) · W(k, q)`, which is the
  entry `(2000·t + r, q)` of the product of the whole arrays; since row `r` lies in the block of point `r / 2000`,
  the blocks cover the result and it IS the whole product.  The statements hold for arbitrary contents of the
  buffers when the region is entered (`V`).

  Per region: the block index maps decided over the grid, each operand's block read as entries of its array, one
  point's block product entry by entry, the block a point writes back as a block of the whole product, the cover,
  and the whole-array statement.  The only arithmetic is in `block_product`: two sums over the contracted
  coordinate with equal terms.
-/
import proofs.«171627_j76175539962264_1_alg».proof.Proof.Gen.KernelIdeal.Frame
import proofs.«171627_j76175539962264_1_alg».proof.Proof.Spec
import proofs.«171627_j76175539962264_1_alg».proof.Proof.LibPlainDot
import Idealize.ShloMosaic.Lib.Pipeline.Value
import Idealize.ShloMosaic.Lib.ValueIdx

noncomputable section

namespace Cert.KernelIdeal.RegionsMM

open Cert.KernelIdeal Cert.KernelIdeal.Gen Idealize.ShloMosaic Idealize.ShloMosaic.TcCoe Idealize.SL.Sem
open Idealize.ShloMosaic.ValueIdx
open scoped BigOperators

/-- The zero offsets of a whole-buffer access, as a constant function. -/
theorem hz : (![0, 0] : Fin 2 → Nat) = fun _ => 0 := funext fun a => by fin_cases a <;> rfl

/-- A block of rows of a product.  If a row `r` of the block `X'` is row `a` of `X`, and column `q` of `W'` is
    column `q` of `W`, then the block product accumulated into zeros has at `(r, q)` the entry `(a, q)` of the
    whole product: both are the sum over `k` of `X(a, k) · W(k, q)`. -/
theorem block_product {M K N R : Nat} {φ₁ φ₂ ψ₁ ψ₂ : FTy}
    (DH : DotDims ⟨2, ![M, K]⟩ ⟨2, ![K, N]⟩ ⟨2, ![M, N]⟩) (hDH : DH = DotDims.plain M K N)
    (DK : DotDims ⟨2, ![R, K]⟩ ⟨2, ![K, N]⟩ ⟨2, ![R, N]⟩) (hDK : DK = DotDims.plain R K N)
    (X : FVec Ideal ⟨2, ![M, K]⟩ φ₁) (W : FVec Ideal ⟨2, ![K, N]⟩ φ₂)
    (X' : FVec Ideal ⟨2, ![R, K]⟩ ψ₁) (W' : FVec Ideal ⟨2, ![K, N]⟩ ψ₂)
    (a : Fin M) (r : Fin R) (q : Fin N)
    (hX : ∀ k : Fin K, X' (ix2 r k) = X (ix2 a k)) (hW : ∀ k : Fin K, W' (ix2 k q) = W (ix2 k q)) :
    matmul DK none X' W' (constant (F := Ideal) ⟨2, ![R, N]⟩ .f32 0x00000000#32) (ix2 r q)
      = Host.dotGeneral DH none X W (ix2 a q) := by
  rw [Cert.LibPlainDot.matmul_plain_zero_apply DK hDK, Cert.LibPlainDot.dotGeneral_plain_apply DH hDH]
  exact Finset.sum_congr rfl fun k _ => by rw [hX k, hW k]

variable (V : (c : Dev nD) → (b : Ref sig .tc) → Buf (Elt Ideal) ((c : Thread nD τ).loc b)) (c : Dev nD)

/-! ## Region 0: [50000,128] by [128,256] -/

/-- The printed index maps over the 25 grid points: the left operand's and the result's block index is `(t, 0)`, the
    right operand's is `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000·t …` of its array: the block's entry `u` is the array's entry
    `(2000·t + u₀, u₁)`. -/
theorem lhs0_apply (t : Fin cfg0.N) (u : S2000x128.Idx) (v : S50000x128.Idx)
    (h0 : (v 0).val = 2000 * t.val + (u 0).val) (h1 : (v 1).val = (u 1).val) :
    (iblk0 V c 0 t : Vec Ideal S2000x128 .f32) u = (V c main_arg0 : S50000x128.Idx → Elt Ideal .f32) v := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (u 0).val = (v 0).val; rw [e0, h0]; omega
  | ⟨1, _⟩ => show win0_0.index t (1 : Fin 2) * 128 + 1 * (u 1).val = (v 1).val; rw [e1, h1]; omega

/-- The right operand's block at every point is its whole array. -/
theorem rhs0_apply (t : Fin cfg0.N) (u : S128x256.Idx) :
    (iblk0 V c 1 t : Vec Ideal S128x256 .f32) u = (V c main_arg2 : S128x256.Idx → Elt Ideal .f32) u := by
  obtain ⟨-, -, e0, e1, -⟩ := idx0 t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * (u 0).val = (u 0).val; rw [e0]; omega
  | ⟨1, _⟩ => show win0_1.index t (1 : Fin 2) * 256 + 1 * (u 1).val = (u 1).val; rw [e1]; omega

/-- One point's block product, entry by entry: with the left block holding rows `o …` of `A` and the right block all of
    `B`, the body's value at `y` (both operands narrowed to bf16, which changes nothing at the ideal values, then
    multiplied into zeros) is the whole product's entry at `i = (o + y₀, y₁)`. -/
theorem point0 (A : FVec Ideal S50000x128 .f32) (B : FVec Ideal S128x256 .f32)
    (x0 : Vec Ideal S2000x128 .f32) (x1 : Vec Ideal S128x256 .f32) (o : Nat)
    (hx0 : ∀ (u : S2000x128.Idx) (v : S50000x128.Idx), (v 0).val = o + (u 0).val → (v 1).val = (u 1).val → x0 u = A v)
    (hx1 : ∀ u : S128x256.Idx, x1 u = B u)
    (y : S2000x256.Idx) (i : S50000x256.Idx) (hi0 : (i 0).val = o + (y 0).val) (hi1 : (i 1).val = (y 1).val) :
    k0_pay1 (F := Ideal) x0 x1 y = Cert.Spec.mm0 A B i := by
  obtain ⟨r, q, rfl⟩ : ∃ (r : Fin 2000) (q : Fin 256), y = ix2 r q := ⟨y 0, y 1, eq_ix2 y⟩
  obtain ⟨a, b, rfl⟩ : ∃ (a : Fin 50000) (b : Fin 256), i = ix2 a b := ⟨i 0, i 1, eq_ix2 i⟩
  obtain rfl : b = q := Fin.ext hi1
  unfold k0_pay1 Cert.Spec.mm0
  exact block_product (M := 50000) (K := 128) (N := 256) (R := 2000) _ rfl _ rfl A B _ _ a r b
    (fun k => hx0 (ix2 r k) (ix2 a k) hi0 rfl) (fun k => hx1 (ix2 k b))

/-- What point `t` writes back is block `t` of the whole product. -/
theorem flushed0 (t : Fin cfg0.N) :
    (dat0 (F := Ideal) V c).flushed 2 t
      = ((cfg0.win 2).blk t).view.read (Elt Ideal) (Cert.Spec.mm0 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x256) hz]
  obtain ⟨-, -, -, -, e0, e1⟩ := idx0 t
  funext j
  refine point0 (V c main_arg0) (V c main_arg2) (iblk0 V c 0 t) (iblk0 V c 1 t) (2000 * t.val)
    (fun u v h0 h1 => lhs0_apply V c t u v h0 h1) (fun u => rhs0_apply V c t u)
    ((cfg0.win 2).xinj (grid0.coords t) j) (((cfg0.win 2).blk t).view.emb j) ?_ ?_
  · show win0_2.index t (0 : Fin 2) * 2000 + 1 * (j 0).val = 2000 * t.val + (j 0).val
    rw [e0]; omega
  · show win0_2.index t (1 : Fin 2) * 256 + 1 * (j 1).val = (j 1).val
    rw [e1]; omega

/-- An entry of the result is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row `r` of the result is written by point `r / 2000`, so the 25 blocks cover the array. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_2 _, ?_⟩
  obtain ⟨-, -, -, -, e0, e1⟩ := idx0 ⟨(i 0).val / 2000, by rw [hN]; omega⟩
  rw [mem_blk0]
  intro a
  match a with
  | ⟨0, _⟩ =>
    show win0_2.index _ (0 : Fin 2) * 2000 ≤ (i 0).val ∧ (i 0).val < win0_2.index _ (0 : Fin 2) * 2000 + 2000
    rw [e0]; show (i 0).val / 2000 * 2000 ≤ (i 0).val ∧ (i 0).val < (i 0).val / 2000 * 2000 + 2000; omega
  | ⟨1, _⟩ =>
    show win0_2.index _ (1 : Fin 2) * 256 ≤ (i 1).val ∧ (i 1).val < win0_2.index _ (1 : Fin 2) * 256 + 256
    rw [e1]; omega

/-- Region 0 leaves the whole product in its result array. -/
theorem mm0 : (dat0 (F := Ideal) V c).arrAt 2 cfg0.N = Cert.Spec.mm0 (V c main_arg0) (V c main_arg2) :=
  (dat0 (F := Ideal) V c).arrAt_eq_of_cover 2 (Cert.Spec.mm0 (V c main_arg0) (V c main_arg2))
    (fun t _ => flushed0 V c t) cover0

/-! ## Region 2: [50000,256] by [256,256], second layer -/

/-- The printed index maps over the 25 grid points: the left operand's and the result's block index is `(t, 0)`, the
    right operand's is `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `2000·t …` of its array: the block's entry `u` is the array's entry
    `(2000·t + u₀, u₁)`. -/
theorem lhs2_apply (t : Fin cfg2.N) (u : S2000x256.Idx) (v : S50000x256.Idx)
    (h0 : (v 0).val = 2000 * t.val + (u 0).val) (h1 : (v 1).val = (u 1).val) :
    (iblk2 V c 0 t : Vec Ideal S2000x256 .f32) u = (V c main_v47 : S50000x256.Idx → Elt Ideal .f32) v := by
  obtain ⟨e0, e1, -⟩ := idx2 t
  unfold iblk2
  rw [View.read_apply]
  show V c main_v47 _ = V c main_v47 _
  refine congrArg (V c main_v47) ?_
  funext a
  apply Fin.ext
  match a with
  | ⟨0, _⟩ => show win2_0.index t (0 : Fin 2) * 2000 + 1 * (u 0).val = (v 0).val; rw [e0, h0]; omega
  | ⟨1, _⟩ => show win2_0.index t (1 : Fin 2) * 256 + 1 * (u 1).val = (v 1).val; rw [e1, h1]; omega

/-- The right operand's block at every point is its whole array. -/
theorem rhs2_apply (t : Fin cfg2.N) (u : S256x256.Idx) :
    (iblk2 V c 1 t : Vec Ideal S256x256 .f32) u = (V c main_arg4 : S256x256.Idx → Elt Ideal .f32) u := by
  obtain ⟨-, -, e0, e1, -⟩ := idx2 t
  unfold iblk2
  rw [View.read_apply]
  show V c main_arg4 _ = V c main_arg4 _
  refine congrArg (V c main_arg4) ?_
  funext a
  apply Fin.ext
  match a with
  | ⟨0, _⟩ => show win2_1.index t (0 : Fin 2) * 256 + 1 * (u 0).val = (u 0).val; rw [e0]; omega
  | ⟨1, _⟩ => show win2_1.index t (1 : Fin 2) * 256 + 1 * (u 1).val = (u 1).val; rw [e1]; omega

/-- One point's block product, entry by entry: with the left block holding rows `o …` of `A` and the right block all of
    `B`, the body's value at `y` (both operands narrowed to bf16, which changes nothing at the ideal values, then
    multiplied into zeros) is the whole product's entry at `i = (o + y₀, y₁)`. -/
theorem point2 (A : FVec Ideal S50000x256 .f32) (B : FVec Ideal S256x256 .f32)
    (x0 : Vec Ideal S2000x256 .f32) (x1 : Vec Ideal S256x256 .f32) (o : Nat)
    (hx0 : ∀ (u : S2000x256.Idx) (v : S50000x256.Idx), (v 0).val = o + (u 0).val → (v 1).val = (u 1).val → x0 u = A v)
    (hx1 : ∀ u : S256x256.Idx, x1 u = B u)
    (y : S2000x256.Idx) (i : S50000x256.Idx) (hi0 : (i 0).val = o + (y 0).val) (hi1 : (i 1).val = (y 1).val) :
    k2_pay1 (F := Ideal) x0 x1 y = Cert.Spec.mm1 A B i := by
  obtain ⟨r, q, rfl⟩ : ∃ (r : Fin 2000) (q : Fin 256), y = ix2 r q := ⟨y 0, y 1, eq_ix2 y⟩
  obtain ⟨a, b, rfl⟩ : ∃ (a : Fin 50000) (b : Fin 256), i = ix2 a b := ⟨i 0, i 1, eq_ix2 i⟩
  obtain rfl : b = q := Fin.ext hi1
  unfold k2_pay1 Cert.Spec.mm1
  exact block_product (M := 50000) (K := 256) (N := 256) (R := 2000) _ rfl _ rfl A B _ _ a r b
    (fun k => (congrFun (shapeCast_self x0 shapeCasts_S2000x256_S2000x256) (ix2 r k)).trans (hx0 (ix2 r k) (ix2 a k) hi0 rfl)) (fun k => hx1 (ix2 k b))

/-- What point `t` writes back is block `t` of the whole product. -/
theorem flushed2 (t : Fin cfg2.N) :
    (dat2 (F := Ideal) V c).flushed 2 t
      = ((cfg2.win 2).blk t).view.read (Elt Ideal) (Cert.Spec.mm1 (V c main_v47) (V c main_arg4)) := by
  show (cfg2.win 2).cut (grid2.coords t) ((dat2 (F := Ideal) V c).after 2 t) = _
  rw [after2_2]
  unfold out2_2
  rw [View.canon_unit_zero hz]
  simp only [View.ld_unit_zero (S := S2000x256) hz, View.ld_unit_zero (S := S256x256) hz]
  obtain ⟨-, -, -, -, e0, e1⟩ := idx2 t
  funext j
  refine point2 (V c main_v47) (V c main_arg4) (iblk2 V c 0 t) (iblk2 V c 1 t) (2000 * t.val)
    (fun u v h0 h1 => lhs2_apply V c t u v h0 h1) (fun u => rhs2_apply V c t u)
    ((cfg2.win 2).xinj (grid2.coords t) j) (((cfg2.win 2).blk t).view.emb j) ?_ ?_
  · show win2_2.index t (0 : Fin 2) * 2000 + 1 * (j 0).val = 2000 * t.val + (j 0).val
    rw [e0]; omega
  · show win2_2.index t (1 : Fin 2) * 256 + 1 * (j 1).val = (j 1).val
    rw [e1]; omega

/-- An entry of the result is in point `t`'s block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v48).slice (win2_2.rect t)).set ↔ _
  rw [View.set_slice_whole, Rect.mem_set_unit]
  exact Iff.rfl

/-- Row `r` of the result is written by point `r / 2000`, so the 25 blocks cover the array. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_2 _, ?_⟩
  obtain ⟨-, -, -, -, e0, e1⟩ := idx2 ⟨(i 0).val / 2000, by rw [hN]; omega⟩
  rw [mem_blk2]
  intro a
  match a with
  | ⟨0, _⟩ =>
    show win2_2.index _ (0 : Fin 2) * 2000 ≤ (i 0).val ∧ (i 0).val < win2_2.index _ (0 : Fin 2) * 2000 + 2000
    rw [e0]; show (i 0).val / 2000 * 2000 ≤ (i 0).val ∧ (i 0).val < (i 0).val / 2000 * 2000 + 2000; omega
  | ⟨1, _⟩ =>
    show win2_2.index _ (1 : Fin 2) * 256 ≤ (i 1).val ∧ (i 1).val < win2_2.index _ (1 : Fin 2) * 256 + 256
    rw [e1]; omega

/-- Region 2 leaves the whole product in its result array. -/
theorem mm2 : (dat2 (F := Ideal) V c).arrAt 2 cfg2.N = Cert.Spec.mm1 (V c main_v47) (V c main_arg4) :=
  (dat2 (F := Ideal) V c).arrAt_eq_of_cover 2 (Cert.Spec.mm1 (V c main_v47) (V c main_arg4))
    (fun t _ => flushed2 V c t) cover2

/-! ## Region 4: [50000,256] by [256,256], third layer -/

/-- The printed index maps over the 25 grid points: the left operand's and the result's block index is `(t, 0)`, the
    right operand's is `(0, 0)`. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t` is rows `2000·t …` of its array: the block's entry `u` is the array's entry
    `(2000·t + u₀, u₁)`. -/
theorem lhs4_apply (t : Fin cfg4.N) (u : S2000x256.Idx) (v : S50000x256.Idx)
    (h0 : (v 0).val = 2000 * t.val + (u 0).val) (h1 : (v 1).val = (u 1).val) :
    (iblk4 V c 0 t : Vec Ideal S2000x256 .f32) u = (V c main_v65 : S50000x256.Idx → Elt Ideal .f32) v := by
  obtain ⟨e0, e1, -⟩ := idx4 t
  unfold iblk4
  rw [View.read_apply]
  show V c main_v65 _ = V c main_v65 _
  refine congrArg (V c main_v65) ?_
  funext a
  apply Fin.ext
  match a with
  | ⟨0, _⟩ => show win4_0.index t (0 : Fin 2) * 2000 + 1 * (u 0).val = (v 0).val; rw [e0, h0]; omega
  | ⟨1, _⟩ => show win4_0.index t (1 : Fin 2) * 256 + 1 * (u 1).val = (v 1).val; rw [e1, h1]; omega

/-- The right operand's block at every point is its whole array. -/
theorem rhs4_apply (t : Fin cfg4.N) (u : S256x256.Idx) :
    (iblk4 V c 1 t : Vec Ideal S256x256 .f32) u = (V c main_arg6 : S256x256.Idx → Elt Ideal .f32) u := by
  obtain ⟨-, -, e0, e1, -⟩ := idx4 t
  unfold iblk4
  rw [View.read_apply]
  show V c main_arg6 _ = V c main_arg6 _
  refine congrArg (V c main_arg6) ?_
  funext a
  apply Fin.ext
  match a with
  | ⟨0, _⟩ => show win4_1.index t (0 : Fin 2) * 256 + 1 * (u 0).val = (u 0).val; rw [e0]; omega
  | ⟨1, _⟩ => show win4_1.index t (1 : Fin 2) * 256 + 1 * (u 1).val = (u 1).val; rw [e1]; omega

/-- One point's block product, entry by entry: with the left block holding rows `o …` of `A` and the right block all of
    `B`, the body's value at `y` (both operands narrowed to bf16, which changes nothing at the ideal values, then
    multiplied into zeros) is the whole product's entry at `i = (o + y₀, y₁)`. -/
theorem point4 (A : FVec Ideal S50000x256 .f32) (B : FVec Ideal S256x256 .f32)
    (x0 : Vec Ideal S2000x256 .f32) (x1 : Vec Ideal S256x256 .f32) (o : Nat)
    (hx0 : ∀ (u : S2000x256.Idx) (v : S50000x256.Idx), (v 0).val = o + (u 0).val → (v 1).val = (u 1).val → x0 u = A v)
    (hx1 : ∀ u : S256x256.Idx, x1 u = B u)
    (y : S2000x256.Idx) (i : S50000x256.Idx) (hi0 : (i 0).val = o + (y 0).val) (hi1 : (i 1).val = (y 1).val) :
    k4_pay1 (F := Ideal) x0 x1 y = Cert.Spec.mm1 A B i := by
  obtain ⟨r, q, rfl⟩ : ∃ (r : Fin 2000) (q : Fin 256), y = ix2 r q := ⟨y 0, y 1, eq_ix2 y⟩
  obtain ⟨a, b, rfl⟩ : ∃ (a : Fin 50000) (b : Fin 256), i = ix2 a b := ⟨i 0, i 1, eq_ix2 i⟩
  obtain rfl : b = q := Fin.ext hi1
  unfold k4_pay1 Cert.Spec.mm1
  exact block_product (M := 50000) (K := 256) (N := 256) (R := 2000) _ rfl _ rfl A B _ _ a r b
    (fun k => (congrFun (shapeCast_self x0 shapeCasts_S2000x256_S2000x256) (ix2 r k)).trans (hx0 (ix2 r k) (ix2 a k) hi0 rfl)) (fun k => hx1 (ix2 k b))

/-- What point `t` writes back is block `t` of the whole product. -/
theorem flushed4 (t : Fin cfg4.N) :
    (dat4 (F := Ideal) V c).flushed 2 t
      = ((cfg4.win 2).blk t).view.read (Elt Ideal) (Cert.Spec.mm1 (V c main_v65) (V c main_arg6)) := by
  show (cfg4.win 2).cut (grid4.coords t) ((dat4 (F := Ideal) V c).after 2 t) = _
  rw [after4_2]
  unfold out4_2
  rw [View.canon_unit_zero hz]
  simp only [View.ld_unit_zero (S := S2000x256) hz, View.ld_unit_zero (S := S256x256) hz]
  obtain ⟨-, -, -, -, e0, e1⟩ := idx4 t
  funext j
  refine point4 (V c main_v65) (V c main_arg6) (iblk4 V c 0 t) (iblk4 V c 1 t) (2000 * t.val)
    (fun u v h0 h1 => lhs4_apply V c t u v h0 h1) (fun u => rhs4_apply V c t u)
    ((cfg4.win 2).xinj (grid4.coords t) j) (((cfg4.win 2).blk t).view.emb j) ?_ ?_
  · show win4_2.index t (0 : Fin 2) * 2000 + 1 * (j 0).val = 2000 * t.val + (j 0).val
    rw [e0]; omega
  · show win4_2.index t (1 : Fin 2) * 256 + 1 * (j 1).val = (j 1).val
    rw [e1]; omega

/-- An entry of the result is in point `t`'s block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v66).slice (win4_2.rect t)).set ↔ _
  rw [View.set_slice_whole, Rect.mem_set_unit]
  exact Iff.rfl

/-- Row `r` of the result is written by point `r / 2000`, so the 25 blocks cover the array. -/
theorem cover4 (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have hN : cfg4.N = 25 := N_4
  refine ⟨⟨(i 0).val / 2000, by rw [hN]; omega⟩, flush4_2 _, ?_⟩
  obtain ⟨-, -, -, -, e0, e1⟩ := idx4 ⟨(i 0).val / 2000, by rw [hN]; omega⟩
  rw [mem_blk4]
  intro a
  match a with
  | ⟨0, _⟩ =>
    show win4_2.index _ (0 : Fin 2) * 2000 ≤ (i 0).val ∧ (i 0).val < win4_2.index _ (0 : Fin 2) * 2000 + 2000
    rw [e0]; show (i 0).val / 2000 * 2000 ≤ (i 0).val ∧ (i 0).val < (i 0).val / 2000 * 2000 + 2000; omega
  | ⟨1, _⟩ =>
    show win4_2.index _ (1 : Fin 2) * 256 ≤ (i 1).val ∧ (i 1).val < win4_2.index _ (1 : Fin 2) * 256 + 256
    rw [e1]; omega

/-- Region 4 leaves the whole product in its result array. -/
theorem mm4 : (dat4 (F := Ideal) V c).arrAt 2 cfg4.N = Cert.Spec.mm1 (V c main_v65) (V c main_arg6) :=
  (dat4 (F := Ideal) V c).arrAt_eq_of_cover 2 (Cert.Spec.mm1 (V c main_v65) (V c main_arg6))
    (fun t _ => flushed4 V c t) cover4

/-! ## Region 6: [50000,256] by [256,128] -/

/-- The printed index maps over the 25 grid points: the left operand's and the result's block index is `(t, 0)`, the
    right operand's is `(0, 0)`. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left operand's block at point `t` is rows `2000·t …` of its array: the block's entry `u` is the array's entry
    `(2000·t + u₀, u₁)`. -/
theorem lhs6_apply (t : Fin cfg6.N) (u : S2000x256.Idx) (v : S50000x256.Idx)
    (h0 : (v 0).val = 2000 * t.val + (u 0).val) (h1 : (v 1).val = (u 1).val) :
    (iblk6 V c 0 t : Vec Ideal S2000x256 .f32) u = (V c main_v83 : S50000x256.Idx → Elt Ideal .f32) v := by
  obtain ⟨e0, e1, -⟩ := idx6 t
  unfold iblk6
  rw [View.read_apply]
  show V c main_v83 _ = V c main_v83 _
  refine congrArg (V c main_v83) ?_
  funext a
  apply Fin.ext
  match a with
  | ⟨0, _⟩ => show win6_0.index t (0 : Fin 2) * 2000 + 1 * (u 0).val = (v 0).val; rw [e0, h0]; omega
  | ⟨1, _⟩ => show win6_0.index t (1 : Fin 2) * 256 + 1 * (u 1).val = (v 1).val; rw [e1, h1]; omega

/-- The right operand's block at every point is its whole array. -/
theorem rhs6_apply (t : Fin cfg6.N) (u : S256x128.Idx) :
    (iblk6 V c 1 t : Vec Ideal S256x128 .f32) u = (V c main_arg8 : S256x128.Idx → Elt Ideal .f32) u := by
  obtain ⟨-, -, e0, e1, -⟩ := idx6 t
  unfold iblk6
  rw [View.read_apply]
  show V c main_arg8 _ = V c main_arg8 _
  refine congrArg (V c main_arg8) ?_
  funext a
  apply Fin.ext
  match a with
  | ⟨0, _⟩ => show win6_1.index t (0 : Fin 2) * 256 + 1 * (u 0).val = (u 0).val; rw [e0]; omega
  | ⟨1, _⟩ => show win6_1.index t (1 : Fin 2) * 128 + 1 * (u 1).val = (u 1).val; rw [e1]; omega

/-- One point's block product, entry by entry: with the left block holding rows `o …` of `A` and the right block all of
    `B`, the body's value at `y` (both operands narrowed to bf16, which changes nothing at the ideal values, then
    multiplied into zeros) is the whole product's entry at `i = (o + y₀, y₁)`. -/
theorem point6 (A : FVec Ideal S50000x256 .f32) (B : FVec Ideal S256x128 .f32)
    (x0 : Vec Ideal S2000x256 .f32) (x1 : Vec Ideal S256x128 .f32) (o : Nat)
    (hx0 : ∀ (u : S2000x256.Idx) (v : S50000x256.Idx), (v 0).val = o + (u 0).val → (v 1).val = (u 1).val → x0 u = A v)
    (hx1 : ∀ u : S256x128.Idx, x1 u = B u)
    (y : S2000x128.Idx) (i : S50000x128.Idx) (hi0 : (i 0).val = o + (y 0).val) (hi1 : (i 1).val = (y 1).val) :
    k6_pay1 (F := Ideal) x0 x1 y = Cert.Spec.mm3 A B i := by
  obtain ⟨r, q, rfl⟩ : ∃ (r : Fin 2000) (q : Fin 128), y = ix2 r q := ⟨y 0, y 1, eq_ix2 y⟩
  obtain ⟨a, b, rfl⟩ : ∃ (a : Fin 50000) (b : Fin 128), i = ix2 a b := ⟨i 0, i 1, eq_ix2 i⟩
  obtain rfl : b = q := Fin.ext hi1
  unfold k6_pay1 Cert.Spec.mm3
  exact block_product (M := 50000) (K := 256) (N := 128) (R := 2000) _ rfl _ rfl A B _ _ a r b
    (fun k => (congrFun (shapeCast_self x0 shapeCasts_S2000x256_S2000x256) (ix2 r k)).trans (hx0 (ix2 r k) (ix2 a k) hi0 rfl)) (fun k => hx1 (ix2 k b))

/-- What point `t` writes back is block `t` of the whole product. -/
theorem flushed6 (t : Fin cfg6.N) :
    (dat6 (F := Ideal) V c).flushed 2 t
      = ((cfg6.win 2).blk t).view.read (Elt Ideal) (Cert.Spec.mm3 (V c main_v83) (V c main_arg8)) := by
  show (cfg6.win 2).cut (grid6.coords t) ((dat6 (F := Ideal) V c).after 2 t) = _
  rw [after6_2]
  unfold out6_2
  rw [View.canon_unit_zero hz]
  simp only [View.ld_unit_zero (S := S2000x256) hz, View.ld_unit_zero (S := S256x128) hz]
  obtain ⟨-, -, -, -, e0, e1⟩ := idx6 t
  funext j
  refine point6 (V c main_v83) (V c main_arg8) (iblk6 V c 0 t) (iblk6 V c 1 t) (2000 * t.val)
    (fun u v h0 h1 => lhs6_apply V c t u v h0 h1) (fun u => rhs6_apply V c t u)
    ((cfg6.win 2).xinj (grid6.coords t) j) (((cfg6.win 2).blk t).view.emb j) ?_ ?_
  · show win6_2.index t (0 : Fin 2) * 2000 + 1 * (j 0).val = 2000 * t.val + (j 0).val
    rw [e0]; omega
  · show win6_2.index t (1 : Fin 2) * 128 + 1 * (j 1).val = (j 1).val
    rw [e1]; omega

/-- An entry of the result is in point `t`'s block iff each coordinate is in the block's range on its axis. -/
theorem mem_blk6 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v84).slice (win6_2.rect t)).set ↔ _
  rw [View.set_slice_whole, Rect.mem_set_unit]
  exact Iff.rfl

/-- Row `r` of the result is written by point `r / 2000`, so the 25 blocks cover the array. -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  refine ⟨⟨(i 0).val / 2000, by rw [hN]; omega⟩, flush6_2 _, ?_⟩
  obtain ⟨-, -, -, -, e0, e1⟩ := idx6 ⟨(i 0).val / 2000, by rw [hN]; omega⟩
  rw [mem_blk6]
  intro a
  match a with
  | ⟨0, _⟩ =>
    show win6_2.index _ (0 : Fin 2) * 2000 ≤ (i 0).val ∧ (i 0).val < win6_2.index _ (0 : Fin 2) * 2000 + 2000
    rw [e0]; show (i 0).val / 2000 * 2000 ≤ (i 0).val ∧ (i 0).val < (i 0).val / 2000 * 2000 + 2000; omega
  | ⟨1, _⟩ =>
    show win6_2.index _ (1 : Fin 2) * 128 ≤ (i 1).val ∧ (i 1).val < win6_2.index _ (1 : Fin 2) * 128 + 128
    rw [e1]; omega

/-- Region 6 leaves the whole product in its result array. -/
theorem mm6 : (dat6 (F := Ideal) V c).arrAt 2 cfg6.N = Cert.Spec.mm3 (V c main_v83) (V c main_arg8) :=
  (dat6 (F := Ideal) V c).arrAt_eq_of_cover 2 (Cert.Spec.mm3 (V c main_v83) (V c main_arg8))
    (fun t _ => flushed6 V c t) cover6

end Cert.KernelIdeal.RegionsMM

end
-- ==== Proof.RegionsLN.lean ====
/-
  The three normalisation regions of the kernel (bias, row normalisation, activation; the second and third also add
  the previous layer's output), from blocks to whole arrays.

  Each region's grid has 25 points.  Point `t` loads rows `2000·t … 2000·t + 1999` of the 50000×256 input (and of the
  residual, where there is one) and the whole [1,256] rows of bias, scale and shift (their window's one block, at index
  (0, 0) and of the array's own size, is the array), and stores one 2000×256 block.  Given, as a hypothesis, what the
  stored block is entry by entry when the loaded block is rows `2000·p …` of an array `X`, the region's output array is
  `Spec.act` (or `Spec.actRes`) of the region's input arrays: every point writes back the block of that one function
  its index names, and the 25 blocks cover the array (row `r` lies in block `r / 2000`).
-/
import proofs.«171627_j76175539962264_1_alg».proof.Proof.Gen.KernelIdeal.Frame
import proofs.«171627_j76175539962264_1_alg».proof.Proof.Spec
import Idealize.ShloMosaic.Lib.ValueIdx
import Idealize.ShloMosaic.Lib.Pipeline.Value

noncomputable section

namespace Cert.KernelIdeal.RegionsLN

open Cert.KernelIdeal Cert.KernelIdeal.Gen Idealize.ShloMosaic Idealize.ShloMosaic.TcCoe Idealize.SL.Sem Idealize.ShloMosaic.ValueIdx
open Idealize.ShloMosaic.Pipeline (Dat)

/-- The two zero offsets, spelt as a constant function. -/
theorem hz : (![0, 0] : Fin 2 → Nat) = fun _ => 0 := funext fun a => by fin_cases a <;> rfl

/-! ## Region 1: bias, row normalisation and activation, without a residual -/

/-- The per-entry law of the first normalisation body: when the loaded block is rows `2000·p …` of `X`, entry
    `(r, j)` of the stored block is entry `(2000·p + r, j)` of `Spec.act X B G T`. -/
abbrev EntryLaw1 : Prop :=
  ∀ (X : FVec Ideal S50000x256 .f32) (B G T : FVec Ideal S1x256 .f32) (x0 : FVec Ideal S2000x256 .f32) (p : Fin 25)
    (hx : ∀ (r : Fin 2000) (k : Fin 256), x0 (ix2 r k) = X (ix2 (⟨2000 * p.val + r.val, by omega⟩ : Fin 50000) k))
    (r : Fin 2000) (j : Fin 256),
    k1_pay1 (F := Ideal) x0 B G T (ix2 r j) = Cert.Spec.act X B G T (ix2 (⟨2000 * p.val + r.val, by omega⟩ : Fin 50000) j)

/-- The block index maps over the 25 grid points: the 2000-row windows sit at block `(t, 0)`, the three row windows at `(0, 0)`. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The stored block at a block index `p` whose loaded block is rows `2000·p …` of `X` and whose loaded rows are
    `B G T`, read at a block index `j`, is `Spec.act X B G T` at the array index `i` with `i₀ = 2000·p + j₀`, `i₁ = j₁`. -/
theorem act_block (hpay : EntryLaw1)
    (X : FVec Ideal S50000x256 .f32) (B G T : FVec Ideal S1x256 .f32) (x0 : FVec Ideal S2000x256 .f32)
    (b g s : FVec Ideal S1x256 .f32) (p : Fin 25)
    (hx : ∀ (r : Fin 2000) (k : Fin 256), x0 (ix2 r k) = X (ix2 (⟨2000 * p.val + r.val, by omega⟩ : Fin 50000) k))
    (hb : b = B) (hg : g = G) (hs : s = T)
    (j : S2000x256.Idx) (i : S50000x256.Idx)
    (hi0 : (i 0).val = 2000 * p.val + (j 0).val) (hi1 : (i 1).val = (j 1).val) :
    k1_pay1 (F := Ideal) x0 b g s j = Cert.Spec.act X B G T i := by
  subst hb hg hs
  obtain ⟨r, k, rfl⟩ : ∃ (r : Fin 2000) (k : Fin 256), j = ix2 r k := ⟨j 0, j 1, eq_ix2 j⟩
  have hlt : 2000 * p.val + r.val < 50000 := by clear hi0 hi1 hx; omega
  obtain rfl : i = ix2 (⟨2000 * p.val + r.val, hlt⟩ : Fin 50000) k := by
    funext a; apply Fin.ext
    match a with
    | ⟨0, _⟩ => exact hi0
    | ⟨1, _⟩ => exact hi1
  exact hpay X b g s x0 p hx r k

variable (V : (c : Dev nD) → (b : Ref sig .tc) → Buf (Elt Ideal) ((c : Thread nD τ).loc b))

/-- The input block at point `t` is rows `2000·t … 2000·t + 1999` of the input array. -/
theorem iblk1_0_apply (c : Dev nD) (t : Fin cfg1.N) (r : Fin 2000) (k : Fin 256) (h : 2000 * t.val + r.val < 50000) :
    (iblk1 (F := Ideal) V c 0 t : FVec Ideal S2000x256 .f32) (ix2 r k)
      = (V c main_v43 : FVec Ideal S50000x256 .f32) (ix2 (⟨2000 * t.val + r.val, h⟩ : Fin 50000) k) := by
  obtain ⟨e0, e1, -⟩ := idx1 t
  unfold iblk1
  rw [View.read_apply]
  show V c main_v43 _ = V c main_v43 _
  refine congrArg (V c main_v43) ?_
  funext a; apply Fin.ext
  match a with
  | ⟨0, _⟩ => show win1_0.index t (0 : Fin 2) * 2000 + 1 * r.val = 2000 * t.val + r.val; rw [e0]; omega
  | ⟨1, _⟩ => show win1_0.index t (1 : Fin 2) * 256 + 1 * k.val = k.val; rw [e1]; omega

/-- A one-row window's single block, at index (0, 0) and of the array's own size, is the whole row. -/
theorem iblk1_1_eq (c : Dev nD) (t : Fin cfg1.N) :
    (iblk1 (F := Ideal) V c 1 t : FVec Ideal S1x256 .f32) = V c main_v44 := by
  obtain ⟨-, -, e0, e1, -⟩ := idx1 t
  funext y
  unfold iblk1
  rw [View.read_apply]
  show V c main_v44 _ = V c main_v44 y
  refine congrArg (V c main_v44) ?_
  funext a; apply Fin.ext
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

theorem iblk1_2_eq (c : Dev nD) (t : Fin cfg1.N) :
    (iblk1 (F := Ideal) V c 2 t : FVec Ideal S1x256 .f32) = V c main_v45 := by
  obtain ⟨-, -, -, -, e0, e1, -⟩ := idx1 t
  funext y
  unfold iblk1
  rw [View.read_apply]
  show V c main_v45 _ = V c main_v45 y
  refine congrArg (V c main_v45) ?_
  funext a; apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

theorem iblk1_3_eq (c : Dev nD) (t : Fin cfg1.N) :
    (iblk1 (F := Ideal) V c 3 t : FVec Ideal S1x256 .f32) = V c main_v46 := by
  obtain ⟨-, -, -, -, -, -, e0, e1, -⟩ := idx1 t
  funext y
  unfold iblk1
  rw [View.read_apply]
  show V c main_v46 _ = V c main_v46 y
  refine congrArg (V c main_v46) ?_
  funext a; apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- What point `t` writes back is block `t` of `Spec.act` of the four input arrays. -/
theorem flushed1_eq (hpay : EntryLaw1) (c : Dev nD) (t : Fin cfg1.N) :
    (dat1 (F := Ideal) V c).flushed 4 t = ((cfg1.win 4).blk t).view.read (Elt Ideal)
      (Cert.Spec.act (V c main_v43) (V c main_v44) (V c main_v45) (V c main_v46)) := by
  show (cfg1.win 4).cut (grid1.coords t) ((dat1 (F := Ideal) V c).after 4 t) = _
  rw [after1_4]
  unfold out1_4
  rw [View.canon_unit_zero hz]
  simp only [View.ld_unit_zero (S := S2000x256) hz, View.ld_unit_zero (S := S1x256) hz]
  funext j
  obtain ⟨-, -, -, -, -, -, -, -, e0, e1⟩ := idx1 t
  have hN : cfg1.N = 25 := N_1
  have ht : t.val < 25 := by have := t.isLt; omega
  show k1_pay1 (F := Ideal) (iblk1 V c 0 t) (iblk1 V c 1 t) (iblk1 V c 2 t) (iblk1 V c 3 t) j
    = Cert.Spec.act (V c main_v43) (V c main_v44) (V c main_v45) (V c main_v46) (((cfg1.win 4).blk t).view.emb j)
  refine act_block hpay (V c main_v43) (V c main_v44) (V c main_v45) (V c main_v46)
    (iblk1 V c 0 t) (iblk1 V c 1 t) (iblk1 V c 2 t) (iblk1 V c 3 t) ⟨t.val, ht⟩
    (fun r k => iblk1_0_apply V c t r k _) (iblk1_1_eq V c t) (iblk1_2_eq V c t) (iblk1_3_eq V c t)
    j (((cfg1.win 4).blk t).view.emb j) ?_ ?_
  · show win1_4.index t (0 : Fin 2) * 2000 + 1 * (j 0).val = 2000 * t.val + (j 0).val; rw [e0]; omega
  · show win1_4.index t (1 : Fin 2) * 256 + 1 * (j 1).val = (j 1).val; rw [e1]; omega

/-- An index of the array is in point `t`'s block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v47).slice (win1_4.rect t)).set ↔ _
  rw [View.set_slice_whole, Rect.mem_set_unit]
  exact Iff.rfl

/-- Row `r` of the array lies in the block of point `r / 2000`. -/
theorem cover1 (i : S50000x256.Idx) :
    ∃ t : Fin cfg1.N, (cfg1.win 4).flush t = true ∧ i ∈ ((cfg1.win 4).blk t).view.set := by
  have hi0 : (i 0).val < 50000 := idx2_lt0 i
  have hi1 : (i 1).val < 256 := idx2_lt1 i
  have hN : cfg1.N = 25 := N_1
  have hq : (i 0).val / 2000 < cfg1.N := by omega
  obtain ⟨-, -, -, -, -, -, -, -, e0, e1⟩ := idx1 ⟨(i 0).val / 2000, hq⟩
  refine ⟨⟨(i 0).val / 2000, hq⟩, flush1_4 _, ?_⟩
  rw [mem_blk1]
  intro a
  match a with
  | ⟨0, _⟩ =>
    show win1_4.index ⟨(i 0).val / 2000, hq⟩ (0 : Fin 2) * 2000 ≤ (i 0).val
      ∧ (i 0).val < win1_4.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, hq⟩ (1 : Fin 2) * 256 ≤ (i 1).val
      ∧ (i 1).val < win1_4.index ⟨(i 0).val / 2000, hq⟩ (1 : Fin 2) * 256 + 256
    rw [e1]; omega

/-- THE ARRAY after region 1: `Spec.act` of the region's four input arrays. -/
theorem ln1_of
    (hpay : ∀ (X : FVec Ideal S50000x256 .f32) (B G T : FVec Ideal S1x256 .f32) (x0 : FVec Ideal S2000x256 .f32) (p : Fin 25)
      (hx : ∀ (r : Fin 2000) (k : Fin 256), x0 (ix2 r k) = X (ix2 (⟨2000 * p.val + r.val, by omega⟩ : Fin 50000) k))
      (r : Fin 2000) (j : Fin 256),
      k1_pay1 (F := Ideal) x0 B G T (ix2 r j) = Cert.Spec.act X B G T (ix2 (⟨2000 * p.val + r.val, by omega⟩ : Fin 50000) j))
    (V : (c : Dev nD) → (b : Ref sig .tc) → Buf (Elt Ideal) ((c : Thread nD τ).loc b)) (c : Dev nD) :
    (dat1 (F := Ideal) V c).arrAt 4 cfg1.N = Cert.Spec.act (V c main_v43) (V c main_v44) (V c main_v45) (V c main_v46) :=
  (dat1 (F := Ideal) V c).arrAt_eq_of_cover 4 (Cert.Spec.act (V c main_v43) (V c main_v44) (V c main_v45) (V c main_v46))
    (fun t _ => flushed1_eq V hpay c t) cover1

/-! ## Region 3: bias, row normalisation and activation, plus the previous layer's output -/

/-- The per-entry law of the second normalisation body: when the loaded blocks are rows `2000·p …` of `X` and of the
    residual `R`, entry `(r, j)` of the stored block is entry `(2000·p + r, j)` of `Spec.actRes X B G T R`. -/
abbrev EntryLaw3 : Prop :=
  ∀ (X R : FVec Ideal S50000x256 .f32) (B G T : FVec Ideal S1x256 .f32) (x0 x4 : FVec Ideal S2000x256 .f32) (p : Fin 25)
    (hx : ∀ (r : Fin 2000) (k : Fin 256), x0 (ix2 r k) = X (ix2 (⟨2000 * p.val + r.val, by omega⟩ : Fin 50000) k))
    (hr : ∀ (r : Fin 2000) (k : Fin 256), x4 (ix2 r k) = R (ix2 (⟨2000 * p.val + r.val, by omega⟩ : Fin 50000) k))
    (r : Fin 2000) (j : Fin 256),
    k3_pay1 (F := Ideal) x0 B G T x4 (ix2 r j) = Cert.Spec.actRes X B G T R (ix2 (⟨2000 * p.val + r.val, by omega⟩ : Fin 50000) j)

/-- The block index maps over the 25 grid points: the 2000-row windows sit at block `(t, 0)`, the three row windows at `(0, 0)`. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The stored block at a block index `p` whose loaded blocks are rows `2000·p …` of `X` and of `R` and whose loaded
    rows are `B G T`, read at a block index `j`, is `Spec.actRes X B G T R` at the array index `i` with
    `i₀ = 2000·p + j₀`, `i₁ = j₁`. -/
theorem actRes_block3 (hpay : EntryLaw3)
    (X R : FVec Ideal S50000x256 .f32) (B G T : FVec Ideal S1x256 .f32) (x0 x4 : FVec Ideal S2000x256 .f32)
    (b g s : FVec Ideal S1x256 .f32) (p : Fin 25)
    (hx : ∀ (r : Fin 2000) (k : Fin 256), x0 (ix2 r k) = X (ix2 (⟨2000 * p.val + r.val, by omega⟩ : Fin 50000) k))
    (hr : ∀ (r : Fin 2000) (k : Fin 256), x4 (ix2 r k) = R (ix2 (⟨2000 * p.val + r.val, by omega⟩ : Fin 50000) k))
    (hb : b = B) (hg : g = G) (hs : s = T)
    (j : S2000x256.Idx) (i : S50000x256.Idx)
    (hi0 : (i 0).val = 2000 * p.val + (j 0).val) (hi1 : (i 1).val = (j 1).val) :
    k3_pay1 (F := Ideal) x0 b g s x4 j = Cert.Spec.actRes X B G T R i := by
  subst hb hg hs
  obtain ⟨r, k, rfl⟩ : ∃ (r : Fin 2000) (k : Fin 256), j = ix2 r k := ⟨j 0, j 1, eq_ix2 j⟩
  have hlt : 2000 * p.val + r.val < 50000 := by clear hi0 hi1 hx hr; omega
  obtain rfl : i = ix2 (⟨2000 * p.val + r.val, hlt⟩ : Fin 50000) k := by
    funext a; apply Fin.ext
    match a with
    | ⟨0, _⟩ => exact hi0
    | ⟨1, _⟩ => exact hi1
  exact hpay X R b g s x0 x4 p hx hr r k

/-- The input block at point `t` is rows `2000·t … 2000·t + 1999` of the input array. -/
theorem iblk3_0_apply (c : Dev nD) (t : Fin cfg3.N) (r : Fin 2000) (k : Fin 256) (h : 2000 * t.val + r.val < 50000) :
    (iblk3 (F := Ideal) V c 0 t : FVec Ideal S2000x256 .f32) (ix2 r k)
      = (V c main_v61 : FVec Ideal S50000x256 .f32) (ix2 (⟨2000 * t.val + r.val, h⟩ : Fin 50000) k) := by
  obtain ⟨e0, e1, -⟩ := idx3 t
  unfold iblk3
  rw [View.read_apply]
  show V c main_v61 _ = V c main_v61 _
  refine congrArg (V c main_v61) ?_
  funext a; apply Fin.ext
  match a with
  | ⟨0, _⟩ => show win3_0.index t (0 : Fin 2) * 2000 + 1 * r.val = 2000 * t.val + r.val; rw [e0]; omega
  | ⟨1, _⟩ => show win3_0.index t (1 : Fin 2) * 256 + 1 * k.val = k.val; rw [e1]; omega

/-- The residual block at point `t` is the same rows of the residual array. -/
theorem iblk3_4_apply (c : Dev nD) (t : Fin cfg3.N) (r : Fin 2000) (k : Fin 256) (h : 2000 * t.val + r.val < 50000) :
    (iblk3 (F := Ideal) V c 4 t : FVec Ideal S2000x256 .f32) (ix2 r k)
      = (V c main_v47 : FVec Ideal S50000x256 .f32) (ix2 (⟨2000 * t.val + r.val, h⟩ : Fin 50000) k) := by
  obtain ⟨-, -, -, -, -, -, -, -, e0, e1, -⟩ := idx3 t
  unfold iblk3
  rw [View.read_apply]
  show V c main_v47 _ = V c main_v47 _
  refine congrArg (V c main_v47) ?_
  funext a; apply Fin.ext
  match a with
  | ⟨0, _⟩ => show win3_4.index t (0 : Fin 2) * 2000 + 1 * r.val = 2000 * t.val + r.val; rw [e0]; omega
  | ⟨1, _⟩ => show win3_4.index t (1 : Fin 2) * 256 + 1 * k.val = k.val; rw [e1]; omega

/-- A one-row window's single block, at index (0, 0) and of the array's own size, is the whole row. -/
theorem iblk3_1_eq (c : Dev nD) (t : Fin cfg3.N) :
    (iblk3 (F := Ideal) V c 1 t : FVec Ideal S1x256 .f32) = V c main_v62 := by
  obtain ⟨-, -, e0, e1, -⟩ := idx3 t
  funext y
  unfold iblk3
  rw [View.read_apply]
  show V c main_v62 _ = V c main_v62 y
  refine congrArg (V c main_v62) ?_
  funext a; apply Fin.ext
  match a with
  | ⟨0, _⟩ => show win3_1.index t (0 : Fin 2) * 1 + 1 * (y 0).val = (y 0).val; rw [e0]; omega
  | ⟨1, _⟩ => show win3_1.index t (1 : Fin 2) * 256 + 1 * (y 1).val = (y 1).val; rw [e1]; omega

theorem iblk3_2_eq (c : Dev nD) (t : Fin cfg3.N) :
    (iblk3 (F := Ideal) V c 2 t : FVec Ideal S1x256 .f32) = V c main_v63 := by
  obtain ⟨-, -, -, -, e0, e1, -⟩ := idx3 t
  funext y
  unfold iblk3
  rw [View.read_apply]
  show V c main_v63 _ = V c main_v63 y
  refine congrArg (V c main_v63) ?_
  funext a; apply Fin.ext
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega

theorem iblk3_3_eq (c : Dev nD) (t : Fin cfg3.N) :
    (iblk3 (F := Ideal) V c 3 t : FVec Ideal S1x256 .f32) = V c main_v64 := by
  obtain ⟨-, -, -, -, -, -, e0, e1, -⟩ := idx3 t
  funext y
  unfold iblk3
  rw [View.read_apply]
  show V c main_v64 _ = V c main_v64 y
  refine congrArg (V c main_v64) ?_
  funext a; apply Fin.ext
  match a with
  | ⟨0, _⟩ => show win3_3.index t (0 : Fin 2) * 1 + 1 * (y 0).val = (y 0).val; rw [e0]; omega
  | ⟨1, _⟩ => show win3_3.index t (1 : Fin 2) * 256 + 1 * (y 1).val = (y 1).val; rw [e1]; omega

/-- What point `t` writes back is block `t` of `Spec.actRes` of the five input arrays. -/
theorem flushed3_eq (hpay : EntryLaw3) (c : Dev nD) (t : Fin cfg3.N) :
    (dat3 (F := Ideal) V c).flushed 5 t = ((cfg3.win 5).blk t).view.read (Elt Ideal)
      (Cert.Spec.actRes (V c main_v61) (V c main_v62) (V c main_v63) (V c main_v64) (V c main_v47)) := by
  show (cfg3.win 5).cut (grid3.coords t) ((dat3 (F := Ideal) V c).after 5 t) = _
  rw [after3_5]
  unfold out3_5
  rw [View.canon_unit_zero hz]
  simp only [View.ld_unit_zero (S := S2000x256) hz, View.ld_unit_zero (S := S1x256) hz]
  funext j
  obtain ⟨-, -, -, -, -, -, -, -, -, -, e0, e1⟩ := idx3 t
  have hN : cfg3.N = 25 := N_3
  have ht : t.val < 25 := by have := t.isLt; omega
  show k3_pay1 (F := Ideal) (iblk3 V c 0 t) (iblk3 V c 1 t) (iblk3 V c 2 t) (iblk3 V c 3 t) (iblk3 V c 4 t) j
    = Cert.Spec.actRes (V c main_v61) (V c main_v62) (V c main_v63) (V c main_v64) (V c main_v47) (((cfg3.win 5).blk t).view.emb j)
  refine actRes_block3 hpay (V c main_v61) (V c main_v47) (V c main_v62) (V c main_v63) (V c main_v64)
    (iblk3 V c 0 t) (iblk3 V c 4 t) (iblk3 V c 1 t) (iblk3 V c 2 t) (iblk3 V c 3 t) ⟨t.val, ht⟩
    (fun r k => iblk3_0_apply V c t r k _) (fun r k => iblk3_4_apply V c t r k _)
    (iblk3_1_eq V c t) (iblk3_2_eq V c t) (iblk3_3_eq V c t)
    j (((cfg3.win 5).blk t).view.emb j) ?_ ?_
  · show win3_5.index t (0 : Fin 2) * 2000 + 1 * (j 0).val = 2000 * t.val + (j 0).val; rw [e0]; omega
  · show win3_5.index t (1 : Fin 2) * 256 + 1 * (j 1).val = (j 1).val; rw [e1]; omega

/-- An index of the array is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v65).slice (win3_5.rect t)).set ↔ _
  rw [View.set_slice_whole, Rect.mem_set_unit]
  exact Iff.rfl

/-- Row `r` of the array lies in the block of point `r / 2000`. -/
theorem cover3 (i : S50000x256.Idx) :
    ∃ t : Fin cfg3.N, (cfg3.win 5).flush t = true ∧ i ∈ ((cfg3.win 5).blk t).view.set := by
  have hi0 : (i 0).val < 50000 := idx2_lt0 i
  have hi1 : (i 1).val < 256 := idx2_lt1 i
  have hN : cfg3.N = 25 := N_3
  have hq : (i 0).val / 2000 < cfg3.N := by omega
  obtain ⟨-, -, -, -, -, -, -, -, -, -, e0, e1⟩ := idx3 ⟨(i 0).val / 2000, hq⟩
  refine ⟨⟨(i 0).val / 2000, hq⟩, flush3_5 _, ?_⟩
  rw [mem_blk3]
  intro a
  match a with
  | ⟨0, _⟩ =>
    show win3_5.index ⟨(i 0).val / 2000, hq⟩ (0 : Fin 2) * 2000 ≤ (i 0).val
      ∧ (i 0).val < win3_5.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, hq⟩ (1 : Fin 2) * 256 ≤ (i 1).val
      ∧ (i 1).val < win3_5.index ⟨(i 0).val / 2000, hq⟩ (1 : Fin 2) * 256 + 256
    rw [e1]; omega

/-- THE ARRAY after region 3: `Spec.actRes` of the region's five input arrays. -/
theorem ln3_of
    (hpay : ∀ (X R : FVec Ideal S50000x256 .f32) (B G T : FVec Ideal S1x256 .f32) (x0 x4 : FVec Ideal S2000x256 .f32) (p : Fin 25)
      (hx : ∀ (r : Fin 2000) (k : Fin 256), x0 (ix2 r k) = X (ix2 (⟨2000 * p.val + r.val, by omega⟩ : Fin 50000) k))
      (hr : ∀ (r : Fin 2000) (k : Fin 256), x4 (ix2 r k) = R (ix2 (⟨2000 * p.val + r.val, by omega⟩ : Fin 50000) k))
      (r : Fin 2000) (j : Fin 256),
      k3_pay1 (F := Ideal) x0 B G T x4 (ix2 r j) = Cert.Spec.actRes X B G T R (ix2 (⟨2000 * p.val + r.val, by omega⟩ : Fin 50000) j))
    (V : (c : Dev nD) → (b : Ref sig .tc) → Buf (Elt Ideal) ((c : Thread nD τ).loc b)) (c : Dev nD) :
    (dat3 (F := Ideal) V c).arrAt 5 cfg3.N = Cert.Spec.actRes (V c main_v61) (V c main_v62) (V c main_v63) (V c main_v64) (V c main_v47) :=
  (dat3 (F := Ideal) V c).arrAt_eq_of_cover 5 (Cert.Spec.actRes (V c main_v61) (V c main_v62) (V c main_v63) (V c main_v64) (V c main_v47))
    (fun t _ => flushed3_eq V hpay c t) cover3

/-! ## Region 5: bias, row normalisation and activation, plus the previous layer's output -/

/-- The per-entry law of the third normalisation body: when the loaded blocks are rows `2000·p …` of `X` and of the
    residual `R`, entry `(r, j)` of the stored block is entry `(2000·p + r, j)` of `Spec.actRes X B G T R`. -/
abbrev EntryLaw5 : Prop :=
  ∀ (X R : FVec Ideal S50000x256 .f32) (B G T : FVec Ideal S1x256 .f32) (x0 x4 : FVec Ideal S2000x256 .f32) (p : Fin 25)
    (hx : ∀ (r : Fin 2000) (k : Fin 256), x0 (ix2 r k) = X (ix2 (⟨2000 * p.val + r.val, by omega⟩ : Fin 50000) k))
    (hr : ∀ (r : Fin 2000) (k : Fin 256), x4 (ix2 r k) = R (ix2 (⟨2000 * p.val + r.val, by omega⟩ : Fin 50000) k))
    (r : Fin 2000) (j : Fin 256),
    k5_pay1 (F := Ideal) x0 B G T x4 (ix2 r j) = Cert.Spec.actRes X B G T R (ix2 (⟨2000 * p.val + r.val, by omega⟩ : Fin 50000) j)

/-- The block index maps over the 25 grid points: the 2000-row windows sit at block `(t, 0)`, the three row windows at `(0, 0)`. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- The stored block at a block index `p` whose loaded blocks are rows `2000·p …` of `X` and of `R` and whose loaded
    rows are `B G T`, read at a block index `j`, is `Spec.actRes X B G T R` at the array index `i` with
    `i₀ = 2000·p + j₀`, `i₁ = j₁`. -/
theorem actRes_block5 (hpay : EntryLaw5)
    (X R : FVec Ideal S50000x256 .f32) (B G T : FVec Ideal S1x256 .f32) (x0 x4 : FVec Ideal S2000x256 .f32)
    (b g s : FVec Ideal S1x256 .f32) (p : Fin 25)
    (hx : ∀ (r : Fin 2000) (k : Fin 256), x0 (ix2 r k) = X (ix2 (⟨2000 * p.val + r.val, by omega⟩ : Fin 50000) k))
    (hr : ∀ (r : Fin 2000) (k : Fin 256), x4 (ix2 r k) = R (ix2 (⟨2000 * p.val + r.val, by omega⟩ : Fin 50000) k))
    (hb : b = B) (hg : g = G) (hs : s = T)
    (j : S2000x256.Idx) (i : S50000x256.Idx)
    (hi0 : (i 0).val = 2000 * p.val + (j 0).val) (hi1 : (i 1).val = (j 1).val) :
    k5_pay1 (F := Ideal) x0 b g s x4 j = Cert.Spec.actRes X B G T R i := by
  subst hb hg hs
  obtain ⟨r, k, rfl⟩ : ∃ (r : Fin 2000) (k : Fin 256), j = ix2 r k := ⟨j 0, j 1, eq_ix2 j⟩
  have hlt : 2000 * p.val + r.val < 50000 := by clear hi0 hi1 hx hr; omega
  obtain rfl : i = ix2 (⟨2000 * p.val + r.val, hlt⟩ : Fin 50000) k := by
    funext a; apply Fin.ext
    match a with
    | ⟨0, _⟩ => exact hi0
    | ⟨1, _⟩ => exact hi1
  exact hpay X R b g s x0 x4 p hx hr r k

/-- The input block at point `t` is rows `2000·t … 2000·t + 1999` of the input array. -/
theorem iblk5_0_apply (c : Dev nD) (t : Fin cfg5.N) (r : Fin 2000) (k : Fin 256) (h : 2000 * t.val + r.val < 50000) :
    (iblk5 (F := Ideal) V c 0 t : FVec Ideal S2000x256 .f32) (ix2 r k)
      = (V c main_v79 : FVec Ideal S50000x256 .f32) (ix2 (⟨2000 * t.val + r.val, h⟩ : Fin 50000) k) := by
  obtain ⟨e0, e1, -⟩ := idx5 t
  unfold iblk5
  rw [View.read_apply]
  show V c main_v79 _ = V c main_v79 _
  refine congrArg (V c main_v79) ?_
  funext a; apply Fin.ext
  match a with
  | ⟨0, _⟩ => show win5_0.index t (0 : Fin 2) * 2000 + 1 * r.val = 2000 * t.val + r.val; rw [e0]; omega
  | ⟨1, _⟩ => show win5_0.index t (1 : Fin 2) * 256 + 1 * k.val = k.val; rw [e1]; omega

/-- The residual block at point `t` is the same rows of the residual array. -/
theorem iblk5_4_apply (c : Dev nD) (t : Fin cfg5.N) (r : Fin 2000) (k : Fin 256) (h : 2000 * t.val + r.val < 50000) :
    (iblk5 (F := Ideal) V c 4 t : FVec Ideal S2000x256 .f32) (ix2 r k)
      = (V c main_v65 : FVec Ideal S50000x256 .f32) (ix2 (⟨2000 * t.val + r.val, h⟩ : Fin 50000) k) := by
  obtain ⟨-, -, -, -, -, -, -, -, e0, e1, -⟩ := idx5 t
  unfold iblk5
  rw [View.read_apply]
  show V c main_v65 _ = V c main_v65 _
  refine congrArg (V c main_v65) ?_
  funext a; apply Fin.ext
  match a with
  | ⟨0, _⟩ => show win5_4.index t (0 : Fin 2) * 2000 + 1 * r.val = 2000 * t.val + r.val; rw [e0]; omega
  | ⟨1, _⟩ => show win5_4.index t (1 : Fin 2) * 256 + 1 * k.val = k.val; rw [e1]; omega

/-- A one-row window's single block, at index (0, 0) and of the array's own size, is the whole row. -/
theorem iblk5_1_eq (c : Dev nD) (t : Fin cfg5.N) :
    (iblk5 (F := Ideal) V c 1 t : FVec Ideal S1x256 .f32) = V c main_v80 := by
  obtain ⟨-, -, e0, e1, -⟩ := idx5 t
  funext y
  unfold iblk5
  rw [View.read_apply]
  show V c main_v80 _ = V c main_v80 y
  refine congrArg (V c main_v80) ?_
  funext a; apply Fin.ext
  match a with
  | ⟨0, _⟩ => show win5_1.index t (0 : Fin 2) * 1 + 1 * (y 0).val = (y 0).val; rw [e0]; omega
  | ⟨1, _⟩ => show win5_1.index t (1 : Fin 2) * 256 + 1 * (y 1).val = (y 1).val; rw [e1]; omega

theorem iblk5_2_eq (c : Dev nD) (t : Fin cfg5.N) :
    (iblk5 (F := Ideal) V c 2 t : FVec Ideal S1x256 .f32) = V c main_v81 := by
  obtain ⟨-, -, -, -, e0, e1, -⟩ := idx5 t
  funext y
  unfold iblk5
  rw [View.read_apply]
  show V c main_v81 _ = V c main_v81 y
  refine congrArg (V c main_v81) ?_
  funext a; apply Fin.ext
  match a with
  | ⟨0, _⟩ => show win5_2.index t (0 : Fin 2) * 1 + 1 * (y 0).val = (y 0).val; rw [e0]; omega
  | ⟨1, _⟩ => show win5_2.index t (1 : Fin 2) * 256 + 1 * (y 1).val = (y 1).val; rw [e1]; omega

theorem iblk5_3_eq (c : Dev nD) (t : Fin cfg5.N) :
    (iblk5 (F := Ideal) V c 3 t : FVec Ideal S1x256 .f32) = V c main_v82 := by
  obtain ⟨-, -, -, -, -, -, e0, e1, -⟩ := idx5 t
  funext y
  unfold iblk5
  rw [View.read_apply]
  show V c main_v82 _ = V c main_v82 y
  refine congrArg (V c main_v82) ?_
  funext a; apply Fin.ext
  match a with
  | ⟨0, _⟩ => show win5_3.index t (0 : Fin 2) * 1 + 1 * (y 0).val = (y 0).val; rw [e0]; omega
  | ⟨1, _⟩ => show win5_3.index t (1 : Fin 2) * 256 + 1 * (y 1).val = (y 1).val; rw [e1]; omega

/-- What point `t` writes back is block `t` of `Spec.actRes` of the five input arrays. -/
theorem flushed5_eq (hpay : EntryLaw5) (c : Dev nD) (t : Fin cfg5.N) :
    (dat5 (F := Ideal) V c).flushed 5 t = ((cfg5.win 5).blk t).view.read (Elt Ideal)
      (Cert.Spec.actRes (V c main_v79) (V c main_v80) (V c main_v81) (V c main_v82) (V c main_v65)) := by
  show (cfg5.win 5).cut (grid5.coords t) ((dat5 (F := Ideal) V c).after 5 t) = _
  rw [after5_5]
  unfold out5_5
  rw [View.canon_unit_zero hz]
  simp only [View.ld_unit_zero (S := S2000x256) hz, View.ld_unit_zero (S := S1x256) hz]
  funext j
  obtain ⟨-, -, -, -, -, -, -, -, -, -, e0, e1⟩ := idx5 t
  have hN : cfg5.N = 25 := N_5
  have ht : t.val < 25 := by have := t.isLt; omega
  show k5_pay1 (F := Ideal) (iblk5 V c 0 t) (iblk5 V c 1 t) (iblk5 V c 2 t) (iblk5 V c 3 t) (iblk5 V c 4 t) j
    = Cert.Spec.actRes (V c main_v79) (V c main_v80) (V c main_v81) (V c main_v82) (V c main_v65) (((cfg5.win 5).blk t).view.emb j)
  refine actRes_block5 hpay (V c main_v79) (V c main_v65) (V c main_v80) (V c main_v81) (V c main_v82)
    (iblk5 V c 0 t) (iblk5 V c 4 t) (iblk5 V c 1 t) (iblk5 V c 2 t) (iblk5 V c 3 t) ⟨t.val, ht⟩
    (fun r k => iblk5_0_apply V c t r k _) (fun r k => iblk5_4_apply V c t r k _)
    (iblk5_1_eq V c t) (iblk5_2_eq V c t) (iblk5_3_eq V c t)
    j (((cfg5.win 5).blk t).view.emb j) ?_ ?_
  · show win5_5.index t (0 : Fin 2) * 2000 + 1 * (j 0).val = 2000 * t.val + (j 0).val; rw [e0]; omega
  · show win5_5.index t (1 : Fin 2) * 256 + 1 * (j 1).val = (j 1).val; rw [e1]; omega

/-- An index of the array is in point `t`'s block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole main_v83).slice (win5_5.rect t)).set ↔ _
  rw [View.set_slice_whole, Rect.mem_set_unit]
  exact Iff.rfl

/-- Row `r` of the array lies in the block of point `r / 2000`. -/
theorem cover5 (i : S50000x256.Idx) :
    ∃ t : Fin cfg5.N, (cfg5.win 5).flush t = true ∧ i ∈ ((cfg5.win 5).blk t).view.set := by
  have hi0 : (i 0).val < 50000 := idx2_lt0 i
  have hi1 : (i 1).val < 256 := idx2_lt1 i
  have hN : cfg5.N = 25 := N_5
  have hq : (i 0).val / 2000 < cfg5.N := by omega
  obtain ⟨-, -, -, -, -, -, -, -, -, -, e0, e1⟩ := idx5 ⟨(i 0).val / 2000, hq⟩
  refine ⟨⟨(i 0).val / 2000, hq⟩, flush5_5 _, ?_⟩
  rw [mem_blk5]
  intro a
  match a with
  | ⟨0, _⟩ =>
    show win5_5.index ⟨(i 0).val / 2000, hq⟩ (0 : Fin 2) * 2000 ≤ (i 0).val
      ∧ (i 0).val < win5_5.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win5_5.index ⟨(i 0).val / 2000, hq⟩ (1 : Fin 2) * 256 ≤ (i 1).val
      ∧ (i 1).val < win5_5.index ⟨(i 0).val / 2000, hq⟩ (1 : Fin 2) * 256 + 256
    rw [e1]; omega

/-- THE ARRAY after region 5: `Spec.actRes` of the region's five input arrays. -/
theorem ln5_of
    (hpay : ∀ (X R : FVec Ideal S50000x256 .f32) (B G T : FVec Ideal S1x256 .f32) (x0 x4 : FVec Ideal S2000x256 .f32) (p : Fin 25)
      (hx : ∀ (r : Fin 2000) (k : Fin 256), x0 (ix2 r k) = X (ix2 (⟨2000 * p.val + r.val, by omega⟩ : Fin 50000) k))
      (hr : ∀ (r : Fin 2000) (k : Fin 256), x4 (ix2 r k) = R (ix2 (⟨2000 * p.val + r.val, by omega⟩ : Fin 50000) k))
      (r : Fin 2000) (j : Fin 256),
      k5_pay1 (F := Ideal) x0 B G T x4 (ix2 r j) = Cert.Spec.actRes X B G T R (ix2 (⟨2000 * p.val + r.val, by omega⟩ : Fin 50000) j))
    (V : (c : Dev nD) → (b : Ref sig .tc) → Buf (Elt Ideal) ((c : Thread nD τ).loc b)) (c : Dev nD) :
    (dat5 (F := Ideal) V c).arrAt 5 cfg5.N = Cert.Spec.actRes (V c main_v79) (V c main_v80) (V c main_v81) (V c main_v82) (V c main_v65) :=
  (dat5 (F := Ideal) V c).arrAt_eq_of_cover 5 (Cert.Spec.actRes (V c main_v79) (V c main_v80) (V c main_v81) (V c main_v82) (V c main_v65))
    (fun t _ => flushed5_eq V hpay c t) cover5

end Cert.KernelIdeal.RegionsLN

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.LnRows.lean ====
/-
  The fused bias + layer normalisation + ELU (+ residual) bodies, entry by entry, on the extended reals.

  A row `y` of 256 entries (a block row plus the bias row) is centred at its mean `μ = (Σ y) / 256`, the mean of
  the squared deviations plus a positive constant is the radicand, and entry `j` of the result is
  `(y j − μ) · rsqrt radicand · g j + t j`, then ELU of it: the value itself where it is positive, `exp − 1`
  elsewhere.  The kernel computes this with lane sums and keepdims columns; the reference with host reductions
  and `broadcast_in_dim`, and writes ELU as `select(z > 0, z, 1 · expm1(select(z > 0, 0, z)))`.  Both are the same
  expression of the same extended reals once each sum is read as the `Fin 256`-indexed sum of its row, so no
  finiteness is used.
-/
import proofs.«171627_j76175539962264_1_alg».proof.Proof.Gen.KernelIdeal.Skeleton
import proofs.«171627_j76175539962264_1_alg».proof.Proof.Spec
import proofs.«171627_j76175539962264_1_alg».proof.Proof.LibColumn
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.LnRows

open Cert.KernelIdeal Cert.KernelIdeal.Gen Idealize.ShloMosaic Idealize.ShloMosaic.ValueIdx
open Idealize.ShloMosaic.ColumnForms
open scoped BigOperators

/-! ## One row -/

/-- The mean of a row of 256 entries: its sum divided by the single-precision word of 256. -/
def rowMean (y : Fin 256 → EReal) : EReal :=
  Ideal.div (∑ k : Fin 256, y k) (Ideal.ofBits .f32 0x43800000#32)

/-- Entry `j` of the normalised row, scaled by `g` and shifted by `t`: the deviation from the mean times the
    reciprocal square root of the mean squared deviation plus the constant. -/
def rowLn (y : Fin 256 → EReal) (g t : EReal) (j : Fin 256) : EReal :=
  (y j - rowMean y)
      * Ideal.rsqrt (rowMean (fun k => (y k - rowMean y) * (y k - rowMean y)) + Ideal.ofBits .f32 0x3727C5AC#32)
      * g + t

/-- ELU of one value: itself where it is positive, `exp − 1` elsewhere. -/
def eluVal (z : EReal) : EReal :=
  Scalar.select (Ideal.cmp .ogt z (Ideal.ofBits .f32 0x00000000#32)) z (Ideal.exp z - Ideal.ofBits .f32 0x3F800000#32)

/-- The coordinates of the index a one-axis reduction inserts: row `r`, lane `k`. -/
theorem lift_row {a : ℕ} (h : (⟨2, ![a, 256]⟩ : Shape).Reduces [1] ⟨1, ![a]⟩) (r : Fin a) (k : Fin 256) :
    h.lift (ix1 r) k = ix2 r k := by
  funext c
  match c with
  | ⟨0, _⟩ => rfl
  | ⟨1, _⟩ => rfl

/-! ## The kernel's body -/

/-- The block with the bias row added to every row. -/
def kBias (x : FVec Ideal S2000x256 .f32) (b : FVec Ideal S1x256 .f32) : FVec Ideal S2000x256 .f32 :=
  addf (shapeCast S2000x256 x shapeCasts_S2000x256_S2000x256)
    (broadcastTo S2000x256 (shapeCast S1x256 b shapeCasts_S1x256_S1x256) broadcasts_S1x256_S2000x256)

/-- A [1,256] row laid along every row of the block. -/
def kRows (v : FVec Ideal S1x256 .f32) : FVec Ideal S2000x256 .f32 :=
  broadcastTo S2000x256 (shapeCast S1x256 v shapeCasts_S1x256_S1x256) broadcasts_S1x256_S2000x256

/-- The lane sums of a block divided by 256, as a column. -/
def kMeanCol (v : FVec Ideal S2000x256 .f32) : FVec Ideal S2000x1 .f32 :=
  divf (shapeCast S2000x1 (multiReduction .add [1] S2000 v 0x00000000#32 reduces_S2000x256_S2000 (.inl rfl) rfl)
      shapeCasts_S2000_S2000x1)
    (broadcast S2000x1 (Scalar.ofBits .f32 0x43800000#32))

/-- A column repeated along the lanes. -/
def kCols (c : FVec Ideal S2000x1 .f32) : FVec Ideal S2000x256 .f32 :=
  broadcastTo S2000x256 c broadcasts_S2000x1_S2000x256

/-- The normalised, scaled and shifted block. -/
def kLn (x : FVec Ideal S2000x256 .f32) (b g t : FVec Ideal S1x256 .f32) : FVec Ideal S2000x256 .f32 :=
  addf (mulf (mulf (subf (kBias x b) (kCols (kMeanCol (kBias x b))))
      (kCols (rsqrt (addf (kMeanCol (mulf (subf (kBias x b) (kCols (kMeanCol (kBias x b))))
          (subf (kBias x b) (kCols (kMeanCol (kBias x b))))))
        (broadcast S2000x1 (Scalar.ofBits .f32 0x3727C5AC#32))))))
    (kRows g)) (kRows t)

/-- ELU of a block. -/
def kElu (z : FVec Ideal S2000x256 .f32) : FVec Ideal S2000x256 .f32 :=
  select (cmpf .ogt z (broadcast S2000x256 (Scalar.ofBits .f32 0x00000000#32))) z
    (subf (exp z) (broadcast S2000x256 (Scalar.ofBits .f32 0x3F800000#32)))

/-- The first normalisation body is these pieces composed. -/
theorem k1_pay1_form (x : FVec Ideal S2000x256 .f32) (b g t : FVec Ideal S1x256 .f32) :
    k1_pay1 (F := Ideal) x b g t = kElu (kLn x b g t) := rfl

/-- The two bodies with a residual add the residual block. -/
theorem k3_pay1_form (x : FVec Ideal S2000x256 .f32) (b g t : FVec Ideal S1x256 .f32) (x4 : FVec Ideal S2000x256 .f32) :
    k3_pay1 (F := Ideal) x b g t x4 = addf (kElu (kLn x b g t)) (shapeCast S2000x256 x4 shapeCasts_S2000x256_S2000x256) := rfl

theorem k5_pay1_form (x : FVec Ideal S2000x256 .f32) (b g t : FVec Ideal S1x256 .f32) (x4 : FVec Ideal S2000x256 .f32) :
    k5_pay1 (F := Ideal) x b g t x4 = addf (kElu (kLn x b g t)) (shapeCast S2000x256 x4 shapeCasts_S2000x256_S2000x256) := rfl

theorem kBias_apply (x : FVec Ideal S2000x256 .f32) (b : FVec Ideal S1x256 .f32) (r : Fin 2000) (k : Fin 256) :
    kBias x b (ix2 r k) = x (ix2 r k) + b (ix2 (0 : Fin 1) k) := by
  unfold kBias
  rw [shapeCast_self, shapeCast_self, addf_apply, broadcastTo_1b_ab_apply]

theorem kRows_apply (v : FVec Ideal S1x256 .f32) (r : Fin 2000) (k : Fin 256) :
    kRows v (ix2 r k) = v (ix2 (0 : Fin 1) k) := by
  unfold kRows
  rw [shapeCast_self, broadcastTo_1b_ab_apply]

theorem kCols_apply (c : FVec Ideal S2000x1 .f32) (r : Fin 2000) (k : Fin 256) :
    kCols c (ix2 r k) = c (ix2 r (0 : Fin 1)) :=
  broadcastTo_a1_ab_apply c broadcasts_S2000x1_S2000x256 r k

/-- The mean column at row `r` is the mean of that row. -/
theorem kMeanCol_apply (v : FVec Ideal S2000x256 .f32) (r : Fin 2000) (u : Fin 1) :
    kMeanCol v (ix2 r u) = rowMean fun k => v (ix2 r k) := by
  unfold kMeanCol rowMean
  rw [divf_apply, broadcast_apply]
  refine congrArg (fun s => Ideal.div s (Ideal.ofBits .f32 0x43800000#32)) ?_
  refine (shapeCast_a_a1_apply _ shapeCasts_S2000_S2000x1 r u).trans ?_
  refine (Ideal.multiReduction_add_single v 0x00000000#32 reduces_S2000x256_S2000 (.inl rfl) rfl (ix1 r)).trans ?_
  show ∑ k : Fin 256, v (reduces_S2000x256_S2000.lift (ix1 r) k) = ∑ k : Fin 256, v (ix2 r k)
  exact Finset.sum_congr rfl fun k _ => congrArg v (lift_row reduces_S2000x256_S2000 r k)

theorem kLn_apply (x : FVec Ideal S2000x256 .f32) (b g t : FVec Ideal S1x256 .f32) (r : Fin 2000) (j : Fin 256) :
    kLn x b g t (ix2 r j)
      = rowLn (fun k => x (ix2 r k) + b (ix2 (0 : Fin 1) k)) (g (ix2 (0 : Fin 1) j)) (t (ix2 (0 : Fin 1) j)) j := by
  have hdev : ∀ k : Fin 256, subf (kBias x b) (kCols (kMeanCol (kBias x b))) (ix2 r k)
      = (x (ix2 r k) + b (ix2 (0 : Fin 1) k)) - rowMean fun k => x (ix2 r k) + b (ix2 (0 : Fin 1) k) := by
    intro k
    rw [subf_apply, kCols_apply, kMeanCol_apply, kBias_apply]
    simp only [kBias_apply]
  unfold kLn rowLn
  rw [addf_apply, mulf_apply, mulf_apply, hdev, kRows_apply, kRows_apply, kCols_apply]
  show _ * Ideal.rsqrt (kMeanCol _ (ix2 r (0 : Fin 1)) + Ideal.ofBits .f32 0x3727C5AC#32) * _ + _ = _
  rw [kMeanCol_apply]
  simp only [mulf_apply, hdev]

theorem kElu_apply (z : FVec Ideal S2000x256 .f32) (i : S2000x256.Idx) : kElu z i = eluVal (z i) := rfl

/-! ## The reference's host operations -/

section Reference

open Cert.Spec

/-- A [1,256] row repeated down the rows reads its lane. -/
theorem rows_apply (v : FVec Ideal S1x256 .f32) (R : Fin 50000) (k : Fin 256) :
    rows v (ix2 R k) = v (ix2 (0 : Fin 1) k) := by
  unfold rows
  refine broadcastInDim_apply _ _ v (ix2 R k) (ix2 (0 : Fin 1) k) fun a => ?_
  match a with
  | ⟨0, _⟩ => rfl
  | ⟨1, _⟩ => rfl

/-- A column repeated across the lanes reads its row. -/
theorem cols_apply (c : FVec Ideal Cert.ReferenceIdeal.S50000x1 .f32) (R : Fin 50000) (k : Fin 256) :
    cols c (ix2 R k) = c (ix2 R (0 : Fin 1)) := by
  unfold cols
  refine broadcastInDim_apply _ _ c (ix2 R k) (ix2 R (0 : Fin 1)) fun a => ?_
  match a with
  | ⟨0, _⟩ => rfl
  | ⟨1, _⟩ => rfl

theorem reduces_rows : S50000x256.Reduces [1] S50000 := by decide

/-- The host's mean column at row `R` is the mean of that row: the host sum starts from the zero word. -/
theorem mean256_apply (y : FVec Ideal S50000x256 .f32) (R : Fin 50000) (u : Fin 1) :
    mean256 y (ix2 R u) = rowMean fun k => y (ix2 R k) := by
  unfold mean256 rowMean
  show Ideal.div (broadcastInDim _ _ _ (Host.reduceAdd (F := Ideal) y _ _ _) (ix2 R u))
      (broadcastInDim _ _ _ (constant (F := Ideal) _ .f32 0x43800000#32) (ix2 R u)) = _
  rw [broadcastInDim_scalar_apply, constant_apply]
  refine congrArg (fun s => Ideal.div s (Ideal.ofBits .f32 0x43800000#32)) ?_
  refine (broadcastInDim_apply _ _ _ (ix2 R u) (ix1 R) fun a => ?_).trans ?_
  · match a with
    | ⟨0, _⟩ => rfl
  refine (Ideal.hostReduceAdd_single _ reduces_rows y _ (ix1 R)).trans ?_
  rw [constant_apply, Ideal.ofBits_zero_f32, zero_add]
  show ∑ k : Fin 256, y (reduces_rows.lift (ix1 R) k) = ∑ k : Fin 256, y (ix2 R k)
  exact Finset.sum_congr rfl fun k _ => congrArg y (lift_row reduces_rows R k)

theorem ln_apply (x : FVec Ideal S50000x256 .f32) (b g t : FVec Ideal S1x256 .f32) (R : Fin 50000) (j : Fin 256) :
    ln x b g t (ix2 R j)
      = rowLn (fun k => x (ix2 R k) + b (ix2 (0 : Fin 1) k)) (g (ix2 (0 : Fin 1) j)) (t (ix2 (0 : Fin 1) j)) j := by
  have hy : ∀ k : Fin 256, addf x (rows b) (ix2 R k) = x (ix2 R k) + b (ix2 (0 : Fin 1) k) := by
    intro k; rw [addf_apply, rows_apply]
  have hdev : ∀ k : Fin 256, subf (addf x (rows b)) (cols (mean256 (addf x (rows b)))) (ix2 R k)
      = (x (ix2 R k) + b (ix2 (0 : Fin 1) k)) - rowMean fun k => x (ix2 R k) + b (ix2 (0 : Fin 1) k) := by
    intro k
    rw [subf_apply, cols_apply, mean256_apply, hy]
    simp only [hy]
  unfold ln rowLn
  rw [addf_apply, mulf_apply, mulf_apply, hdev, rows_apply, rows_apply, cols_apply]
  show _ * Ideal.rsqrt (mean256 _ (ix2 R (0 : Fin 1)) + broadcastInDim _ _ _ (constant (F := Ideal) _ .f32 0x3727C5AC#32) (ix2 R (0 : Fin 1))) * _ + _ = _
  rw [mean256_apply, broadcastInDim_scalar_apply, constant_apply]
  simp only [mulf_apply, hdev]

/-- The reference's ELU at an entry is the kernel's: in the branch `z ≤ 0` the inner select is `z`, and
    `1 · (exp z − 1) = exp z − 1`. -/
theorem elu_apply (z : FVec Ideal S50000x256 .f32) (i : S50000x256.Idx) : elu z i = eluVal (z i) := by
  unfold elu eluVal
  show Scalar.select (Ideal.cmp .ogt (z i) (broadcastInDim _ _ _ (constant (F := Ideal) _ .f32 0x00000000#32) i)) (z i)
      (broadcastInDim _ _ _ (constant (F := Ideal) _ .f32 0x3F800000#32) i
        * (Ideal.exp (Scalar.select (Ideal.cmp .ogt (z i) (broadcastInDim _ _ _ (constant (F := Ideal) _ .f32 0x00000000#32) i))
            (broadcastInDim _ _ _ (constant (F := Ideal) _ .f32 0x00000000#32) i) (z i)) - 1)) = _
  rw [broadcastInDim_scalar_apply, broadcastInDim_scalar_apply, constant_apply, constant_apply]
  rcases BitVec.eq_zero_or_eq_one (Ideal.cmp .ogt (z i) (Ideal.ofBits .f32 0x00000000#32)) with h | h
  · rw [h, select_zero, select_zero, select_zero, Ideal.ofBits_one_f32, one_mul]
  · rw [h, select_one, select_one]

theorem act_apply (x : FVec Ideal S50000x256 .f32) (b g t : FVec Ideal S1x256 .f32) (R : Fin 50000) (j : Fin 256) :
    act x b g t (ix2 R j)
      = eluVal (rowLn (fun k => x (ix2 R k) + b (ix2 (0 : Fin 1) k)) (g (ix2 (0 : Fin 1) j)) (t (ix2 (0 : Fin 1) j)) j) := by
  unfold act
  rw [elu_apply, ln_apply]

end Reference

/-! ## The bodies against the reference -/

theorem pay1_eq (X : FVec Ideal S50000x256 .f32) (B G T : FVec Ideal S1x256 .f32) (x0 : FVec Ideal S2000x256 .f32) (p : Fin 25)
    (hx : ∀ (r : Fin 2000) (k : Fin 256), x0 (ix2 r k) = X (ix2 (⟨2000 * p.val + r.val, by omega⟩ : Fin 50000) k))
    (r : Fin 2000) (j : Fin 256) :
    k1_pay1 (F := Ideal) x0 B G T (ix2 r j) = Cert.Spec.act X B G T (ix2 (⟨2000 * p.val + r.val, by omega⟩ : Fin 50000) j) := by
  rw [k1_pay1_form, kElu_apply, kLn_apply, act_apply]
  simp only [hx]

theorem pay3_eq (X R : FVec Ideal S50000x256 .f32) (B G T : FVec Ideal S1x256 .f32) (x0 x4 : FVec Ideal S2000x256 .f32) (p : Fin 25)
    (hx : ∀ (r : Fin 2000) (k : Fin 256), x0 (ix2 r k) = X (ix2 (⟨2000 * p.val + r.val, by omega⟩ : Fin 50000) k))
    (hr : ∀ (r : Fin 2000) (k : Fin 256), x4 (ix2 r k) = R (ix2 (⟨2000 * p.val + r.val, by omega⟩ : Fin 50000) k))
    (r : Fin 2000) (j : Fin 256) :
    k3_pay1 (F := Ideal) x0 B G T x4 (ix2 r j) = Cert.Spec.actRes X B G T R (ix2 (⟨2000 * p.val + r.val, by omega⟩ : Fin 50000) j) := by
  unfold Cert.Spec.actRes
  rw [k3_pay1_form, addf_apply, addf_apply, shapeCast_self, kElu_apply, kLn_apply, act_apply, hr]
  simp only [hx]

theorem pay5_eq (X R : FVec Ideal S50000x256 .f32) (B G T : FVec Ideal S1x256 .f32) (x0 x4 : FVec Ideal S2000x256 .f32) (p : Fin 25)
    (hx : ∀ (r : Fin 2000) (k : Fin 256), x0 (ix2 r k) = X (ix2 (⟨2000 * p.val + r.val, by omega⟩ : Fin 50000) k))
    (hr : ∀ (r : Fin 2000) (k : Fin 256), x4 (ix2 r k) = R (ix2 (⟨2000 * p.val + r.val, by omega⟩ : Fin 50000) k))
    (r : Fin 2000) (j : Fin 256) :
    k5_pay1 (F := Ideal) x0 B G T x4 (ix2 r j) = Cert.Spec.actRes X B G T R (ix2 (⟨2000 * p.val + r.val, by omega⟩ : Fin 50000) j) := by
  unfold Cert.Spec.actRes
  rw [k5_pay1_form, addf_apply, addf_apply, shapeCast_self, kElu_apply, kLn_apply, act_apply, hr]
  simp only [hx]

end Cert.KernelIdeal.LnRows

end
-- ==== Proof.RefOps.lean ====
/-
  The operations of the reference program's entry function, as tables.

  The entry function is printed as four consecutive windows; it calls the module's private selection function once and
  its activation function three times, and the activation function in turn calls two further selection functions.  A call
  executes the callee's body on the operands, so each window is listed as the line of its own operations with every
  callee's operations at the call site over that call's buffers (`ops0` … `ops3`), each with the table of the facts,
  one per operation by its arity, that it touches TensorCore buffers only.  The same line is listed a second time cut at
  the layer boundaries (`sP1` … `sB3`), every operation over the buffers themselves with its function at the
  buffers' types, each piece with the list of the buffers it writes.
-/
import proofs.«171627_j76175539962264_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first window: edge endpoints with self loops, degrees, the edge weights (the selection function's three operations inline), the first dense product, its aggregation, the bias and the first row sum. -/
abbrev ops0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : TRef sig ⟨S_, .f32⟩) main_call0.v0 id,
    StableHlo.TRef.unary main_call0.v0 main_call0.v1 (broadcastInDim S50000 ![] bcast_S_S50000),
    StableHlo.TRef.ternary (.of main_v12 : TRef sig ⟨S50000, .i1⟩) (.of main_v13 : TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x00000000#32),
    StableHlo.binary main_v46 main_cst_9 main_v47 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) ]

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., binary_bufs_sub ..⟩

/-- The second window: the rest of the first normalisation, the activation function's operations inline (with its two selection functions'), the second dense product, its aggregation and bias, the second layer's mean and the sum of squared deviations. -/
abbrev ops1 : List (HloOp τ sig (Elt F)) :=
  [ StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.nullary main_cst_10 (constant S_ .f32 0x43800000#32),
    StableHlo.unary main_cst_10 main_v49 (broadcastInDim S50000x1 ![] bcast_S_S50000x1 : (⟨S_, .f32⟩ : BufTy).Contents (Elt F) → (⟨S50000x1, .f32⟩ : BufTy).Contents (Elt F)),
    StableHlo.binary main_v48 main_v49 main_v50 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v51 (broadcastInDim S50000x256 ![0, 1] bcast_S50000x1_S50000x256_0_1 : (⟨S50000x1, .f32⟩ : BufTy).Contents (Elt F) → (⟨S50000x256, .f32⟩ : BufTy).Contents (Elt F)),
    StableHlo.binary main_v46 main_v51 main_v52 (subf : (⟨S50000x256, .f32⟩ : BufTy).Contents (Elt F) → (⟨S50000x256, .f32⟩ : BufTy).Contents (Elt F) → (⟨S50000x256, .f32⟩ : BufTy).Contents (Elt F)),
    StableHlo.binary main_v52 main_v52 main_v53 (mulf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x00000000#32),
    StableHlo.binary main_v53 main_cst_11 main_v54 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v54 main_v55 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x43800000#32),
    StableHlo.unary main_cst_12 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v58 (broadcastInDim S50000x256 ![0, 1] bcast_S50000x1_S50000x256_0_1 : (⟨S50000x1, .f32⟩ : BufTy).Contents (Elt F) → (⟨S50000x256, .f32⟩ : BufTy).Contents (Elt F)),
    StableHlo.binary main_v46 main_v58 main_v59 (subf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v60 (broadcastInDim S50000x1 ![] bcast_S_S50000x1 : (⟨S_, .f32⟩ : BufTy).Contents (Elt F) → (⟨S50000x1, .f32⟩ : BufTy).Contents (Elt F)),
    StableHlo.binary main_v57 main_v60 main_v61 (addf : (⟨S50000x1, .f32⟩ : BufTy).Contents (Elt F) → (⟨S50000x1, .f32⟩ : BufTy).Contents (Elt F) → (⟨S50000x1, .f32⟩ : BufTy).Contents (Elt F)),
    StableHlo.unary main_v61 main_v62 (Host.rsqrt : (⟨S50000x1, .f32⟩ : BufTy).Contents (Elt F) → (⟨S50000x1, .f32⟩ : BufTy).Contents (Elt F)),
    StableHlo.unary main_v62 main_v63 (broadcastInDim S50000x256 ![0, 1] bcast_S50000x1_S50000x256_0_1 : (⟨S50000x1, .f32⟩ : BufTy).Contents (Elt F) → (⟨S50000x256, .f32⟩ : BufTy).Contents (Elt F)),
    StableHlo.binary main_v59 main_v63 main_v64 (mulf : (⟨S50000x256, .f32⟩ : BufTy).Contents (Elt F) → (⟨S50000x256, .f32⟩ : BufTy).Contents (Elt F) → (⟨S50000x256, .f32⟩ : BufTy).Contents (Elt F)),
    StableHlo.unary main_arg10 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v66 main_v67 (mulf : (⟨S50000x256, .f32⟩ : BufTy).Contents (Elt F) → (⟨S50000x256, .f32⟩ : BufTy).Contents (Elt F) → (⟨S50000x256, .f32⟩ : BufTy).Contents (Elt F)),
    StableHlo.unary main_arg11 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S50000x256 ![0, 1] bcast_S1x256_S50000x256_0_1 : (⟨S1x256, .f32⟩ : BufTy).Contents (Elt F) → (⟨S50000x256, .f32⟩ : BufTy).Contents (Elt F)),
    StableHlo.binary main_v67 main_v69 main_v70 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v70 : TRef sig ⟨S50000x256, .f32⟩) main_call1.v0 main_call1.v1 (cmpf .ogt),
    StableHlo.TRef.nullary main_call1.cst_0 (constant S_ .f32 0x00000000#32),
    StableHlo.TRef.unary main_call1.cst_0 main_call1.v2 (broadcastInDim S50000x256 ![] bcast_S_S50000x256),
    StableHlo.TRef.binary (.of main_v70 : TRef sig ⟨S50000x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x256 ![] bcast_S_S50000x256),
    StableHlo.TRef.ternary main_call1.v3 main_call1.call0.v1 (.of main_v70 : TRef sig ⟨S50000x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x256 ![] bcast_S_S50000x256),
    StableHlo.TRef.binary main_call1.v6 main_call1.v5 main_call1.v7 mulf,
    StableHlo.TRef.ternary main_call1.v1 (.of main_v70 : TRef sig ⟨S50000x256, .f32⟩) main_call1.v7 main_call1.call1.v0 select,
    StableHlo.binary main_v71 main_arg4 main_v72 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_14 (constantI S_ 32 0#32),
    StableHlo.unary main_c_14 main_v73 (broadcastInDim S850000 ![] bcast_S_S850000 : (⟨S_, .i32⟩ : BufTy).Contents (Elt F) → (⟨S850000, .i32⟩ : BufTy).Contents (Elt F)),
    StableHlo.binary main_v3 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v75 (broadcastInDim S850000 ![] bcast_S_S850000 : (⟨S_, .i32⟩ : BufTy).Contents (Elt F) → (⟨S850000, .i32⟩ : BufTy).Contents (Elt F)),
    StableHlo.binary main_v3 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v3 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v72 main_v78 main_v79 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v80 (broadcastInDim S850000x1 ![0] bcast_S850000_S850000x1_0 : (⟨S850000, .f32⟩ : BufTy).Contents (Elt F) → (⟨S850000x1, .f32⟩ : BufTy).Contents (Elt F)),
    StableHlo.unary main_v80 main_v81 (broadcastInDim S850000x256 ![0, 1] bcast_S850000x1_S850000x256_0_1 : (⟨S850000x1, .f32⟩ : BufTy).Contents (Elt F) → (⟨S850000x256, .f32⟩ : BufTy).Contents (Elt F)),
    StableHlo.binary main_v79 main_v81 main_v82 (mulf : (⟨S850000x256, .f32⟩ : BufTy).Contents (Elt F) → (⟨S850000x256, .f32⟩ : BufTy).Contents (Elt F) → (⟨S850000x256, .f32⟩ : BufTy).Contents (Elt F)),
    StableHlo.nullary main_cst_16 (constant S_ .f32 0x00000000#32),
    StableHlo.unary main_cst_16 main_v83 (broadcastInDim S50000x256 ![] bcast_S_S50000x256 : (⟨S_, .f32⟩ : BufTy).Contents (Elt F) → (⟨S50000x256, .f32⟩ : BufTy).Contents (Elt F)),
    StableHlo.unary main_v6 main_v84 (broadcastInDim S850000x1 ![0] bcast_S850000_S850000x1_0 : (⟨S850000, .i32⟩ : BufTy).Contents (Elt F) → (⟨S850000x1, .i32⟩ : BufTy).Contents (Elt F)),
    StableHlo.ternary main_v83 main_v84 main_v82 main_v85 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S50000x256 ![0, 1] bcast_S1x256_S50000x256_0_1 : (⟨S1x256, .f32⟩ : BufTy).Contents (Elt F) → (⟨S50000x256, .f32⟩ : BufTy).Contents (Elt F)),
    StableHlo.binary main_v85 main_v87 main_v88 (addf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x00000000#32),
    StableHlo.binary main_v88 main_cst_17 main_v89 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v89 main_v90 (broadcastInDim S50000x1 ![0] bcast_S50000_S50000x1_0 : (⟨S50000, .f32⟩ : BufTy).Contents (Elt F) → (⟨S50000x1, .f32⟩ : BufTy).Contents (Elt F)),
    StableHlo.nullary main_cst_18 (constant S_ .f32 0x43800000#32),
    StableHlo.unary main_cst_18 main_v91 (broadcastInDim S50000x1 ![] bcast_S_S50000x1 : (⟨S_, .f32⟩ : BufTy).Contents (Elt F) → (⟨S50000x1, .f32⟩ : BufTy).Contents (Elt F)),
    StableHlo.binary main_v90 main_v91 main_v92 (Host.divf : (⟨S50000x1, .f32⟩ : BufTy).Contents (Elt F) → (⟨S50000x1, .f32⟩ : BufTy).Contents (Elt F) → (⟨S50000x1, .f32⟩ : BufTy).Contents (Elt F)),
    StableHlo.unary main_v92 main_v93 (broadcastInDim S50000x256 ![0, 1] bcast_S50000x1_S50000x256_0_1 : (⟨S50000x1, .f32⟩ : BufTy).Contents (Elt F) → (⟨S50000x256, .f32⟩ : BufTy).Contents (Elt F)),
    StableHlo.binary main_v88 main_v93 main_v94 (subf : (⟨S50000x256, .f32⟩ : BufTy).Contents (Elt F) → (⟨S50000x256, .f32⟩ : BufTy).Contents (Elt F) → (⟨S50000x256, .f32⟩ : BufTy).Contents (Elt F)),
    StableHlo.binary main_v94 main_v94 main_v95 (mulf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x00000000#32),
    StableHlo.binary main_v95 main_cst_19 main_v96 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v96 main_v97 (broadcastInDim S50000x1 ![0] bcast_S50000_S50000x1_0 : (⟨S50000, .f32⟩ : BufTy).Contents (Elt F) → (⟨S50000x1, .f32⟩ : BufTy).Contents (Elt F)) ]

theorem ops1_sub : (ops1 : List (HloOp τ sig (Elt F))).Forall fun op => op.bufs ⊆ tcRefs τ sig :=
  ⟨unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub ..⟩

/-- The third window: the rest of the second normalisation, the activation inline, the residual sum, the third dense product, its aggregation and bias, the third normalisation up to the reciprocal root. -/
abbrev ops2 : List (HloOp τ sig (Elt F)) :=
  [ StableHlo.nullary main_cst_20 (constant S_ .f32 0x43800000#32),
    StableHlo.unary main_cst_20 main_v98 (broadcastInDim S50000x1 ![] bcast_S_S50000x1 : (⟨S_, .f32⟩ : BufTy).Contents (Elt F) → (⟨S50000x1, .f32⟩ : BufTy).Contents (Elt F)),
    StableHlo.binary main_v97 main_v98 main_v99 (Host.divf : (⟨S50000x1, .f32⟩ : BufTy).Contents (Elt F) → (⟨S50000x1, .f32⟩ : BufTy).Contents (Elt F) → (⟨S50000x1, .f32⟩ : BufTy).Contents (Elt F)),
    StableHlo.unary main_v92 main_v100 (broadcastInDim S50000x256 ![0, 1] bcast_S50000x1_S50000x256_0_1 : (⟨S50000x1, .f32⟩ : BufTy).Contents (Elt F) → (⟨S50000x256, .f32⟩ : BufTy).Contents (Elt F)),
    StableHlo.binary main_v88 main_v100 main_v101 (subf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x3727C5AC#32),
    StableHlo.unary main_cst_21 main_v102 (broadcastInDim S50000x1 ![] bcast_S_S50000x1 : (⟨S_, .f32⟩ : BufTy).Contents (Elt F) → (⟨S50000x1, .f32⟩ : BufTy).Contents (Elt F)),
    StableHlo.binary main_v99 main_v102 main_v103 (addf : (⟨S50000x1, .f32⟩ : BufTy).Contents (Elt F) → (⟨S50000x1, .f32⟩ : BufTy).Contents (Elt F) → (⟨S50000x1, .f32⟩ : BufTy).Contents (Elt F)),
    StableHlo.unary main_v103 main_v104 (Host.rsqrt : (⟨S50000x1, .f32⟩ : BufTy).Contents (Elt F) → (⟨S50000x1, .f32⟩ : BufTy).Contents (Elt F)),
    StableHlo.unary main_v104 main_v105 (broadcastInDim S50000x256 ![0, 1] bcast_S50000x1_S50000x256_0_1 : (⟨S50000x1, .f32⟩ : BufTy).Contents (Elt F) → (⟨S50000x256, .f32⟩ : BufTy).Contents (Elt F)),
    StableHlo.binary main_v101 main_v105 main_v106 (mulf : (⟨S50000x256, .f32⟩ : BufTy).Contents (Elt F) → (⟨S50000x256, .f32⟩ : BufTy).Contents (Elt F) → (⟨S50000x256, .f32⟩ : BufTy).Contents (Elt F)),
    StableHlo.unary main_arg12 main_v107 (broadcastInDim S1x256 ![1] bcast_S256_S1x256_1 : (⟨S256, .f32⟩ : BufTy).Contents (Elt F) → (⟨S1x256, .f32⟩ : BufTy).Contents (Elt F)),
    StableHlo.unary main_v107 main_v108 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v108 main_v109 (mulf : (⟨S50000x256, .f32⟩ : BufTy).Contents (Elt F) → (⟨S50000x256, .f32⟩ : BufTy).Contents (Elt F) → (⟨S50000x256, .f32⟩ : BufTy).Contents (Elt F)),
    StableHlo.unary main_arg13 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S50000x256 ![0, 1] bcast_S1x256_S50000x256_0_1 : (⟨S1x256, .f32⟩ : BufTy).Contents (Elt F) → (⟨S50000x256, .f32⟩ : BufTy).Contents (Elt F)),
    StableHlo.binary main_v109 main_v111 main_v112 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v112 : TRef sig ⟨S50000x256, .f32⟩) main_call2.v0 main_call2.v1 (cmpf .ogt),
    StableHlo.TRef.nullary main_call2.cst_0 (constant S_ .f32 0x00000000#32),
    StableHlo.TRef.unary main_call2.cst_0 main_call2.v2 (broadcastInDim S50000x256 ![] bcast_S_S50000x256),
    StableHlo.TRef.binary (.of main_v112 : TRef sig ⟨S50000x256, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x256 ![] bcast_S_S50000x256),
    StableHlo.TRef.ternary main_call2.v3 main_call2.call0.v1 (.of main_v112 : TRef sig ⟨S50000x256, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x256 ![] bcast_S_S50000x256),
    StableHlo.TRef.binary main_call2.v6 main_call2.v5 main_call2.v7 mulf,
    StableHlo.TRef.ternary main_call2.v1 (.of main_v112 : TRef sig ⟨S50000x256, .f32⟩) main_call2.v7 main_call2.call1.v0 select,
    StableHlo.binary main_v113 main_v71 main_v114 (addf : (⟨S50000x256, .f32⟩ : BufTy).Contents (Elt F) → (⟨S50000x256, .f32⟩ : BufTy).Contents (Elt F) → (⟨S50000x256, .f32⟩ : BufTy).Contents (Elt F)),
    StableHlo.binary main_v114 main_arg6 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_22 (constantI S_ 32 0#32),
    StableHlo.unary main_c_22 main_v116 (broadcastInDim S850000 ![] bcast_S_S850000 : (⟨S_, .i32⟩ : BufTy).Contents (Elt F) → (⟨S850000, .i32⟩ : BufTy).Contents (Elt F)),
    StableHlo.binary main_v3 main_v116 main_v117 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v118 (broadcastInDim S850000 ![] bcast_S_S850000 : (⟨S_, .i32⟩ : BufTy).Contents (Elt F) → (⟨S850000, .i32⟩ : BufTy).Contents (Elt F)),
    StableHlo.binary main_v3 main_v118 main_v119 (addi : (⟨S850000, .i32⟩ : BufTy).Contents (Elt F) → (⟨S850000, .i32⟩ : BufTy).Contents (Elt F) → (⟨S850000, .i32⟩ : BufTy).Contents (Elt F)),
    StableHlo.ternary main_v117 main_v119 main_v3 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v120 main_v121 (broadcastInDim S850000x1 ![0] bcast_S850000_S850000x1_0 : (⟨S850000, .i32⟩ : BufTy).Contents (Elt F) → (⟨S850000x1, .i32⟩ : BufTy).Contents (Elt F)),
    StableHlo.binary main_v115 main_v121 main_v122 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v123 (broadcastInDim S850000x1 ![0] bcast_S850000_S850000x1_0 : (⟨S850000, .f32⟩ : BufTy).Contents (Elt F) → (⟨S850000x1, .f32⟩ : BufTy).Contents (Elt F)),
    StableHlo.unary main_v123 main_v124 (broadcastInDim S850000x256 ![0, 1] bcast_S850000x1_S850000x256_0_1 : (⟨S850000x1, .f32⟩ : BufTy).Contents (Elt F) → (⟨S850000x256, .f32⟩ : BufTy).Contents (Elt F)),
    StableHlo.binary main_v122 main_v124 main_v125 (mulf : (⟨S850000x256, .f32⟩ : BufTy).Contents (Elt F) → (⟨S850000x256, .f32⟩ : BufTy).Contents (Elt F) → (⟨S850000x256, .f32⟩ : BufTy).Contents (Elt F)),
    StableHlo.nullary main_cst_24 (constant S_ .f32 0x00000000#32),
    StableHlo.unary main_cst_24 main_v126 (broadcastInDim S50000x256 ![] bcast_S_S50000x256 : (⟨S_, .f32⟩ : BufTy).Contents (Elt F) → (⟨S50000x256, .f32⟩ : BufTy).Contents (Elt F)),
    StableHlo.unary main_v6 main_v127 (broadcastInDim S850000x1 ![0] bcast_S850000_S850000x1_0 : (⟨S850000, .i32⟩ : BufTy).Contents (Elt F) → (⟨S850000x1, .i32⟩ : BufTy).Contents (Elt F)),
    StableHlo.ternary main_v126 main_v127 main_v125 main_v128 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v129 (broadcastInDim S1x256 ![1] bcast_S256_S1x256_1 : (⟨S256, .f32⟩ : BufTy).Contents (Elt F) → (⟨S1x256, .f32⟩ : BufTy).Contents (Elt F)),
    StableHlo.unary main_v129 main_v130 (broadcastInDim S50000x256 ![0, 1] bcast_S1x256_S50000x256_0_1 : (⟨S1x256, .f32⟩ : BufTy).Contents (Elt F) → (⟨S50000x256, .f32⟩ : BufTy).Contents (Elt F)),
    StableHlo.binary main_v128 main_v130 main_v131 (addf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x00000000#32),
    StableHlo.binary main_v131 main_cst_25 main_v132 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v132 main_v133 (broadcastInDim S50000x1 ![0] bcast_S50000_S50000x1_0 : (⟨S50000, .f32⟩ : BufTy).Contents (Elt F) → (⟨S50000x1, .f32⟩ : BufTy).Contents (Elt F)),
    StableHlo.nullary main_cst_26 (constant S_ .f32 0x43800000#32),
    StableHlo.unary main_cst_26 main_v134 (broadcastInDim S50000x1 ![] bcast_S_S50000x1 : (⟨S_, .f32⟩ : BufTy).Contents (Elt F) → (⟨S50000x1, .f32⟩ : BufTy).Contents (Elt F)),
    StableHlo.binary main_v133 main_v134 main_v135 (Host.divf : (⟨S50000x1, .f32⟩ : BufTy).Contents (Elt F) → (⟨S50000x1, .f32⟩ : BufTy).Contents (Elt F) → (⟨S50000x1, .f32⟩ : BufTy).Contents (Elt F)),
    StableHlo.unary main_v135 main_v136 (broadcastInDim S50000x256 ![0, 1] bcast_S50000x1_S50000x256_0_1 : (⟨S50000x1, .f32⟩ : BufTy).Contents (Elt F) → (⟨S50000x256, .f32⟩ : BufTy).Contents (Elt F)),
    StableHlo.binary main_v131 main_v136 main_v137 (subf : (⟨S50000x256, .f32⟩ : BufTy).Contents (Elt F) → (⟨S50000x256, .f32⟩ : BufTy).Contents (Elt F) → (⟨S50000x256, .f32⟩ : BufTy).Contents (Elt F)),
    StableHlo.binary main_v137 main_v137 main_v138 (mulf : (⟨S50000x256, .f32⟩ : BufTy).Contents (Elt F) → (⟨S50000x256, .f32⟩ : BufTy).Contents (Elt F) → (⟨S50000x256, .f32⟩ : BufTy).Contents (Elt F)),
    StableHlo.nullary main_cst_27 (constant S_ .f32 0x00000000#32),
    StableHlo.binary main_v138 main_cst_27 main_v139 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v139 main_v140 (broadcastInDim S50000x1 ![0] bcast_S50000_S50000x1_0 : (⟨S50000, .f32⟩ : BufTy).Contents (Elt F) → (⟨S50000x1, .f32⟩ : BufTy).Contents (Elt F)),
    StableHlo.nullary main_cst_28 (constant S_ .f32 0x43800000#32),
    StableHlo.unary main_cst_28 main_v141 (broadcastInDim S50000x1 ![] bcast_S_S50000x1 : (⟨S_, .f32⟩ : BufTy).Contents (Elt F) → (⟨S50000x1, .f32⟩ : BufTy).Contents (Elt F)),
    StableHlo.binary main_v140 main_v141 main_v142 (Host.divf : (⟨S50000x1, .f32⟩ : BufTy).Contents (Elt F) → (⟨S50000x1, .f32⟩ : BufTy).Contents (Elt F) → (⟨S50000x1, .f32⟩ : BufTy).Contents (Elt F)),
    StableHlo.unary main_v135 main_v143 (broadcastInDim S50000x256 ![0, 1] bcast_S50000x1_S50000x256_0_1 : (⟨S50000x1, .f32⟩ : BufTy).Contents (Elt F) → (⟨S50000x256, .f32⟩ : BufTy).Contents (Elt F)),
    StableHlo.binary main_v131 main_v143 main_v144 (subf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x3727C5AC#32),
    StableHlo.unary main_cst_29 main_v145 (broadcastInDim S50000x1 ![] bcast_S_S50000x1 : (⟨S_, .f32⟩ : BufTy).Contents (Elt F) → (⟨S50000x1, .f32⟩ : BufTy).Contents (Elt F)),
    StableHlo.binary main_v142 main_v145 main_v146 (addf : (⟨S50000x1, .f32⟩ : BufTy).Contents (Elt F) → (⟨S50000x1, .f32⟩ : BufTy).Contents (Elt F) → (⟨S50000x1, .f32⟩ : BufTy).Contents (Elt F)),
    StableHlo.unary main_v146 main_v147 (Host.rsqrt : (⟨S50000x1, .f32⟩ : BufTy).Contents (Elt F) → (⟨S50000x1, .f32⟩ : BufTy).Contents (Elt F)) ]

theorem ops2_sub : (ops2 : List (HloOp τ sig (Elt F))).Forall fun op => op.bufs ⊆ tcRefs τ sig :=
  ⟨nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub ..⟩

/-- The fourth window: the end of the third normalisation, the activation inline, the residual sum, the last dense product, its aggregation and the last bias. -/
abbrev ops3 : List (HloOp τ sig (Elt F)) :=
  [ StableHlo.unary main_v147 main_v148 (broadcastInDim S50000x256 ![0, 1] bcast_S50000x1_S50000x256_0_1 : (⟨S50000x1, .f32⟩ : BufTy).Contents (Elt F) → (⟨S50000x256, .f32⟩ : BufTy).Contents (Elt F)),
    StableHlo.binary main_v144 main_v148 main_v149 (mulf : (⟨S50000x256, .f32⟩ : BufTy).Contents (Elt F) → (⟨S50000x256, .f32⟩ : BufTy).Contents (Elt F) → (⟨S50000x256, .f32⟩ : BufTy).Contents (Elt F)),
    StableHlo.unary main_arg14 main_v150 (broadcastInDim S1x256 ![1] bcast_S256_S1x256_1 : (⟨S256, .f32⟩ : BufTy).Contents (Elt F) → (⟨S1x256, .f32⟩ : BufTy).Contents (Elt F)),
    StableHlo.unary main_v150 main_v151 (broadcastInDim S50000x256 ![0, 1] bcast_S1x256_S50000x256_0_1 : (⟨S1x256, .f32⟩ : BufTy).Contents (Elt F) → (⟨S50000x256, .f32⟩ : BufTy).Contents (Elt F)),
    StableHlo.binary main_v149 main_v151 main_v152 (mulf : (⟨S50000x256, .f32⟩ : BufTy).Contents (Elt F) → (⟨S50000x256, .f32⟩ : BufTy).Contents (Elt F) → (⟨S50000x256, .f32⟩ : BufTy).Contents (Elt F)),
    StableHlo.unary main_arg15 main_v153 (broadcastInDim S1x256 ![1] bcast_S256_S1x256_1 : (⟨S256, .f32⟩ : BufTy).Contents (Elt F) → (⟨S1x256, .f32⟩ : BufTy).Contents (Elt F)),
    StableHlo.unary main_v153 main_v154 (broadcastInDim S50000x256 ![0, 1] bcast_S1x256_S50000x256_0_1 : (⟨S1x256, .f32⟩ : BufTy).Contents (Elt F) → (⟨S50000x256, .f32⟩ : BufTy).Contents (Elt F)),
    StableHlo.binary main_v152 main_v154 main_v155 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v155 : TRef sig ⟨S50000x256, .f32⟩) main_call3.v0 main_call3.v1 (cmpf .ogt),
    StableHlo.TRef.nullary main_call3.cst_0 (constant S_ .f32 0x00000000#32),
    StableHlo.TRef.unary main_call3.cst_0 main_call3.v2 (broadcastInDim S50000x256 ![] bcast_S_S50000x256),
    StableHlo.TRef.binary (.of main_v155 : TRef sig ⟨S50000x256, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x256 ![] bcast_S_S50000x256),
    StableHlo.TRef.ternary main_call3.v3 main_call3.call0.v1 (.of main_v155 : TRef sig ⟨S50000x256, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x256 ![] bcast_S_S50000x256),
    StableHlo.TRef.binary main_call3.v6 main_call3.v5 main_call3.v7 mulf,
    StableHlo.TRef.ternary main_call3.v1 (.of main_v155 : TRef sig ⟨S50000x256, .f32⟩) main_call3.v7 main_call3.call1.v0 select,
    StableHlo.binary main_v156 main_v114 main_v157 (addf : (⟨S50000x256, .f32⟩ : BufTy).Contents (Elt F) → (⟨S50000x256, .f32⟩ : BufTy).Contents (Elt F) → (⟨S50000x256, .f32⟩ : BufTy).Contents (Elt F)),
    StableHlo.binary main_v157 main_arg8 main_v158 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_30 (constantI S_ 32 0#32),
    StableHlo.unary main_c_30 main_v159 (broadcastInDim S850000 ![] bcast_S_S850000 : (⟨S_, .i32⟩ : BufTy).Contents (Elt F) → (⟨S850000, .i32⟩ : BufTy).Contents (Elt F)),
    StableHlo.binary main_v3 main_v159 main_v160 (cmpi .slt : (⟨S850000, .i32⟩ : BufTy).Contents (Elt F) → (⟨S850000, .i32⟩ : BufTy).Contents (Elt F) → (⟨S850000, .i1⟩ : BufTy).Contents (Elt F)),
    StableHlo.nullary main_c_31 (constantI S_ 32 50000#32),
    StableHlo.unary main_c_31 main_v161 (broadcastInDim S850000 ![] bcast_S_S850000 : (⟨S_, .i32⟩ : BufTy).Contents (Elt F) → (⟨S850000, .i32⟩ : BufTy).Contents (Elt F)),
    StableHlo.binary main_v3 main_v161 main_v162 (addi : (⟨S850000, .i32⟩ : BufTy).Contents (Elt F) → (⟨S850000, .i32⟩ : BufTy).Contents (Elt F) → (⟨S850000, .i32⟩ : BufTy).Contents (Elt F)),
    StableHlo.ternary main_v160 main_v162 main_v3 main_v163 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v163 main_v164 (broadcastInDim S850000x1 ![0] bcast_S850000_S850000x1_0 : (⟨S850000, .i32⟩ : BufTy).Contents (Elt F) → (⟨S850000x1, .i32⟩ : BufTy).Contents (Elt F)),
    StableHlo.binary main_v158 main_v164 main_v165 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v166 (broadcastInDim S850000x1 ![0] bcast_S850000_S850000x1_0 : (⟨S850000, .f32⟩ : BufTy).Contents (Elt F) → (⟨S850000x1, .f32⟩ : BufTy).Contents (Elt F)),
    StableHlo.unary main_v166 main_v167 (broadcastInDim S850000x128 ![0, 1] bcast_S850000x1_S850000x128_0_1 : (⟨S850000x1, .f32⟩ : BufTy).Contents (Elt F) → (⟨S850000x128, .f32⟩ : BufTy).Contents (Elt F)),
    StableHlo.binary main_v165 main_v167 main_v168 (mulf : (⟨S850000x128, .f32⟩ : BufTy).Contents (Elt F) → (⟨S850000x128, .f32⟩ : BufTy).Contents (Elt F) → (⟨S850000x128, .f32⟩ : BufTy).Contents (Elt F)),
    StableHlo.nullary main_cst_32 (constant S_ .f32 0x00000000#32),
    StableHlo.unary main_cst_32 main_v169 (broadcastInDim S50000x128 ![] bcast_S_S50000x128 : (⟨S_, .f32⟩ : BufTy).Contents (Elt F) → (⟨S50000x128, .f32⟩ : BufTy).Contents (Elt F)),
    StableHlo.unary main_v6 main_v170 (broadcastInDim S850000x1 ![0] bcast_S850000_S850000x1_0 : (⟨S850000, .i32⟩ : BufTy).Contents (Elt F) → (⟨S850000x1, .i32⟩ : BufTy).Contents (Elt F)),
    StableHlo.ternary main_v169 main_v170 main_v168 main_v171 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg9 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v171 main_v173 main_v174 (addf : (⟨S50000x128, .f32⟩ : BufTy).Contents (Elt F) → (⟨S50000x128, .f32⟩ : BufTy).Contents (Elt F) → (⟨S50000x128, .f32⟩ : BufTy).Contents (Elt F)) ]

theorem ops3_sub : (ops3 : List (HloOp τ sig (Elt F))).Forall fun op => op.bufs ⊆ tcRefs τ sig :=
  ⟨unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

/-- The edge endpoints followed by the self loops (sources, destinations). -/
def sP1 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The buffers it writes. -/
abbrev sP1_res : List (Ref sig .tc) :=
  [main_v0, main_v1, main_v2, main_v3, main_v4, main_v5, main_v6]

/-- Degrees, their inverse square roots and the edge weights. -/
def sP2 : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

/-- The buffers it writes. -/
abbrev sP2_res : List (Ref sig .tc) :=
  [main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]

/-- The first dense product. -/
def sD0 : List (HloOp τ sig (Elt F)) :=
  [ StableHlo.binary main_arg0 main_arg2 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

/-- The buffers it writes. -/
abbrev sD0_res : List (Ref sig .tc) :=
  [main_v30]

/-- Its aggregation over the edges. -/
def sA0 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The buffers it writes. -/
abbrev sA0_res : List (Ref sig .tc) :=
  [main_c_6, main_v31, main_v32, main_c_7, main_v33, main_v34, main_v35, main_v36, main_v37, main_v38, main_v39, main_v40, main_cst_8, main_v41, main_v42, main_v43]

/-- Bias, row normalisation, scale, shift and activation of the first layer. -/
def sC0 : List (HloOp τ sig (Elt F)) :=
  [ StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x00000000#32),
    StableHlo.binary main_v46 main_cst_9 main_v47 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.nullary main_cst_10 (constant S_ .f32 0x43800000#32),
    StableHlo.unary main_cst_10 main_v49 (broadcastInDim S50000x1 ![] bcast_S_S50000x1 : (⟨S_, .f32⟩ : BufTy).Contents (Elt F) → (⟨S50000x1, .f32⟩ : BufTy).Contents (Elt F)),
    StableHlo.binary main_v48 main_v49 main_v50 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v51 (broadcastInDim S50000x256 ![0, 1] bcast_S50000x1_S50000x256_0_1 : (⟨S50000x1, .f32⟩ : BufTy).Contents (Elt F) → (⟨S50000x256, .f32⟩ : BufTy).Contents (Elt F)),
    StableHlo.binary main_v46 main_v51 main_v52 (subf : (⟨S50000x256, .f32⟩ : BufTy).Contents (Elt F) → (⟨S50000x256, .f32⟩ : BufTy).Contents (Elt F) → (⟨S50000x256, .f32⟩ : BufTy).Contents (Elt F)),
    StableHlo.binary main_v52 main_v52 main_v53 (mulf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x00000000#32),
    StableHlo.binary main_v53 main_cst_11 main_v54 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v54 main_v55 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x43800000#32),
    StableHlo.unary main_cst_12 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v58 (broadcastInDim S50000x256 ![0, 1] bcast_S50000x1_S50000x256_0_1 : (⟨S50000x1, .f32⟩ : BufTy).Contents (Elt F) → (⟨S50000x256, .f32⟩ : BufTy).Contents (Elt F)),
    StableHlo.binary main_v46 main_v58 main_v59 (subf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v60 (broadcastInDim S50000x1 ![] bcast_S_S50000x1 : (⟨S_, .f32⟩ : BufTy).Contents (Elt F) → (⟨S50000x1, .f32⟩ : BufTy).Contents (Elt F)),
    StableHlo.binary main_v57 main_v60 main_v61 (addf : (⟨S50000x1, .f32⟩ : BufTy).Contents (Elt F) → (⟨S50000x1, .f32⟩ : BufTy).Contents (Elt F) → (⟨S50000x1, .f32⟩ : BufTy).Contents (Elt F)),
    StableHlo.unary main_v61 main_v62 (Host.rsqrt : (⟨S50000x1, .f32⟩ : BufTy).Contents (Elt F) → (⟨S50000x1, .f32⟩ : BufTy).Contents (Elt F)),
    StableHlo.unary main_v62 main_v63 (broadcastInDim S50000x256 ![0, 1] bcast_S50000x1_S50000x256_0_1 : (⟨S50000x1, .f32⟩ : BufTy).Contents (Elt F) → (⟨S50000x256, .f32⟩ : BufTy).Contents (Elt F)),
    StableHlo.binary main_v59 main_v63 main_v64 (mulf : (⟨S50000x256, .f32⟩ : BufTy).Contents (Elt F) → (⟨S50000x256, .f32⟩ : BufTy).Contents (Elt F) → (⟨S50000x256, .f32⟩ : BufTy).Contents (Elt F)),
    StableHlo.unary main_arg10 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v66 main_v67 (mulf : (⟨S50000x256, .f32⟩ : BufTy).Contents (Elt F) → (⟨S50000x256, .f32⟩ : BufTy).Contents (Elt F) → (⟨S50000x256, .f32⟩ : BufTy).Contents (Elt F)),
    StableHlo.unary main_arg11 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S50000x256 ![0, 1] bcast_S1x256_S50000x256_0_1 : (⟨S1x256, .f32⟩ : BufTy).Contents (Elt F) → (⟨S50000x256, .f32⟩ : BufTy).Contents (Elt F)),
    StableHlo.binary main_v67 main_v69 main_v70 (addf : (⟨S50000x256, .f32⟩ : BufTy).Contents (Elt F) → (⟨S50000x256, .f32⟩ : BufTy).Contents (Elt F) → (⟨S50000x256, .f32⟩ : BufTy).Contents (Elt F)),
    StableHlo.nullary main_call1_cst (constant S_ .f32 0x00000000#32),
    StableHlo.unary main_call1_cst main_call1_v0 (broadcastInDim S50000x256 ![] bcast_S_S50000x256 : (⟨S_, .f32⟩ : BufTy).Contents (Elt F) → (⟨S50000x256, .f32⟩ : BufTy).Contents (Elt F)),
    StableHlo.binary main_v70 main_call1_v0 main_call1_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call1_cst_0 (constant S_ .f32 0x00000000#32),
    StableHlo.unary main_call1_cst_0 main_call1_v2 (broadcastInDim S50000x256 ![] bcast_S_S50000x256 : (⟨S_, .f32⟩ : BufTy).Contents (Elt F) → (⟨S50000x256, .f32⟩ : BufTy).Contents (Elt F)),
    StableHlo.binary main_v70 main_call1_v2 main_call1_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call1_cst_1 (constant S_ .f32 0x00000000#32),
    StableHlo.unary main_call1_cst_1 main_call1_call0_v0 (id : (⟨S_, .f32⟩ : BufTy).Contents (Elt F) → (⟨S_, .f32⟩ : BufTy).Contents (Elt F)),
    StableHlo.unary main_call1_call0_v0 main_call1_call0_v1 (broadcastInDim S50000x256 ![] bcast_S_S50000x256 : (⟨S_, .f32⟩ : BufTy).Contents (Elt F) → (⟨S50000x256, .f32⟩ : BufTy).Contents (Elt F)),
    StableHlo.ternary main_call1_v3 main_call1_call0_v1 main_v70 main_call1_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call1_v4 main_call1_v5 (Host.expm1 : (⟨S50000x256, .f32⟩ : BufTy).Contents (Elt F) → (⟨S50000x256, .f32⟩ : BufTy).Contents (Elt F)),
    StableHlo.nullary main_call1_cst_2 (constant S_ .f32 0x3F800000#32),
    StableHlo.unary main_call1_cst_2 main_call1_v6 (broadcastInDim S50000x256 ![] bcast_S_S50000x256 : (⟨S_, .f32⟩ : BufTy).Contents (Elt F) → (⟨S50000x256, .f32⟩ : BufTy).Contents (Elt F)),
    StableHlo.binary main_call1_v6 main_call1_v5 main_call1_v7 (mulf : (⟨S50000x256, .f32⟩ : BufTy).Contents (Elt F) → (⟨S50000x256, .f32⟩ : BufTy).Contents (Elt F) → (⟨S50000x256, .f32⟩ : BufTy).Contents (Elt F)),
    StableHlo.ternary main_call1_v1 main_v70 main_call1_v7 main_v71 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) ]

/-- The buffers it writes. -/
abbrev sC0_res : List (Ref sig .tc) :=
  [main_v44, main_v45, main_v46, main_cst_9, main_v47, main_v48, main_cst_10, main_v49, main_v50, main_v51, main_v52, main_v53, main_cst_11, main_v54, main_v55, main_cst_12, main_v56, main_v57, main_v58, main_v59, main_cst_13, main_v60, main_v61, main_v62, main_v63, main_v64, main_v65, main_v66, main_v67, main_v68, main_v69, main_v70, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v71]

/-- The second dense product. -/
def sD1 : List (HloOp τ sig (Elt F)) :=
  [ StableHlo.binary main_v71 main_arg4 main_v72 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The buffers it writes. -/
abbrev sD1_res : List (Ref sig .tc) :=
  [main_v72]

/-- Its aggregation over the edges. -/
def sA1 : List (HloOp τ sig (Elt F)) :=
  [ StableHlo.nullary main_c_14 (constantI S_ 32 0#32),
    StableHlo.unary main_c_14 main_v73 (broadcastInDim S850000 ![] bcast_S_S850000 : (⟨S_, .i32⟩ : BufTy).Contents (Elt F) → (⟨S850000, .i32⟩ : BufTy).Contents (Elt F)),
    StableHlo.binary main_v3 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v75 (broadcastInDim S850000 ![] bcast_S_S850000 : (⟨S_, .i32⟩ : BufTy).Contents (Elt F) → (⟨S850000, .i32⟩ : BufTy).Contents (Elt F)),
    StableHlo.binary main_v3 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v3 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v72 main_v78 main_v79 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v80 (broadcastInDim S850000x1 ![0] bcast_S850000_S850000x1_0 : (⟨S850000, .f32⟩ : BufTy).Contents (Elt F) → (⟨S850000x1, .f32⟩ : BufTy).Contents (Elt F)),
    StableHlo.unary main_v80 main_v81 (broadcastInDim S850000x256 ![0, 1] bcast_S850000x1_S850000x256_0_1 : (⟨S850000x1, .f32⟩ : BufTy).Contents (Elt F) → (⟨S850000x256, .f32⟩ : BufTy).Contents (Elt F)),
    StableHlo.binary main_v79 main_v81 main_v82 (mulf : (⟨S850000x256, .f32⟩ : BufTy).Contents (Elt F) → (⟨S850000x256, .f32⟩ : BufTy).Contents (Elt F) → (⟨S850000x256, .f32⟩ : BufTy).Contents (Elt F)),
    StableHlo.nullary main_cst_16 (constant S_ .f32 0x00000000#32),
    StableHlo.unary main_cst_16 main_v83 (broadcastInDim S50000x256 ![] bcast_S_S50000x256 : (⟨S_, .f32⟩ : BufTy).Contents (Elt F) → (⟨S50000x256, .f32⟩ : BufTy).Contents (Elt F)),
    StableHlo.unary main_v6 main_v84 (broadcastInDim S850000x1 ![0] bcast_S850000_S850000x1_0 : (⟨S850000, .i32⟩ : BufTy).Contents (Elt F) → (⟨S850000x1, .i32⟩ : BufTy).Contents (Elt F)),
    StableHlo.ternary main_v83 main_v84 main_v82 main_v85 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The buffers it writes. -/
abbrev sA1_res : List (Ref sig .tc) :=
  [main_c_14, main_v73, main_v74, main_c_15, main_v75, main_v76, main_v77, main_v78, main_v79, main_v80, main_v81, main_v82, main_cst_16, main_v83, main_v84, main_v85]

/-- Bias, row normalisation, scale, shift and activation of the second layer, and the residual sum. -/
def sC1 : List (HloOp τ sig (Elt F)) :=
  [ StableHlo.unary main_arg5 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S50000x256 ![0, 1] bcast_S1x256_S50000x256_0_1 : (⟨S1x256, .f32⟩ : BufTy).Contents (Elt F) → (⟨S50000x256, .f32⟩ : BufTy).Contents (Elt F)),
    StableHlo.binary main_v85 main_v87 main_v88 (addf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x00000000#32),
    StableHlo.binary main_v88 main_cst_17 main_v89 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v89 main_v90 (broadcastInDim S50000x1 ![0] bcast_S50000_S50000x1_0 : (⟨S50000, .f32⟩ : BufTy).Contents (Elt F) → (⟨S50000x1, .f32⟩ : BufTy).Contents (Elt F)),
    StableHlo.nullary main_cst_18 (constant S_ .f32 0x43800000#32),
    StableHlo.unary main_cst_18 main_v91 (broadcastInDim S50000x1 ![] bcast_S_S50000x1 : (⟨S_, .f32⟩ : BufTy).Contents (Elt F) → (⟨S50000x1, .f32⟩ : BufTy).Contents (Elt F)),
    StableHlo.binary main_v90 main_v91 main_v92 (Host.divf : (⟨S50000x1, .f32⟩ : BufTy).Contents (Elt F) → (⟨S50000x1, .f32⟩ : BufTy).Contents (Elt F) → (⟨S50000x1, .f32⟩ : BufTy).Contents (Elt F)),
    StableHlo.unary main_v92 main_v93 (broadcastInDim S50000x256 ![0, 1] bcast_S50000x1_S50000x256_0_1 : (⟨S50000x1, .f32⟩ : BufTy).Contents (Elt F) → (⟨S50000x256, .f32⟩ : BufTy).Contents (Elt F)),
    StableHlo.binary main_v88 main_v93 main_v94 (subf : (⟨S50000x256, .f32⟩ : BufTy).Contents (Elt F) → (⟨S50000x256, .f32⟩ : BufTy).Contents (Elt F) → (⟨S50000x256, .f32⟩ : BufTy).Contents (Elt F)),
    StableHlo.binary main_v94 main_v94 main_v95 (mulf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x00000000#32),
    StableHlo.binary main_v95 main_cst_19 main_v96 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v96 main_v97 (broadcastInDim S50000x1 ![0] bcast_S50000_S50000x1_0 : (⟨S50000, .f32⟩ : BufTy).Contents (Elt F) → (⟨S50000x1, .f32⟩ : BufTy).Contents (Elt F)),
    StableHlo.nullary main_cst_20 (constant S_ .f32 0x43800000#32),
    StableHlo.unary main_cst_20 main_v98 (broadcastInDim S50000x1 ![] bcast_S_S50000x1 : (⟨S_, .f32⟩ : BufTy).Contents (Elt F) → (⟨S50000x1, .f32⟩ : BufTy).Contents (Elt F)),
    StableHlo.binary main_v97 main_v98 main_v99 (Host.divf : (⟨S50000x1, .f32⟩ : BufTy).Contents (Elt F) → (⟨S50000x1, .f32⟩ : BufTy).Contents (Elt F) → (⟨S50000x1, .f32⟩ : BufTy).Contents (Elt F)),
    StableHlo.unary main_v92 main_v100 (broadcastInDim S50000x256 ![0, 1] bcast_S50000x1_S50000x256_0_1 : (⟨S50000x1, .f32⟩ : BufTy).Contents (Elt F) → (⟨S50000x256, .f32⟩ : BufTy).Contents (Elt F)),
    StableHlo.binary main_v88 main_v100 main_v101 (subf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x3727C5AC#32),
    StableHlo.unary main_cst_21 main_v102 (broadcastInDim S50000x1 ![] bcast_S_S50000x1 : (⟨S_, .f32⟩ : BufTy).Contents (Elt F) → (⟨S50000x1, .f32⟩ : BufTy).Contents (Elt F)),
    StableHlo.binary main_v99 main_v102 main_v103 (addf : (⟨S50000x1, .f32⟩ : BufTy).Contents (Elt F) → (⟨S50000x1, .f32⟩ : BufTy).Contents (Elt F) → (⟨S50000x1, .f32⟩ : BufTy).Contents (Elt F)),
    StableHlo.unary main_v103 main_v104 (Host.rsqrt : (⟨S50000x1, .f32⟩ : BufTy).Contents (Elt F) → (⟨S50000x1, .f32⟩ : BufTy).Contents (Elt F)),
    StableHlo.unary main_v104 main_v105 (broadcastInDim S50000x256 ![0, 1] bcast_S50000x1_S50000x256_0_1 : (⟨S50000x1, .f32⟩ : BufTy).Contents (Elt F) → (⟨S50000x256, .f32⟩ : BufTy).Contents (Elt F)),
    StableHlo.binary main_v101 main_v105 main_v106 (mulf : (⟨S50000x256, .f32⟩ : BufTy).Contents (Elt F) → (⟨S50000x256, .f32⟩ : BufTy).Contents (Elt F) → (⟨S50000x256, .f32⟩ : BufTy).Contents (Elt F)),
    StableHlo.unary main_arg12 main_v107 (broadcastInDim S1x256 ![1] bcast_S256_S1x256_1 : (⟨S256, .f32⟩ : BufTy).Contents (Elt F) → (⟨S1x256, .f32⟩ : BufTy).Contents (Elt F)),
    StableHlo.unary main_v107 main_v108 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v108 main_v109 (mulf : (⟨S50000x256, .f32⟩ : BufTy).Contents (Elt F) → (⟨S50000x256, .f32⟩ : BufTy).Contents (Elt F) → (⟨S50000x256, .f32⟩ : BufTy).Contents (Elt F)),
    StableHlo.unary main_arg13 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S50000x256 ![0, 1] bcast_S1x256_S50000x256_0_1 : (⟨S1x256, .f32⟩ : BufTy).Contents (Elt F) → (⟨S50000x256, .f32⟩ : BufTy).Contents (Elt F)),
    StableHlo.binary main_v109 main_v111 main_v112 (addf : (⟨S50000x256, .f32⟩ : BufTy).Contents (Elt F) → (⟨S50000x256, .f32⟩ : BufTy).Contents (Elt F) → (⟨S50000x256, .f32⟩ : BufTy).Contents (Elt F)),
    StableHlo.nullary main_call2_cst (constant S_ .f32 0x00000000#32),
    StableHlo.unary main_call2_cst main_call2_v0 (broadcastInDim S50000x256 ![] bcast_S_S50000x256 : (⟨S_, .f32⟩ : BufTy).Contents (Elt F) → (⟨S50000x256, .f32⟩ : BufTy).Contents (Elt F)),
    StableHlo.binary main_v112 main_call2_v0 main_call2_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call2_cst_0 (constant S_ .f32 0x00000000#32),
    StableHlo.unary main_call2_cst_0 main_call2_v2 (broadcastInDim S50000x256 ![] bcast_S_S50000x256 : (⟨S_, .f32⟩ : BufTy).Contents (Elt F) → (⟨S50000x256, .f32⟩ : BufTy).Contents (Elt F)),
    StableHlo.binary main_v112 main_call2_v2 main_call2_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call2_cst_1 (constant S_ .f32 0x00000000#32),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 (broadcastInDim S50000x256 ![] bcast_S_S50000x256 : (⟨S_, .f32⟩ : BufTy).Contents (Elt F) → (⟨S50000x256, .f32⟩ : BufTy).Contents (Elt F)),
    StableHlo.ternary main_call2_v3 main_call2_call0_v1 main_v112 main_call2_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call2_v4 main_call2_v5 (Host.expm1 : (⟨S50000x256, .f32⟩ : BufTy).Contents (Elt F) → (⟨S50000x256, .f32⟩ : BufTy).Contents (Elt F)),
    StableHlo.nullary main_call2_cst_2 (constant S_ .f32 0x3F800000#32),
    StableHlo.unary main_call2_cst_2 main_call2_v6 (broadcastInDim S50000x256 ![] bcast_S_S50000x256 : (⟨S_, .f32⟩ : BufTy).Contents (Elt F) → (⟨S50000x256, .f32⟩ : BufTy).Contents (Elt F)),
    StableHlo.binary main_call2_v6 main_call2_v5 main_call2_v7 (mulf : (⟨S50000x256, .f32⟩ : BufTy).Contents (Elt F) → (⟨S50000x256, .f32⟩ : BufTy).Contents (Elt F) → (⟨S50000x256, .f32⟩ : BufTy).Contents (Elt F)),
    StableHlo.ternary main_call2_v1 main_v112 main_call2_v7 main_v113 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.binary main_v113 main_v71 main_v114 (addf : (⟨S50000x256, .f32⟩ : BufTy).Contents (Elt F) → (⟨S50000x256, .f32⟩ : BufTy).Contents (Elt F) → (⟨S50000x256, .f32⟩ : BufTy).Contents (Elt F)) ]

/-- The buffers it writes. -/
abbrev sC1_res : List (Ref sig .tc) :=
  [main_v86, main_v87, main_v88, main_cst_17, main_v89, main_v90, main_cst_18, main_v91, main_v92, main_v93, main_v94, main_v95, main_cst_19, main_v96, main_v97, main_cst_20, main_v98, main_v99, main_v100, main_v101, main_cst_21, main_v102, main_v103, main_v104, main_v105, main_v106, main_v107, main_v108, main_v109, main_v110, main_v111, main_v112, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v113, main_v114]

/-- The third dense product. -/
def sD2 : List (HloOp τ sig (Elt F)) :=
  [ StableHlo.binary main_v114 main_arg6 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The buffers it writes. -/
abbrev sD2_res : List (Ref sig .tc) :=
  [main_v115]

/-- Its aggregation over the edges. -/
def sA2 : List (HloOp τ sig (Elt F)) :=
  [ StableHlo.nullary main_c_22 (constantI S_ 32 0#32),
    StableHlo.unary main_c_22 main_v116 (broadcastInDim S850000 ![] bcast_S_S850000 : (⟨S_, .i32⟩ : BufTy).Contents (Elt F) → (⟨S850000, .i32⟩ : BufTy).Contents (Elt F)),
    StableHlo.binary main_v3 main_v116 main_v117 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v118 (broadcastInDim S850000 ![] bcast_S_S850000 : (⟨S_, .i32⟩ : BufTy).Contents (Elt F) → (⟨S850000, .i32⟩ : BufTy).Contents (Elt F)),
    StableHlo.binary main_v3 main_v118 main_v119 (addi : (⟨S850000, .i32⟩ : BufTy).Contents (Elt F) → (⟨S850000, .i32⟩ : BufTy).Contents (Elt F) → (⟨S850000, .i32⟩ : BufTy).Contents (Elt F)),
    StableHlo.ternary main_v117 main_v119 main_v3 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v120 main_v121 (broadcastInDim S850000x1 ![0] bcast_S850000_S850000x1_0 : (⟨S850000, .i32⟩ : BufTy).Contents (Elt F) → (⟨S850000x1, .i32⟩ : BufTy).Contents (Elt F)),
    StableHlo.binary main_v115 main_v121 main_v122 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v123 (broadcastInDim S850000x1 ![0] bcast_S850000_S850000x1_0 : (⟨S850000, .f32⟩ : BufTy).Contents (Elt F) → (⟨S850000x1, .f32⟩ : BufTy).Contents (Elt F)),
    StableHlo.unary main_v123 main_v124 (broadcastInDim S850000x256 ![0, 1] bcast_S850000x1_S850000x256_0_1 : (⟨S850000x1, .f32⟩ : BufTy).Contents (Elt F) → (⟨S850000x256, .f32⟩ : BufTy).Contents (Elt F)),
    StableHlo.binary main_v122 main_v124 main_v125 (mulf : (⟨S850000x256, .f32⟩ : BufTy).Contents (Elt F) → (⟨S850000x256, .f32⟩ : BufTy).Contents (Elt F) → (⟨S850000x256, .f32⟩ : BufTy).Contents (Elt F)),
    StableHlo.nullary main_cst_24 (constant S_ .f32 0x00000000#32),
    StableHlo.unary main_cst_24 main_v126 (broadcastInDim S50000x256 ![] bcast_S_S50000x256 : (⟨S_, .f32⟩ : BufTy).Contents (Elt F) → (⟨S50000x256, .f32⟩ : BufTy).Contents (Elt F)),
    StableHlo.unary main_v6 main_v127 (broadcastInDim S850000x1 ![0] bcast_S850000_S850000x1_0 : (⟨S850000, .i32⟩ : BufTy).Contents (Elt F) → (⟨S850000x1, .i32⟩ : BufTy).Contents (Elt F)),
    StableHlo.ternary main_v126 main_v127 main_v125 main_v128 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The buffers it writes. -/
abbrev sA2_res : List (Ref sig .tc) :=
  [main_c_22, main_v116, main_v117, main_c_23, main_v118, main_v119, main_v120, main_v121, main_v122, main_v123, main_v124, main_v125, main_cst_24, main_v126, main_v127, main_v128]

/-- Bias, row normalisation, scale, shift and activation of the third layer, and the residual sum. -/
def sC2 : List (HloOp τ sig (Elt F)) :=
  [ StableHlo.unary main_arg7 main_v129 (broadcastInDim S1x256 ![1] bcast_S256_S1x256_1 : (⟨S256, .f32⟩ : BufTy).Contents (Elt F) → (⟨S1x256, .f32⟩ : BufTy).Contents (Elt F)),
    StableHlo.unary main_v129 main_v130 (broadcastInDim S50000x256 ![0, 1] bcast_S1x256_S50000x256_0_1 : (⟨S1x256, .f32⟩ : BufTy).Contents (Elt F) → (⟨S50000x256, .f32⟩ : BufTy).Contents (Elt F)),
    StableHlo.binary main_v128 main_v130 main_v131 (addf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x00000000#32),
    StableHlo.binary main_v131 main_cst_25 main_v132 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v132 main_v133 (broadcastInDim S50000x1 ![0] bcast_S50000_S50000x1_0 : (⟨S50000, .f32⟩ : BufTy).Contents (Elt F) → (⟨S50000x1, .f32⟩ : BufTy).Contents (Elt F)),
    StableHlo.nullary main_cst_26 (constant S_ .f32 0x43800000#32),
    StableHlo.unary main_cst_26 main_v134 (broadcastInDim S50000x1 ![] bcast_S_S50000x1 : (⟨S_, .f32⟩ : BufTy).Contents (Elt F) → (⟨S50000x1, .f32⟩ : BufTy).Contents (Elt F)),
    StableHlo.binary main_v133 main_v134 main_v135 (Host.divf : (⟨S50000x1, .f32⟩ : BufTy).Contents (Elt F) → (⟨S50000x1, .f32⟩ : BufTy).Contents (Elt F) → (⟨S50000x1, .f32⟩ : BufTy).Contents (Elt F)),
    StableHlo.unary main_v135 main_v136 (broadcastInDim S50000x256 ![0, 1] bcast_S50000x1_S50000x256_0_1 : (⟨S50000x1, .f32⟩ : BufTy).Contents (Elt F) → (⟨S50000x256, .f32⟩ : BufTy).Contents (Elt F)),
    StableHlo.binary main_v131 main_v136 main_v137 (subf : (⟨S50000x256, .f32⟩ : BufTy).Contents (Elt F) → (⟨S50000x256, .f32⟩ : BufTy).Contents (Elt F) → (⟨S50000x256, .f32⟩ : BufTy).Contents (Elt F)),
    StableHlo.binary main_v137 main_v137 main_v138 (mulf : (⟨S50000x256, .f32⟩ : BufTy).Contents (Elt F) → (⟨S50000x256, .f32⟩ : BufTy).Contents (Elt F) → (⟨S50000x256, .f32⟩ : BufTy).Contents (Elt F)),
    StableHlo.nullary main_cst_27 (constant S_ .f32 0x00000000#32),
    StableHlo.binary main_v138 main_cst_27 main_v139 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v139 main_v140 (broadcastInDim S50000x1 ![0] bcast_S50000_S50000x1_0 : (⟨S50000, .f32⟩ : BufTy).Contents (Elt F) → (⟨S50000x1, .f32⟩ : BufTy).Contents (Elt F)),
    StableHlo.nullary main_cst_28 (constant S_ .f32 0x43800000#32),
    StableHlo.unary main_cst_28 main_v141 (broadcastInDim S50000x1 ![] bcast_S_S50000x1 : (⟨S_, .f32⟩ : BufTy).Contents (Elt F) → (⟨S50000x1, .f32⟩ : BufTy).Contents (Elt F)),
    StableHlo.binary main_v140 main_v141 main_v142 (Host.divf : (⟨S50000x1, .f32⟩ : BufTy).Contents (Elt F) → (⟨S50000x1, .f32⟩ : BufTy).Contents (Elt F) → (⟨S50000x1, .f32⟩ : BufTy).Contents (Elt F)),
    StableHlo.unary main_v135 main_v143 (broadcastInDim S50000x256 ![0, 1] bcast_S50000x1_S50000x256_0_1 : (⟨S50000x1, .f32⟩ : BufTy).Contents (Elt F) → (⟨S50000x256, .f32⟩ : BufTy).Contents (Elt F)),
    StableHlo.binary main_v131 main_v143 main_v144 (subf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x3727C5AC#32),
    StableHlo.unary main_cst_29 main_v145 (broadcastInDim S50000x1 ![] bcast_S_S50000x1 : (⟨S_, .f32⟩ : BufTy).Contents (Elt F) → (⟨S50000x1, .f32⟩ : BufTy).Contents (Elt F)),
    StableHlo.binary main_v142 main_v145 main_v146 (addf : (⟨S50000x1, .f32⟩ : BufTy).Contents (Elt F) → (⟨S50000x1, .f32⟩ : BufTy).Contents (Elt F) → (⟨S50000x1, .f32⟩ : BufTy).Contents (Elt F)),
    StableHlo.unary main_v146 main_v147 (Host.rsqrt : (⟨S50000x1, .f32⟩ : BufTy).Contents (Elt F) → (⟨S50000x1, .f32⟩ : BufTy).Contents (Elt F)),
    StableHlo.unary main_v147 main_v148 (broadcastInDim S50000x256 ![0, 1] bcast_S50000x1_S50000x256_0_1 : (⟨S50000x1, .f32⟩ : BufTy).Contents (Elt F) → (⟨S50000x256, .f32⟩ : BufTy).Contents (Elt F)),
    StableHlo.binary main_v144 main_v148 main_v149 (mulf : (⟨S50000x256, .f32⟩ : BufTy).Contents (Elt F) → (⟨S50000x256, .f32⟩ : BufTy).Contents (Elt F) → (⟨S50000x256, .f32⟩ : BufTy).Contents (Elt F)),
    StableHlo.unary main_arg14 main_v150 (broadcastInDim S1x256 ![1] bcast_S256_S1x256_1 : (⟨S256, .f32⟩ : BufTy).Contents (Elt F) → (⟨S1x256, .f32⟩ : BufTy).Contents (Elt F)),
    StableHlo.unary main_v150 main_v151 (broadcastInDim S50000x256 ![0, 1] bcast_S1x256_S50000x256_0_1 : (⟨S1x256, .f32⟩ : BufTy).Contents (Elt F) → (⟨S50000x256, .f32⟩ : BufTy).Contents (Elt F)),
    StableHlo.binary main_v149 main_v151 main_v152 (mulf : (⟨S50000x256, .f32⟩ : BufTy).Contents (Elt F) → (⟨S50000x256, .f32⟩ : BufTy).Contents (Elt F) → (⟨S50000x256, .f32⟩ : BufTy).Contents (Elt F)),
    StableHlo.unary main_arg15 main_v153 (broadcastInDim S1x256 ![1] bcast_S256_S1x256_1 : (⟨S256, .f32⟩ : BufTy).Contents (Elt F) → (⟨S1x256, .f32⟩ : BufTy).Contents (Elt F)),
    StableHlo.unary main_v153 main_v154 (broadcastInDim S50000x256 ![0, 1] bcast_S1x256_S50000x256_0_1 : (⟨S1x256, .f32⟩ : BufTy).Contents (Elt F) → (⟨S50000x256, .f32⟩ : BufTy).Contents (Elt F)),
    StableHlo.binary main_v152 main_v154 main_v155 (addf : (⟨S50000x256, .f32⟩ : BufTy).Contents (Elt F) → (⟨S50000x256, .f32⟩ : BufTy).Contents (Elt F) → (⟨S50000x256, .f32⟩ : BufTy).Contents (Elt F)),
    StableHlo.nullary main_call3_cst (constant S_ .f32 0x00000000#32),
    StableHlo.unary main_call3_cst main_call3_v0 (broadcastInDim S50000x256 ![] bcast_S_S50000x256 : (⟨S_, .f32⟩ : BufTy).Contents (Elt F) → (⟨S50000x256, .f32⟩ : BufTy).Contents (Elt F)),
    StableHlo.binary main_v155 main_call3_v0 main_call3_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call3_cst_0 (constant S_ .f32 0x00000000#32),
    StableHlo.unary main_call3_cst_0 main_call3_v2 (broadcastInDim S50000x256 ![] bcast_S_S50000x256 : (⟨S_, .f32⟩ : BufTy).Contents (Elt F) → (⟨S50000x256, .f32⟩ : BufTy).Contents (Elt F)),
    StableHlo.binary main_v155 main_call3_v2 main_call3_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S50000x256 ![] bcast_S_S50000x256 : (⟨S_, .f32⟩ : BufTy).Contents (Elt F) → (⟨S50000x256, .f32⟩ : BufTy).Contents (Elt F)),
    StableHlo.ternary main_call3_v3 main_call3_call0_v1 main_v155 main_call3_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call3_v4 main_call3_v5 (Host.expm1 : (⟨S50000x256, .f32⟩ : BufTy).Contents (Elt F) → (⟨S50000x256, .f32⟩ : BufTy).Contents (Elt F)),
    StableHlo.nullary main_call3_cst_2 (constant S_ .f32 0x3F800000#32),
    StableHlo.unary main_call3_cst_2 main_call3_v6 (broadcastInDim S50000x256 ![] bcast_S_S50000x256 : (⟨S_, .f32⟩ : BufTy).Contents (Elt F) → (⟨S50000x256, .f32⟩ : BufTy).Contents (Elt F)),
    StableHlo.binary main_call3_v6 main_call3_v5 main_call3_v7 (mulf : (⟨S50000x256, .f32⟩ : BufTy).Contents (Elt F) → (⟨S50000x256, .f32⟩ : BufTy).Contents (Elt F) → (⟨S50000x256, .f32⟩ : BufTy).Contents (Elt F)),
    StableHlo.ternary main_call3_v1 main_v155 main_call3_v7 main_v156 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.binary main_v156 main_v114 main_v157 (addf : (⟨S50000x256, .f32⟩ : BufTy).Contents (Elt F) → (⟨S50000x256, .f32⟩ : BufTy).Contents (Elt F) → (⟨S50000x256, .f32⟩ : BufTy).Contents (Elt F)) ]

/-- The buffers it writes. -/
abbrev sC2_res : List (Ref sig .tc) :=
  [main_v129, main_v130, main_v131, main_cst_25, main_v132, main_v133, main_cst_26, main_v134, main_v135, main_v136, main_v137, main_v138, main_cst_27, main_v139, main_v140, main_cst_28, main_v141, main_v142, main_v143, main_v144, main_cst_29, main_v145, main_v146, main_v147, main_v148, main_v149, main_v150, main_v151, main_v152, main_v153, main_v154, main_v155, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v156, main_v157]

/-- The last dense product. -/
def sD3 : List (HloOp τ sig (Elt F)) :=
  [ StableHlo.binary main_v157 main_arg8 main_v158 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- The buffers it writes. -/
abbrev sD3_res : List (Ref sig .tc) :=
  [main_v158]

/-- Its aggregation over the edges. -/
def sA3 : List (HloOp τ sig (Elt F)) :=
  [ StableHlo.nullary main_c_30 (constantI S_ 32 0#32),
    StableHlo.unary main_c_30 main_v159 (broadcastInDim S850000 ![] bcast_S_S850000 : (⟨S_, .i32⟩ : BufTy).Contents (Elt F) → (⟨S850000, .i32⟩ : BufTy).Contents (Elt F)),
    StableHlo.binary main_v3 main_v159 main_v160 (cmpi .slt : (⟨S850000, .i32⟩ : BufTy).Contents (Elt F) → (⟨S850000, .i32⟩ : BufTy).Contents (Elt F) → (⟨S850000, .i1⟩ : BufTy).Contents (Elt F)),
    StableHlo.nullary main_c_31 (constantI S_ 32 50000#32),
    StableHlo.unary main_c_31 main_v161 (broadcastInDim S850000 ![] bcast_S_S850000 : (⟨S_, .i32⟩ : BufTy).Contents (Elt F) → (⟨S850000, .i32⟩ : BufTy).Contents (Elt F)),
    StableHlo.binary main_v3 main_v161 main_v162 (addi : (⟨S850000, .i32⟩ : BufTy).Contents (Elt F) → (⟨S850000, .i32⟩ : BufTy).Contents (Elt F) → (⟨S850000, .i32⟩ : BufTy).Contents (Elt F)),
    StableHlo.ternary main_v160 main_v162 main_v3 main_v163 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v163 main_v164 (broadcastInDim S850000x1 ![0] bcast_S850000_S850000x1_0 : (⟨S850000, .i32⟩ : BufTy).Contents (Elt F) → (⟨S850000x1, .i32⟩ : BufTy).Contents (Elt F)),
    StableHlo.binary main_v158 main_v164 main_v165 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v166 (broadcastInDim S850000x1 ![0] bcast_S850000_S850000x1_0 : (⟨S850000, .f32⟩ : BufTy).Contents (Elt F) → (⟨S850000x1, .f32⟩ : BufTy).Contents (Elt F)),
    StableHlo.unary main_v166 main_v167 (broadcastInDim S850000x128 ![0, 1] bcast_S850000x1_S850000x128_0_1 : (⟨S850000x1, .f32⟩ : BufTy).Contents (Elt F) → (⟨S850000x128, .f32⟩ : BufTy).Contents (Elt F)),
    StableHlo.binary main_v165 main_v167 main_v168 (mulf : (⟨S850000x128, .f32⟩ : BufTy).Contents (Elt F) → (⟨S850000x128, .f32⟩ : BufTy).Contents (Elt F) → (⟨S850000x128, .f32⟩ : BufTy).Contents (Elt F)),
    StableHlo.nullary main_cst_32 (constant S_ .f32 0x00000000#32),
    StableHlo.unary main_cst_32 main_v169 (broadcastInDim S50000x128 ![] bcast_S_S50000x128 : (⟨S_, .f32⟩ : BufTy).Contents (Elt F) → (⟨S50000x128, .f32⟩ : BufTy).Contents (Elt F)),
    StableHlo.unary main_v6 main_v170 (broadcastInDim S850000x1 ![0] bcast_S850000_S850000x1_0 : (⟨S850000, .i32⟩ : BufTy).Contents (Elt F) → (⟨S850000x1, .i32⟩ : BufTy).Contents (Elt F)),
    StableHlo.ternary main_v169 main_v170 main_v168 main_v171 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffers it writes. -/
abbrev sA3_res : List (Ref sig .tc) :=
  [main_c_30, main_v159, main_v160, main_c_31, main_v161, main_v162, main_v163, main_v164, main_v165, main_v166, main_v167, main_v168, main_cst_32, main_v169, main_v170, main_v171]

/-- The last bias. -/
def sB3 : List (HloOp τ sig (Elt F)) :=
  [ StableHlo.unary main_arg9 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v171 main_v173 main_v174 (addf : (⟨S50000x128, .f32⟩ : BufTy).Contents (Elt F) → (⟨S50000x128, .f32⟩ : BufTy).Contents (Elt F) → (⟨S50000x128, .f32⟩ : BufTy).Contents (Elt F)) ]

/-- The buffers it writes. -/
abbrev sB3_res : List (Ref sig .tc) :=
  [main_v172, main_v173, main_v174]

end Cert.ReferenceIdeal.Run

end
-- ==== Proof.RefRun.lean ====
/-
  The reference program's entry function as one straight line of host array operations, and its run.

  Each of the four windows of the entry function equals the line of its operations with every callee's operations at the
  call site (a call executes the callee's body on the operands), so the entry function, which runs the windows in order,
  is the line of all of them.  Every operation reads and writes TensorCore buffers only and determines its results, so
  from any memory every fair execution terminates with each buffer at the fold of the operations' results over the
  launch contents.
-/
import proofs.«171627_j76175539962264_1_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

-- some seventy sequencing steps re-associated: the rewriting recurses once per statement
set_option maxRecDepth 4096 in
/-- The first window is its line: the selection function's definition unfolded at its call, both sides are one chain of
    steps once sequencing is re-associated. -/
theorem part0_eq (c : Dev nD) : main_part0 (F := F) c = seq ops0 := by
  simp only [main_part0, fn_where.body, seq, bind_assoc, pure_bind]
  rfl

set_option maxRecDepth 4096 in
/-- The second window is its line (the activation function and its two selection functions unfolded). -/
theorem part1_eq (c : Dev nD) : main_part1 (F := F) c = seq ops1 := by
  simp only [main_part1, fn_elu.body, fn_where_0.body, fn_where_1.body, seq, bind_assoc, pure_bind]
  rfl

set_option maxRecDepth 4096 in
/-- The third window is its line. -/
theorem part2_eq (c : Dev nD) : main_part2 (F := F) c = seq ops2 := by
  simp only [main_part2, fn_elu.body, fn_where_0.body, fn_where_1.body, seq, bind_assoc, pure_bind]
  rfl

set_option maxRecDepth 4096 in
/-- The fourth window is its line (it ends in the return, so both sides are already the same chain). -/
theorem part3_eq (c : Dev nD) : main_part3 (F := F) c = seq ops3 := by
  simp only [main_part3, fn_elu.body, fn_where_0.body, fn_where_1.body, seq, bind_assoc, pure_bind]

/-- The entry function's operations, in order. -/
abbrev ops : List (HloOp τ sig (Elt F)) := ops0 ++ (ops1 ++ (ops2 ++ ops3))

/-- The entry function runs its four windows in order, so it is the line of all of them. -/
theorem main_eq (c : Dev nD) : main (F := F) c = seq ops := by
  rw [ops, seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of a window determines its results. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

/-- Every operation of the line reads and writes TensorCore buffers only. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    · exact List.forall_iff_forall_mem.mp ops3_sub op h

/-- Every operation of the line determines its results. -/
theorem ops_fresh : ∀ op ∈ (ops : List (HloOp τ sig (Elt F))), op.fresh = ∅ := fun op h => by
  rcases List.mem_append.mp h with h | h
  · exact ops0_fresh op h
  rcases List.mem_append.mp h with h | h
  · exact ops1_fresh op h
  rcases List.mem_append.mp h with h | h
  · exact ops2_fresh op h
  · exact ops3_fresh op h

/-- At the compiled mesh, for any float values, from any memory with zero counters: every weakly fair execution of the
    entry function on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.LibStretch.lean ====
/-
  Two general facts about a straight line of array operations run from some contents of the buffers.
  A line cut in two runs its second part from what its first part leaves — so a long program is read stretch by stretch,
  each stretch for arbitrary starting contents.  And contents carried to a typed reference's buffer type and back along
  the same type equation are unchanged — so the operations of a module-local function (which carry every value through
  its typed reference) compose exactly as a program's own operations do, with no transport left between them.
-/
import Idealize.ShloMosaic.Lib.StableHlo.Run

namespace Cert.LibStretch

open Idealize.ShloMosaic Idealize.ShloMosaic.StableHlo

/-- Running `l₁ ++ l₂` from `V` is running `l₂` from what `l₁` leaves. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- To the buffer's type and back is the identity. -/
theorem ofBuf_toBuf {sig : RefSig} {Val : EltTy → Type} {T : BufTy} (x : TRef sig T) (v : T.Contents Val) :
    x.ofBuf (x.toBuf v) = v := by
  rcases x with ⟨r, h, h2, h3⟩
  subst h
  rfl

/-- From the buffer's type and back likewise. -/
theorem toBuf_ofBuf {sig : RefSig} {Val : EltTy → Type} {T : BufTy} (x : TRef sig T) (v : x.ref.ty.Contents Val) :
    x.toBuf (x.ofBuf v) = v := by
  rcases x with ⟨r, h, h2, h3⟩
  subst h
  rfl

end Cert.LibStretch
-- ==== Proof.RefValue.lean ====
/-
  The value of the reference program's run: its result buffer holds `Cert.Spec.out` of the sixteen argument arrays, and
  the argument buffers are unchanged.

  The run leaves every buffer at the fold of the entry function's operations over the launch contents.  The line of
  operations is cut at the layer boundaries into consecutive pieces: the edge endpoints; the degrees and edge weights;
  then per layer the dense product, the aggregation over the edges, and the bias, row normalisation and activation
  (with the residual sum from the second layer on); the last bias.  Running a line cut in two is running the second part
  from what the first leaves, so each piece is read for ARBITRARY starting contents: the buffer it produces holds the
  corresponding piece of `Cert.Spec` of the buffers it reads, and a buffer outside the list of those it writes keeps
  its contents.  Composing the pieces from the last to the first gives the result as `Cert.Spec.out` of the arguments;
  no piece writes an argument buffer, so those keep their launch contents.
-/
import proofs.«171627_j76175539962264_1_alg».proof.Proof.RefRun
import proofs.«171627_j76175539962264_1_alg».proof.Proof.Spec
import proofs.«171627_j76175539962264_1_alg».proof.Proof.LibStretch

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.Run

/-! ## The line, cut at the layer boundaries -/

/-- The entry function's line is the pieces in order.  In the windows a callee's operation carries each value through its
    typed reference, in the pieces it is over the buffer itself with its function at the buffer's type: the two are the
    same operation (the transport along a reference's own type equation is the identity), operation by operation. -/
theorem ops_cut : (ops : List (HloOp τ sig (Elt Ideal)))
    = sP1 ++ (sP2 ++ (sD0 ++ (sA0 ++ (sC0 ++ (sD1 ++ (sA1 ++ (sC1 ++ (sD2 ++ (sA2 ++ (sC2 ++ (sD3 ++ (sA3 ++ (sB3))))))))))))) := by
  rfl

/-! ## What a piece leaves alone -/

/-- An operation whose written set is one buffer of a list writes inside the list. -/
theorem ws_of_eq {Val : EltTy → Type} {op : HloOp τ sig Val} {y : Ref sig .tc} {W : List (Ref sig .tc)}
    (h : op.writes = {Proc.devRef .tc y}) (hy : y ∈ W) : op.writes ⊆ (W.map (Proc.devRef (τ := τ) .tc)).toFinset := by
  rw [h, Finset.singleton_subset_iff, List.mem_toFinset]
  exact List.mem_map_of_mem hy

/-- Every operation of the piece writes one buffer of the piece's list. -/
theorem sP1_ws : (sP1 : List (HloOp τ sig (Elt Ideal))).Forall fun op => op.writes ⊆ (sP1_res.map (Proc.devRef (τ := τ) .tc)).toFinset := by
  unfold sP1
  repeat' constructor
  all_goals exact ws_of_eq rfl (by decide)

/-- So a buffer outside the list keeps its contents. -/
theorem sP1_keep (V : Valuation τ sig (Elt Ideal)) {r : Ref sig .tc} (hr : r ∉ sP1_res) :
    after sP1 V (no_index (Proc.devRef .tc r)) = V (Proc.devRef .tc r) := after_of_writes_sub sP1 V sP1_ws hr

/-- Every operation of the piece writes one buffer of the piece's list. -/
theorem sP2_ws : (sP2 : List (HloOp τ sig (Elt Ideal))).Forall fun op => op.writes ⊆ (sP2_res.map (Proc.devRef (τ := τ) .tc)).toFinset := by
  unfold sP2
  repeat' constructor
  all_goals exact ws_of_eq rfl (by decide)

/-- So a buffer outside the list keeps its contents. -/
theorem sP2_keep (V : Valuation τ sig (Elt Ideal)) {r : Ref sig .tc} (hr : r ∉ sP2_res) :
    after sP2 V (no_index (Proc.devRef .tc r)) = V (Proc.devRef .tc r) := after_of_writes_sub sP2 V sP2_ws hr

/-- Every operation of the piece writes one buffer of the piece's list. -/
theorem sD0_ws : (sD0 : List (HloOp τ sig (Elt Ideal))).Forall fun op => op.writes ⊆ (sD0_res.map (Proc.devRef (τ := τ) .tc)).toFinset := by
  unfold sD0
  repeat' constructor
  all_goals exact ws_of_eq rfl (by decide)

/-- So a buffer outside the list keeps its contents. -/
theorem sD0_keep (V : Valuation τ sig (Elt Ideal)) {r : Ref sig .tc} (hr : r ∉ sD0_res) :
    after sD0 V (no_index (Proc.devRef .tc r)) = V (Proc.devRef .tc r) := after_of_writes_sub sD0 V sD0_ws hr

/-- Every operation of the piece writes one buffer of the piece's list. -/
theorem sA0_ws : (sA0 : List (HloOp τ sig (Elt Ideal))).Forall fun op => op.writes ⊆ (sA0_res.map (Proc.devRef (τ := τ) .tc)).toFinset := by
  unfold sA0
  repeat' constructor
  all_goals exact ws_of_eq rfl (by decide)

/-- So a buffer outside the list keeps its contents. -/
theorem sA0_keep (V : Valuation τ sig (Elt Ideal)) {r : Ref sig .tc} (hr : r ∉ sA0_res) :
    after sA0 V (no_index (Proc.devRef .tc r)) = V (Proc.devRef .tc r) := after_of_writes_sub sA0 V sA0_ws hr

/-- Every operation of the piece writes one buffer of the piece's list. -/
theorem sC0_ws : (sC0 : List (HloOp τ sig (Elt Ideal))).Forall fun op => op.writes ⊆ (sC0_res.map (Proc.devRef (τ := τ) .tc)).toFinset := by
  unfold sC0
  repeat' constructor
  all_goals exact ws_of_eq rfl (by decide)

/-- So a buffer outside the list keeps its contents. -/
theorem sC0_keep (V : Valuation τ sig (Elt Ideal)) {r : Ref sig .tc} (hr : r ∉ sC0_res) :
    after sC0 V (no_index (Proc.devRef .tc r)) = V (Proc.devRef .tc r) := after_of_writes_sub sC0 V sC0_ws hr

/-- Every operation of the piece writes one buffer of the piece's list. -/
theorem sD1_ws : (sD1 : List (HloOp τ sig (Elt Ideal))).Forall fun op => op.writes ⊆ (sD1_res.map (Proc.devRef (τ := τ) .tc)).toFinset := by
  unfold sD1
  repeat' constructor
  all_goals exact ws_of_eq rfl (by decide)

/-- So a buffer outside the list keeps its contents. -/
theorem sD1_keep (V : Valuation τ sig (Elt Ideal)) {r : Ref sig .tc} (hr : r ∉ sD1_res) :
    after sD1 V (no_index (Proc.devRef .tc r)) = V (Proc.devRef .tc r) := after_of_writes_sub sD1 V sD1_ws hr

/-- Every operation of the piece writes one buffer of the piece's list. -/
theorem sA1_ws : (sA1 : List (HloOp τ sig (Elt Ideal))).Forall fun op => op.writes ⊆ (sA1_res.map (Proc.devRef (τ := τ) .tc)).toFinset := by
  unfold sA1
  repeat' constructor
  all_goals exact ws_of_eq rfl (by decide)

/-- So a buffer outside the list keeps its contents. -/
theorem sA1_keep (V : Valuation τ sig (Elt Ideal)) {r : Ref sig .tc} (hr : r ∉ sA1_res) :
    after sA1 V (no_index (Proc.devRef .tc r)) = V (Proc.devRef .tc r) := after_of_writes_sub sA1 V sA1_ws hr

/-- Every operation of the piece writes one buffer of the piece's list. -/
theorem sC1_ws : (sC1 : List (HloOp τ sig (Elt Ideal))).Forall fun op => op.writes ⊆ (sC1_res.map (Proc.devRef (τ := τ) .tc)).toFinset := by
  unfold sC1
  repeat' constructor
  all_goals exact ws_of_eq rfl (by decide)

/-- So a buffer outside the list keeps its contents. -/
theorem sC1_keep (V : Valuation τ sig (Elt Ideal)) {r : Ref sig .tc} (hr : r ∉ sC1_res) :
    after sC1 V (no_index (Proc.devRef .tc r)) = V (Proc.devRef .tc r) := after_of_writes_sub sC1 V sC1_ws hr

/-- Every operation of the piece writes one buffer of the piece's list. -/
theorem sD2_ws : (sD2 : List (HloOp τ sig (Elt Ideal))).Forall fun op => op.writes ⊆ (sD2_res.map (Proc.devRef (τ := τ) .tc)).toFinset := by
  unfold sD2
  repeat' constructor
  all_goals exact ws_of_eq rfl (by decide)

/-- So a buffer outside the list keeps its contents. -/
theorem sD2_keep (V : Valuation τ sig (Elt Ideal)) {r : Ref sig .tc} (hr : r ∉ sD2_res) :
    after sD2 V (no_index (Proc.devRef .tc r)) = V (Proc.devRef .tc r) := after_of_writes_sub sD2 V sD2_ws hr

/-- Every operation of the piece writes one buffer of the piece's list. -/
theorem sA2_ws : (sA2 : List (HloOp τ sig (Elt Ideal))).Forall fun op => op.writes ⊆ (sA2_res.map (Proc.devRef (τ := τ) .tc)).toFinset := by
  unfold sA2
  repeat' constructor
  all_goals exact ws_of_eq rfl (by decide)

/-- So a buffer outside the list keeps its contents. -/
theorem sA2_keep (V : Valuation τ sig (Elt Ideal)) {r : Ref sig .tc} (hr : r ∉ sA2_res) :
    after sA2 V (no_index (Proc.devRef .tc r)) = V (Proc.devRef .tc r) := after_of_writes_sub sA2 V sA2_ws hr

/-- Every operation of the piece writes one buffer of the piece's list. -/
theorem sC2_ws : (sC2 : List (HloOp τ sig (Elt Ideal))).Forall fun op => op.writes ⊆ (sC2_res.map (Proc.devRef (τ := τ) .tc)).toFinset := by
  unfold sC2
  repeat' constructor
  all_goals exact ws_of_eq rfl (by decide)

/-- So a buffer outside the list keeps its contents. -/
theorem sC2_keep (V : Valuation τ sig (Elt Ideal)) {r : Ref sig .tc} (hr : r ∉ sC2_res) :
    after sC2 V (no_index (Proc.devRef .tc r)) = V (Proc.devRef .tc r) := after_of_writes_sub sC2 V sC2_ws hr

/-- Every operation of the piece writes one buffer of the piece's list. -/
theorem sD3_ws : (sD3 : List (HloOp τ sig (Elt Ideal))).Forall fun op => op.writes ⊆ (sD3_res.map (Proc.devRef (τ := τ) .tc)).toFinset := by
  unfold sD3
  repeat' constructor
  all_goals exact ws_of_eq rfl (by decide)

/-- So a buffer outside the list keeps its contents. -/
theorem sD3_keep (V : Valuation τ sig (Elt Ideal)) {r : Ref sig .tc} (hr : r ∉ sD3_res) :
    after sD3 V (no_index (Proc.devRef .tc r)) = V (Proc.devRef .tc r) := after_of_writes_sub sD3 V sD3_ws hr

/-- Every operation of the piece writes one buffer of the piece's list. -/
theorem sA3_ws : (sA3 : List (HloOp τ sig (Elt Ideal))).Forall fun op => op.writes ⊆ (sA3_res.map (Proc.devRef (τ := τ) .tc)).toFinset := by
  unfold sA3
  repeat' constructor
  all_goals exact ws_of_eq rfl (by decide)

/-- So a buffer outside the list keeps its contents. -/
theorem sA3_keep (V : Valuation τ sig (Elt Ideal)) {r : Ref sig .tc} (hr : r ∉ sA3_res) :
    after sA3 V (no_index (Proc.devRef .tc r)) = V (Proc.devRef .tc r) := after_of_writes_sub sA3 V sA3_ws hr

/-- Every operation of the piece writes one buffer of the piece's list. -/
theorem sB3_ws : (sB3 : List (HloOp τ sig (Elt Ideal))).Forall fun op => op.writes ⊆ (sB3_res.map (Proc.devRef (τ := τ) .tc)).toFinset := by
  unfold sB3
  repeat' constructor
  all_goals exact ws_of_eq rfl (by decide)

/-- So a buffer outside the list keeps its contents. -/
theorem sB3_keep (V : Valuation τ sig (Elt Ideal)) {r : Ref sig .tc} (hr : r ∉ sB3_res) :
    after sB3 V (no_index (Proc.devRef .tc r)) = V (Proc.devRef .tc r) := after_of_writes_sub sB3 V sB3_ws hr

/-! ## What a piece produces

Each for arbitrary starting contents: the fold is unrolled, each operation's result read at its own buffer and skipped at
any other, and what is left is the piece of `Cert.Spec` unfolded, term for term.  The index searches and sums of the
gather, the scatter-add and the row sum are kept folded meanwhile: the equation never looks inside them. -/

attribute [local irreducible] Host.gather Host.scatterAdd Host.reduceAdd

/-- The sources: the first row of the edge table, then the self loops. -/
theorem sP1_val3 (V : Valuation τ sig (Elt Ideal)) :
    after sP1 V (no_index (main_v3 : DevRef τ sig)) = Cert.Spec.src (V (main_arg1 : DevRef τ sig)) := by
  simp only [sP1]
  after_results
  rfl

/-- The destinations: the second row of the edge table, then the self loops. -/
theorem sP1_val6 (V : Valuation τ sig (Elt Ideal)) :
    after sP1 V (no_index (main_v6 : DevRef τ sig)) = Cert.Spec.dst (V (main_arg1 : DevRef τ sig)) := by
  simp only [sP1]
  after_results
  rfl

/-- The edge weights from the endpoints. -/
theorem sP2_val (V : Valuation τ sig (Elt Ideal)) :
    after sP2 V (no_index (main_v29 : DevRef τ sig)) = Cert.Spec.nrm (V (main_v3 : DevRef τ sig)) (V (main_v6 : DevRef τ sig)) := by
  simp only [sP2]
  after_results_simp
  rfl

/-- The first dense product. -/
theorem sD0_val (V : Valuation τ sig (Elt Ideal)) :
    after sD0 V (no_index (main_v30 : DevRef τ sig)) = Cert.Spec.mm0 (V (main_arg0 : DevRef τ sig)) (V (main_arg2 : DevRef τ sig)) := by
  simp only [sD0]
  after_results_simp
  rfl

/-- Its aggregation. -/
theorem sA0_val (V : Valuation τ sig (Elt Ideal)) :
    after sA0 V (no_index (main_v43 : DevRef τ sig)) = Cert.Spec.agg256 (V (main_v30 : DevRef τ sig)) (V (main_v3 : DevRef τ sig)) (V (main_v6 : DevRef τ sig)) (V (main_v29 : DevRef τ sig)) := by
  simp only [sA0]
  after_results_simp
  rfl

/-- The first layer's normalisation and activation. -/
theorem sC0_val (V : Valuation τ sig (Elt Ideal)) :
    after sC0 V (no_index (main_v71 : DevRef τ sig)) = Cert.Spec.act (V (main_v43 : DevRef τ sig)) (Cert.Spec.row (V (main_arg3 : DevRef τ sig))) (Cert.Spec.row (V (main_arg10 : DevRef τ sig))) (Cert.Spec.row (V (main_arg11 : DevRef τ sig))) := by
  simp only [sC0]
  after_results_simp
  rfl

/-- The second dense product. -/
theorem sD1_val (V : Valuation τ sig (Elt Ideal)) :
    after sD1 V (no_index (main_v72 : DevRef τ sig)) = Cert.Spec.mm1 (V (main_v71 : DevRef τ sig)) (V (main_arg4 : DevRef τ sig)) := by
  simp only [sD1]
  after_results_simp
  rfl

/-- Its aggregation. -/
theorem sA1_val (V : Valuation τ sig (Elt Ideal)) :
    after sA1 V (no_index (main_v85 : DevRef τ sig)) = Cert.Spec.agg256 (V (main_v72 : DevRef τ sig)) (V (main_v3 : DevRef τ sig)) (V (main_v6 : DevRef τ sig)) (V (main_v29 : DevRef τ sig)) := by
  simp only [sA1]
  after_results_simp
  rfl

/-- The second layer's normalisation and activation, plus the first layer's output. -/
theorem sC1_val (V : Valuation τ sig (Elt Ideal)) :
    after sC1 V (no_index (main_v114 : DevRef τ sig)) = Cert.Spec.actRes (V (main_v85 : DevRef τ sig)) (Cert.Spec.row (V (main_arg5 : DevRef τ sig))) (Cert.Spec.row (V (main_arg12 : DevRef τ sig))) (Cert.Spec.row (V (main_arg13 : DevRef τ sig))) (V (main_v71 : DevRef τ sig)) := by
  simp only [sC1]
  after_results_simp
  rfl

/-- The third dense product. -/
theorem sD2_val (V : Valuation τ sig (Elt Ideal)) :
    after sD2 V (no_index (main_v115 : DevRef τ sig)) = Cert.Spec.mm1 (V (main_v114 : DevRef τ sig)) (V (main_arg6 : DevRef τ sig)) := by
  simp only [sD2]
  after_results_simp
  rfl

/-- Its aggregation. -/
theorem sA2_val (V : Valuation τ sig (Elt Ideal)) :
    after sA2 V (no_index (main_v128 : DevRef τ sig)) = Cert.Spec.agg256 (V (main_v115 : DevRef τ sig)) (V (main_v3 : DevRef τ sig)) (V (main_v6 : DevRef τ sig)) (V (main_v29 : DevRef τ sig)) := by
  simp only [sA2]
  after_results_simp
  rfl

/-- The third layer's normalisation and activation, plus the second layer's output. -/
theorem sC2_val (V : Valuation τ sig (Elt Ideal)) :
    after sC2 V (no_index (main_v157 : DevRef τ sig)) = Cert.Spec.actRes (V (main_v128 : DevRef τ sig)) (Cert.Spec.row (V (main_arg7 : DevRef τ sig))) (Cert.Spec.row (V (main_arg14 : DevRef τ sig))) (Cert.Spec.row (V (main_arg15 : DevRef τ sig))) (V (main_v114 : DevRef τ sig)) := by
  simp only [sC2]
  after_results_simp
  rfl

/-- The last dense product. -/
theorem sD3_val (V : Valuation τ sig (Elt Ideal)) :
    after sD3 V (no_index (main_v158 : DevRef τ sig)) = Cert.Spec.mm3 (V (main_v157 : DevRef τ sig)) (V (main_arg8 : DevRef τ sig)) := by
  simp only [sD3]
  after_results_simp
  rfl

/-- Its aggregation. -/
theorem sA3_val (V : Valuation τ sig (Elt Ideal)) :
    after sA3 V (no_index (main_v171 : DevRef τ sig)) = Cert.Spec.agg128 (V (main_v158 : DevRef τ sig)) (V (main_v3 : DevRef τ sig)) (V (main_v6 : DevRef τ sig)) (V (main_v29 : DevRef τ sig)) := by
  simp only [sA3]
  after_results_simp
  rfl

/-- The last bias added. -/
theorem sB3_val (V : Valuation τ sig (Elt Ideal)) :
    after sB3 V (no_index (main_v174 : DevRef τ sig)) = addf (V (main_v171 : DevRef τ sig)) (Cert.Spec.biasOut (V (main_arg9 : DevRef τ sig))) := by
  simp only [sB3]
  after_results_simp
  rfl

/-! ## The pieces composed -/

/-- The result buffer after the whole line: the last bias over the last aggregation, and so on back through the layers,
    each piece's inputs read from what the pieces before it leave. -/
theorem value_eq (V : Valuation τ sig (Elt Ideal)) :
    after ops V (main_v174 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [ops_cut]
  simp (disch := decide) only [Cert.LibStretch.after_append, sP1_val3, sP1_val6, sP2_val, sD0_val, sA0_val, sC0_val, sD1_val, sA1_val, sC1_val, sD2_val, sA2_val, sC2_val, sD3_val, sA3_val, sB3_val,
    sP1_keep, sP2_keep, sD0_keep, sA0_keep, sC0_keep, sD1_keep, sA1_keep, sC1_keep, sD2_keep, sA2_keep, sC2_keep, sD3_keep, sA3_keep, sB3_keep]
  rfl

/-- No piece writes an argument buffer. -/
macro "keep_all" : tactic =>
  `(tactic| (rw [ops_cut]
             simp (disch := decide) only [Cert.LibStretch.after_append, sP1_keep, sP2_keep, sD0_keep, sA0_keep, sC0_keep, sD1_keep, sA1_keep, sC1_keep, sD2_keep, sA2_keep, sC2_keep, sD3_keep, sA3_keep, sB3_keep]))
theorem arg0_eq (V : Valuation τ sig (Elt Ideal)) : after ops V (main_arg0 : DevRef τ sig) = V (main_arg0 : DevRef τ sig) := by keep_all
theorem arg1_eq (V : Valuation τ sig (Elt Ideal)) : after ops V (main_arg1 : DevRef τ sig) = V (main_arg1 : DevRef τ sig) := by keep_all
theorem arg2_eq (V : Valuation τ sig (Elt Ideal)) : after ops V (main_arg2 : DevRef τ sig) = V (main_arg2 : DevRef τ sig) := by keep_all
theorem arg3_eq (V : Valuation τ sig (Elt Ideal)) : after ops V (main_arg3 : DevRef τ sig) = V (main_arg3 : DevRef τ sig) := by keep_all
theorem arg4_eq (V : Valuation τ sig (Elt Ideal)) : after ops V (main_arg4 : DevRef τ sig) = V (main_arg4 : DevRef τ sig) := by keep_all
theorem arg5_eq (V : Valuation τ sig (Elt Ideal)) : after ops V (main_arg5 : DevRef τ sig) = V (main_arg5 : DevRef τ sig) := by keep_all
theorem arg6_eq (V : Valuation τ sig (Elt Ideal)) : after ops V (main_arg6 : DevRef τ sig) = V (main_arg6 : DevRef τ sig) := by keep_all
theorem arg7_eq (V : Valuation τ sig (Elt Ideal)) : after ops V (main_arg7 : DevRef τ sig) = V (main_arg7 : DevRef τ sig) := by keep_all
theorem arg8_eq (V : Valuation τ sig (Elt Ideal)) : after ops V (main_arg8 : DevRef τ sig) = V (main_arg8 : DevRef τ sig) := by keep_all
theorem arg9_eq (V : Valuation τ sig (Elt Ideal)) : after ops V (main_arg9 : DevRef τ sig) = V (main_arg9 : DevRef τ sig) := by keep_all
theorem arg10_eq (V : Valuation τ sig (Elt Ideal)) : after ops V (main_arg10 : DevRef τ sig) = V (main_arg10 : DevRef τ sig) := by keep_all
theorem arg11_eq (V : Valuation τ sig (Elt Ideal)) : after ops V (main_arg11 : DevRef τ sig) = V (main_arg11 : DevRef τ sig) := by keep_all
theorem arg12_eq (V : Valuation τ sig (Elt Ideal)) : after ops V (main_arg12 : DevRef τ sig) = V (main_arg12 : DevRef τ sig) := by keep_all
theorem arg13_eq (V : Valuation τ sig (Elt Ideal)) : after ops V (main_arg13 : DevRef τ sig) = V (main_arg13 : DevRef τ sig) := by keep_all
theorem arg14_eq (V : Valuation τ sig (Elt Ideal)) : after ops V (main_arg14 : DevRef τ sig) = V (main_arg14 : DevRef τ sig) := by keep_all
theorem arg15_eq (V : Valuation τ sig (Elt Ideal)) : after ops V (main_arg15 : DevRef τ sig) = V (main_arg15 : DevRef τ sig) := by keep_all

/-! ## The run -/

/-- At the compiled mesh, over the extended reals, from any memory with zero counters: every weakly fair execution of the
    reference's entry function terminates with its result buffer at `Cert.Spec.out` of the argument buffers' launch
    contents, and the argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v174)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v174).trans (value_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_main m ρ)

end Cert.ReferenceIdeal.RefValue

end
-- ==== Proof.Claims.lean ====
/-
  The five claims.  The three frames: the kernel's at both instances is the generated frame; the reference has no
  kernel, and its frame is its run with the result dropped.  The idealization rewrote nothing, so `preserves` is
  trivial.  The algebraic claim: the idealized kernel's result buffer ends at the common function of the arguments
  (the boundary contents followed through the layers, each region's output array by its region module), the
  reference's result at the same function (its own host operations composed), and the two launch memories agree on
  the arguments.
-/
import proofs.«171627_j76175539962264_1_alg».proof.Defs
import proofs.«171627_j76175539962264_1_alg».proof.Proof.Gen.Kernel.Frame
import proofs.«171627_j76175539962264_1_alg».proof.Proof.Gen.KernelIdeal.Frame
import proofs.«171627_j76175539962264_1_alg».proof.Proof.Gen.ReferenceIdeal
import proofs.«171627_j76175539962264_1_alg».proof.Proof.Gen.Pre_finite_inputs
import proofs.«171627_j76175539962264_1_alg».proof.Proof.KernelRun
import proofs.«171627_j76175539962264_1_alg».proof.Proof.KernelValue
import proofs.«171627_j76175539962264_1_alg».proof.Proof.RegionsMM
import proofs.«171627_j76175539962264_1_alg».proof.Proof.RegionsLN
import proofs.«171627_j76175539962264_1_alg».proof.Proof.LnRows
import proofs.«171627_j76175539962264_1_alg».proof.Proof.RefValue

set_option maxRecDepth 16384

noncomputable section

namespace Cert.Proof.Claims

open Idealize.ShloMosaic Idealize.ShloMosaic.TcCoe Idealize.SL.Sem

/-- What the seven regions leave: the dense products, and the normalisation layers from their per-entry equations. -/
theorem regions : Cert.KernelIdeal.KernelValue.Regions where
  mm0 := Cert.KernelIdeal.RegionsMM.mm0
  ln1 := Cert.KernelIdeal.RegionsLN.ln1_of Cert.KernelIdeal.LnRows.pay1_eq
  mm2 := Cert.KernelIdeal.RegionsMM.mm2
  ln3 := Cert.KernelIdeal.RegionsLN.ln3_of Cert.KernelIdeal.LnRows.pay3_eq
  mm4 := Cert.KernelIdeal.RegionsMM.mm4
  ln5 := Cert.KernelIdeal.RegionsLN.ln5_of Cert.KernelIdeal.LnRows.pay5_eq
  mm6 := Cert.KernelIdeal.RegionsMM.mm6

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

theorem algebraic : Cert.algebraic_KernelIdeal_ReferenceIdeal := by
  intro m ρ m' ρ' _ hagree
  refine ⟨fun c => Cert.KernelIdeal.Gen.W14 (F := Ideal) m ρ c (Proc.devRef .tc Cert.KernelIdeal.main_v100),
    Cert.KernelIdeal.Out.run_out m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15⟩ := hagree c
  rw [e0, e1, e2, e3, e4, e5, e6, e7, e8, e9, e10, e11, e12, e13, e14, e15]
  exact (Cert.KernelIdeal.KernelValue.out_eq m ρ c regions).symm

end Cert.Proof.Claims

end
-- ==== Proof.lean ====
/-
  The certificate's claim: the facts of the three programs and of the precondition, the three frames, the (empty)
  idealization ledger, and the equality of the idealized kernel's and the idealized reference's results on the
  extended reals — a four-layer graph convolution whose dense products and normalisation layers run in seven
  kernel regions and whose gathers and scatter-adds run on the host, against the same network written with host
  operations only.  The parts are in Proof/Claims.lean.
-/
import proofs.«171627_j76175539962264_1_alg».proof.Defs
import proofs.«171627_j76175539962264_1_alg».proof.Proof.Gen.Kernel
import proofs.«171627_j76175539962264_1_alg».proof.Proof.Gen.Kernel.Skeleton
import proofs.«171627_j76175539962264_1_alg».proof.Proof.Gen.Kernel.Launch
import proofs.«171627_j76175539962264_1_alg».proof.Proof.Gen.Kernel.Points
import proofs.«171627_j76175539962264_1_alg».proof.Proof.Gen.Kernel.Frame
import proofs.«171627_j76175539962264_1_alg».proof.Proof.Gen.KernelIdeal
import proofs.«171627_j76175539962264_1_alg».proof.Proof.Gen.KernelIdeal.Skeleton
import proofs.«171627_j76175539962264_1_alg».proof.Proof.Gen.KernelIdeal.Launch
import proofs.«171627_j76175539962264_1_alg».proof.Proof.Gen.KernelIdeal.Points
import proofs.«171627_j76175539962264_1_alg».proof.Proof.Gen.KernelIdeal.Frame
import proofs.«171627_j76175539962264_1_alg».proof.Proof.Gen.ReferenceIdeal
import proofs.«171627_j76175539962264_1_alg».proof.Proof.Gen.Pre_finite_inputs
import proofs.«171627_j76175539962264_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
